-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x768 : Shape := ⟨3, ![4, 4096, 768]⟩
abbrev S64x768 : Shape := ⟨2, ![64, 768]⟩
abbrev S_ : Shape := ⟨0, ![]⟩

class Facts : Prop where
  bcast_S_S4x4096x768 : S_.BroadcastsInDim S4x4096x768 (![] : Fin 0 → Fin S4x4096x768.rank)
  reducesTo_S4x4096x768_S_d0_1_2 : S4x4096x768.ReducesTo [0, 1, 2] S_
  h_S_ : 0 < S_.numel
  bcast_S_S64x768 : S_.BroadcastsInDim S64x768 (![] : Fin 0 → Fin S64x768.rank)
  reducesTo_S64x768_S_d0_1 : S64x768.ReducesTo [0, 1] S_

variable [Facts]

def fn_part1 {F : FTy → Type} [FloatOps F] (main_v13 : IVec S_ 1) (main_v16 : IVec S64x768 1) : IVec S_ 1 :=
  let main_c_5 : IVec S_ 1 := constantI S_ 1 1#1
  let main_v17 : IVec S_ 1 := (fun x v => Host.reduce IntOp.andi x v reducesTo_S64x768_S_d0_1 h_S_) main_v16 main_c_5
  let main_v18 : IVec S_ 1 := andi main_v13 main_v17
  main_v18

def fn {F : FTy → Type} [FloatOps F] (main_arg0 : FVec F S4x4096x768 .f32) (main_arg1 : FVec F S64x768 .f32) (main_arg2 : FVec F S64x768 .f32) (main_arg3 : FVec F S64x768 .f32) : IVec S_ 1 :=
  let main_v0 : FVec F S4x4096x768 .f32 := Host.absf main_arg0
  let main_cst : FVec F S_ .f32 := constant S_ .f32 0x7F800000#32
  let main_v1 : FVec F S4x4096x768 .f32 := broadcastInDim S4x4096x768 ![] bcast_S_S4x4096x768 main_cst
  let main_v2 : IVec S4x4096x768 1 := cmpf .olt main_v0 main_v1
  let main_c : IVec S_ 1 := constantI S_ 1 1#1
  let main_v3 : IVec S_ 1 := (fun x v => Host.reduce IntOp.andi x v reducesTo_S4x4096x768_S_d0_1_2 h_S_) main_v2 main_c
  let main_v4 : FVec F S64x768 .f32 := Host.absf main_arg1
  let main_cst_0 : FVec F S_ .f32 := constant S_ .f32 0x7F800000#32
  let main_v5 : FVec F S64x768 .f32 := broadcastInDim S64x768 ![] bcast_S_S64x768 main_cst_0
  let main_v6 : IVec S64x768 1 := cmpf .olt main_v4 main_v5
  let main_c_1 : IVec S_ 1 := constantI S_ 1 1#1
  let main_v7 : IVec S_ 1 := (fun x v => Host.reduce IntOp.andi x v reducesTo_S64x768_S_d0_1 h_S_) main_v6 main_c_1
  let main_v8 : IVec S_ 1 := andi main_v3 main_v7
  let main_v9 : FVec F S64x768 .f32 := Host.absf main_arg2
  let main_cst_2 : FVec F S_ .f32 := constant S_ .f32 0x7F800000#32
  let main_v10 : FVec F S64x768 .f32 := broadcastInDim S64x768 ![] bcast_S_S64x768 main_cst_2
  let main_v11 : IVec S64x768 1 := cmpf .olt main_v9 main_v10
  let main_c_3 : IVec S_ 1 := constantI S_ 1 1#1
  let main_v12 : IVec S_ 1 := (fun x v => Host.reduce IntOp.andi x v reducesTo_S64x768_S_d0_1 h_S_) main_v11 main_c_3
  let main_v13 : IVec S_ 1 := andi main_v8 main_v12
  let main_v14 : FVec F S64x768 .f32 := Host.absf main_arg3
  let main_cst_4 : FVec F S_ .f32 := constant S_ .f32 0x7F800000#32
  let main_v15 : FVec F S64x768 .f32 := broadcastInDim S64x768 ![] bcast_S_S64x768 main_cst_4
  let main_v16 : IVec S64x768 1 := cmpf .olt main_v14 main_v15
  fn_part1 (F := F) main_v13 main_v16
-- ==== Kernel.lean ====
abbrev S4x4096x768 : Shape := ⟨3, ![4, 4096, 768]⟩
abbrev S64x768 : Shape := ⟨2, ![64, 768]⟩
abbrev S768x64 : Shape := ⟨2, ![768, 64]⟩
abbrev S4x4096x64 : Shape := ⟨3, ![4, 4096, 64]⟩
abbrev S4x64x64 : Shape := ⟨3, ![4, 64, 64]⟩
abbrev S1x1024x768 : Shape := ⟨3, ![1, 1024, 768]⟩
abbrev S1x1024x64 : Shape := ⟨3, ![1, 1024, 64]⟩
abbrev S1x64x64 : Shape := ⟨3, ![1, 64, 64]⟩
abbrev S64x64 : Shape := ⟨2, ![64, 64]⟩
abbrev S1024x768 : Shape := ⟨2, ![1024, 768]⟩
abbrev S1024x64 : Shape := ⟨2, ![1024, 64]⟩

abbrev nBuf : Space → Nat
  | .hbm => 13
  | .vmem => 16
  | .smem => 0
  | _ => 0

abbrev bufTy : (tb : Table) → Fin (tcTables nBuf tb) → BufTy
  | .hbm, ⟨0, _⟩ => ⟨S4x4096x768, .f32⟩
  | .hbm, ⟨1, _⟩ => ⟨S64x768, .f32⟩
  | .hbm, ⟨2, _⟩ => ⟨S64x768, .f32⟩
  | .hbm, ⟨3, _⟩ => ⟨S64x768, .f32⟩
  | .hbm, ⟨4, _⟩ => ⟨S768x64, .f32⟩
  | .hbm, ⟨5, _⟩ => ⟨S768x64, .bf16⟩
  | .hbm, ⟨6, _⟩ => ⟨S768x64, .f32⟩
  | .hbm, ⟨7, _⟩ => ⟨S768x64, .bf16⟩
  | .hbm, ⟨8, _⟩ => ⟨S768x64, .f32⟩
  | .hbm, ⟨9, _⟩ => ⟨S768x64, .bf16⟩
  | .hbm, ⟨10, _⟩ => ⟨S4x4096x64, .bf16⟩
  | .hbm, ⟨11, _⟩ => ⟨S4x64x64, .f32⟩
  | .hbm, ⟨12, _⟩ => ⟨S4x4096x64, .f32⟩
  | .local _ .vmem, ⟨0, _⟩ => ⟨S1x1024x768, .f32⟩
  | .local _ .vmem, ⟨1, _⟩ => ⟨S1x1024x768, .f32⟩
  | .local _ .vmem, ⟨2, _⟩ => ⟨S768x64, .bf16⟩
  | .local _ .vmem, ⟨3, _⟩ => ⟨S768x64, .bf16⟩
  | .local _ .vmem, ⟨4, _⟩ => ⟨S768x64, .bf16⟩
  | .local _ .vmem, ⟨5, _⟩ => ⟨S1x1024x64, .bf16⟩
  | .local _ .vmem, ⟨6, _⟩ => ⟨S1x1024x64, .bf16⟩
  | .local _ .vmem, ⟨7, _⟩ => ⟨S1x64x64, .f32⟩
  | .local _ .vmem, ⟨8, _⟩ => ⟨S1x64x64, .f32⟩
  | .local _ .vmem, ⟨9, _⟩ => ⟨S64x64, .f32⟩
  | .local _ .vmem, ⟨10, _⟩ => ⟨S1x1024x64, .bf16⟩
  | .local _ .vmem, ⟨11, _⟩ => ⟨S1x1024x64, .bf16⟩
  | .local _ .vmem, ⟨12, _⟩ => ⟨S1x64x64, .f32⟩
  | .local _ .vmem, ⟨13, _⟩ => ⟨S1x64x64, .f32⟩
  | .local _ .vmem, ⟨14, _⟩ => ⟨S1x1024x64, .f32⟩
  | .local _ .vmem, ⟨15, _⟩ => ⟨S1x1024x64, .f32⟩
  | _, _ => ⟨S4x4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v27 : BitVec 1 := Scalar.cmpi .eq arg1 c3_i32
  let v28 : BitVec 32 := Scalar.extui v27
  let c0_i32_19 : BitVec 32 := 0#32
  let v29 : BitVec 1 := Scalar.cmpi .ne v28 c0_i32_19
  v29

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S768x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S768x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S768x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1024x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x64x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev grid1 : Pipeline.Grid := ⟨2, ![4, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x1024x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x64x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x1024x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  transposes_S64x768_S768x64_1_0 : S64x768.Transposes [1, 0] S768x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x1024x768_S1x1024x768_0_0_0 : ∀ a, (![0, 0, 0] : Fin 3 → Nat) a + S1x1024x768.size a ≤ S1x1024x768.size a
  h_S1x1024x768 : 0 < S1x1024x768.numel
  shapeCasts_S1x1024x768_S1024x768 : S1x1024x768.ShapeCasts S1024x768
  inb_S768x64_S768x64_0_0 : ∀ a, (![0, 0] : Fin 2 → Nat) a + S768x64.size a ≤ S768x64.size a
  h_S768x64 : 0 < S768x64.numel
  shapeCasts_S768x64_S768x64 : S768x64.ShapeCasts S768x64
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  shapeCasts_S1024x64_S1x1024x64 : S1024x64.ShapeCasts S1x1024x64
  packedbf16_S1x1024x64_S1x1024x64_0_0_0 : (Rect.unit (s := S1x1024x64) ![0, 0, 0] S1x1024x64.size inb_S1x1024x64_S1x1024x64_0_0_0).PackedRows (EltTy.packing .bf16)
  inb_S1x64x64_S1x64x64_0_0_0 : ∀ a, (![0, 0, 0] : Fin 3 → Nat) a + S1x64x64.size a ≤ S1x64x64.size a
  h_S1x64x64 : 0 < S1x64x64.numel
  shapeCasts_S1x64x64_S64x64 : S1x64x64.ShapeCasts S64x64
  shapeCasts_S64x64_S1x64x64 : S64x64.ShapeCasts S1x64x64
  dot_S1024x768_S768x64_S1024x64_1_0_0_1_n_n_wf : DotDims.WF S1024x768 S768x64 S1024x64 [1] [0] [0] [1] [] []
  dot_S1024x64_S1024x64_S64x64_0_0_1_1_n_n_wf : DotDims.WF S1024x64 S1024x64 S64x64 [0] [0] [1] [1] [] []
  dot_S1024x64_S64x64_S1024x64_1_0_0_1_n_n_wf : DotDims.WF S1024x64 S64x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x768.size a ≤ S4x4096x768.size a
  hwx0_0 : ∀ i : grid0.Coords, EltTy.bits .f32 = 32 ∨ (Rect.block (s := S4x4096x768) S1x1024x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x64.size a ≤ S768x64.size a
  hwx0_1 : ∀ i : grid0.Coords, EltTy.bits .bf16 = 32 ∨ (Rect.block (s := S768x64) S768x64.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S768x64.size a ≤ S768x64.size a
  hwx0_2 : ∀ i : grid0.Coords, EltTy.bits .bf16 = 32 ∨ (Rect.block (s := S768x64) S768x64.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S768x64.size a ≤ S768x64.size a
  hwx0_3 : ∀ i : grid0.Coords, EltTy.bits .bf16 = 32 ∨ (Rect.block (s := S768x64) S768x64.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x64.size a ≤ S4x4096x64.size a
  hwx0_4 : ∀ i : grid0.Coords, EltTy.bits .bf16 = 32 ∨ (Rect.block (s := S4x4096x64) S1x1024x64.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x64x64.size a ≤ S4x64x64.size a
  hwx0_5 : ∀ i : grid0.Coords, EltTy.bits .f32 = 32 ∨ (Rect.block (s := S4x64x64) S1x64x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x64.size a ≤ S4x4096x64.size a
  hwx1_0 : ∀ i : grid1.Coords, EltTy.bits .bf16 = 32 ∨ (Rect.block (s := S4x4096x64) S1x1024x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x64x64.size a ≤ S4x64x64.size a
  hwx1_1 : ∀ i : grid1.Coords, EltTy.bits .f32 = 32 ∨ (Rect.block (s := S4x64x64) S1x64x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x64.size a ≤ S4x4096x64.size a
  hwx1_2 : ∀ i : grid1.Coords, EltTy.bits .f32 = 32 ∨ (Rect.block (s := S4x4096x64) S1x1024x64.size (cc1_transform_2 i) (hinb1_2 i)).WholeWords (EltTy.packing .f32)

variable [Facts₀]

def dot_S1024x768_S768x64_S1024x64_1_0_0_1_n_n : DotDims S1024x768 S768x64 S1024x64 where
  lhsContracting := [1]
  rhsContracting := [0]
  lhsNonContracting := [0]
  rhsNonContracting := [1]
  lhsBatch := []
  rhsBatch := []
  wf := dot_S1024x768_S768x64_S1024x64_1_0_0_1_n_n_wf
def dot_S1024x64_S1024x64_S64x64_0_0_1_1_n_n : DotDims S1024x64 S1024x64 S64x64 where
  lhsContracting := [0]
  rhsContracting := [0]
  lhsNonContracting := [1]
  rhsNonContracting := [1]
  lhsBatch := []
  rhsBatch := []
  wf := dot_S1024x64_S1024x64_S64x64_0_0_1_1_n_n_wf
def dot_S1024x64_S64x64_S1024x64_1_0_0_1_n_n : DotDims S1024x64 S64x64 S1024x64 where
  lhsContracting := [1]
  rhsContracting := [0]
  lhsNonContracting := [0]
  rhsNonContracting := [1]
  lhsBatch := []
  rhsBatch := []
  wf := dot_S1024x64_S64x64_S1024x64_1_0_0_1_n_n_wf

abbrev win0_0 : Pipeline.Window sig grid0 :=
  Pipeline.Window.ofSpec (Memref.whole main_arg0) S1x1024x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S768x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S768x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S768x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6_0) S1x1024x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v6_1) S1x64x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

abbrev win1_0 : Pipeline.Window sig grid1 :=
  Pipeline.Window.ofSpec (Memref.whole main_v6_0) S1x1024x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6_1) S1x64x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7) S1x1024x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S4x4096x768 : Shape := ⟨3, ![4, 4096, 768]⟩
abbrev S64x768 : Shape := ⟨2, ![64, 768]⟩
abbrev S4x4096x64 : Shape := ⟨3, ![4, 4096, 64]⟩
abbrev S4x4096x4096 : Shape := ⟨3, ![4, 4096, 4096]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S4x4096x768, .f32⟩
  | .hbm, ⟨1, _⟩ => ⟨S64x768, .f32⟩
  | .hbm, ⟨2, _⟩ => ⟨S64x768, .f32⟩
  | .hbm, ⟨3, _⟩ => ⟨S64x768, .f32⟩
  | .hbm, ⟨4, _⟩ => ⟨S4x4096x64, .f32⟩
  | .hbm, ⟨5, _⟩ => ⟨S4x4096x64, .f32⟩
  | .hbm, ⟨6, _⟩ => ⟨S4x4096x64, .f32⟩
  | .hbm, ⟨7, _⟩ => ⟨S4x4096x4096, .f32⟩
  | .hbm, ⟨8, _⟩ => ⟨S_, .f32⟩
  | .hbm, ⟨9, _⟩ => ⟨S4x4096x4096, .f32⟩
  | .hbm, ⟨10, _⟩ => ⟨S4x4096x4096, .f32⟩
  | .hbm, ⟨11, _⟩ => ⟨S4x4096x64, .f32⟩
  | _, _ => ⟨S4x4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]

class Facts₀ : Prop where
  bcast_S_S4x4096x4096 : S_.BroadcastsInDim S4x4096x4096 (![] : Fin 0 → Fin S4x4096x4096.rank)
  dot_S4x4096x768_S64x768_S4x4096x64_2_1_01_0_n_n_wf : DotDims.WF S4x4096x768 S64x768 S4x4096x64 [2] [1] [0, 1] [0] [] []
  dot_S4x4096x64_S4x4096x64_S4x4096x4096_2_2_1_1_0_0_wf : DotDims.WF S4x4096x64 S4x4096x64 S4x4096x4096 [2] [2] [1] [1] [0] [0]
  dot_S4x4096x4096_S4x4096x64_S4x4096x64_2_1_1_2_0_0_wf : DotDims.WF S4x4096x4096 S4x4096x64 S4x4096x64 [2] [1] [1] [2] [0] [0]

variable [Facts₀]

def dot_S4x4096x768_S64x768_S4x4096x64_2_1_01_0_n_n : DotDims S4x4096x768 S64x768 S4x4096x64 where
  lhsContracting := [2]
  rhsContracting := [1]
  lhsNonContracting := [0, 1]
  rhsNonContracting := [0]
  lhsBatch := []
  rhsBatch := []
  wf := dot_S4x4096x768_S64x768_S4x4096x64_2_1_01_0_n_n_wf
def dot_S4x4096x64_S4x4096x64_S4x4096x4096_2_2_1_1_0_0 : DotDims S4x4096x64 S4x4096x64 S4x4096x4096 where
  lhsContracting := [2]
  rhsContracting := [2]
  lhsNonContracting := [1]
  rhsNonContracting := [1]
  lhsBatch := [0]
  rhsBatch := [0]
  wf := dot_S4x4096x64_S4x4096x64_S4x4096x4096_2_2_1_1_0_0_wf
def dot_S4x4096x4096_S4x4096x64_S4x4096x64_2_1_1_2_0_0 : DotDims S4x4096x4096 S4x4096x64 S4x4096x64 where
  lhsContracting := [2]
  rhsContracting := [1]
  lhsNonContracting := [1]
  rhsNonContracting := [2]
  lhsBatch := [0]
  rhsBatch := [0]
  wf := dot_S4x4096x4096_S4x4096x64_S4x4096x64_2_1_1_2_0_0_wf

class Facts : Prop extends Facts₀ where

variable [Facts]
-- ==== Proof.FrameKernel.Shared.lean ====
/-
  The frame of a program with two kernel regions: what both regions' proofs share.

  Region 0 runs on a 4 × 4 grid (batch b, tile t of 1024 rows). Its body reads one tile of the input and the three
  transposed weight matrices, writes the tile's query rows (window 4), and adds the tile's Kᵀ V into a 64 × 64 scratch
  that it carries from one tile to the next: the scratch is reset at tile 0 and, at tile 3, scaled and copied into
  window 5, which the body leaves alone at the other tiles. Region 1, on the same grid, multiplies a tile of query rows
  by the batch's 64 × 64 matrix.

  Here: a window's block at a grid point read off the array as the region finds it; that an input's staging buffer holds
  its block at every point; the two branch conditions of region 0's body in closed form over the grid; where window 5 is
  idle; the staging and scratch memrefs; and the class invariant with the scratch named.
-/
import proofs.«147860_j24275155157741_2_alg».proof.Proof.Gen.Kernel.Launch
import proofs.«147860_j24275155157741_2_alg».proof.Proof.Gen.Kernel.Skeleton
import proofs.«147860_j24275155157741_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Blocks
-- the TensorCore's buffer contents when a region is entered: a parameter, instantiated per region by the run
variable (V : (c : Dev nD) → (b : Ref sig .tc) → Buf (Elt F) ((c : Thread nD τ).loc b))

/-- Window `w` of region 0 at point `t`: its block of the array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Window `w` of region 1 at point `t`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's current staging buffer holds its block at every point, fetched there or not (when it is not
    fetched its block index has not moved), for any proof data over the entry contents that leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

end Blocks

/-! ## Region 0's branch conditions, in closed form -/

/-- "This is tile 0" as the body computes it from the grid coordinates. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- "This is tile 3". -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where region 0's windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
/-- Away from tile 3 the body stores nothing into window 5, and the pipeline does not write it back there. -/
theorem idleAt0_5 : ∀ t : Fin cfg0.N, ¬cond0_1 (grid0.coords t) → cfg0.idle 5 (grid0.coords t) = true := by decide +kernel
theorem noFlush0_5 : ∀ t : Fin cfg0.N, ¬cond0_1 (grid0.coords t) → (cfg0.win 5).flush t = false := by decide +kernel
theorem liveAt0_5 : ∀ t : Fin cfg0.N, cond0_1 (grid0.coords t) → cfg0.idle 5 (grid0.coords t) = false := by decide +kernel

/-! ## The memrefs the body is called with -/

/-- One staging buffer of each output window of region 0, through which its contents are stated. -/
abbrev VO0_4 : View sig .tc .vmem S1x1024x64 .bf16 := (Memref.whole cc0_stg4_0 : Memref sig .tc .vmem S1x1024x64 .bf16).view
abbrev VO0_5 : View sig .tc .vmem S1x64x64 .f32 := (Memref.whole cc0_stg5_0 : Memref sig .tc .vmem S1x64x64 .f32).view
abbrev ms0_0 (t : Fin cfg0.N) : Memref sig .tc .vmem S1x1024x768 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S768x64 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S768x64 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S768x64 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1024x64 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x64x64 .f32 := win0_5.stage (cfg0.slots t 5)
abbrev hs0_5 (t : Fin cfg0.N) : (ms0_5 t).IsWhole := hstage0_5 ((cfg0.slots t 5).cast nbuf0_5)
/-- The 64 × 64 scratch: a whole scoped buffer of the kernel's own, passed beside the windows. -/
abbrev scM0_0 : Memref sig .tc .vmem S64x64 .f32 := Memref.whole cc0_scratch0
abbrev VS0_0 : View sig .tc .vmem S64x64 .f32 := scM0_0.view

/-- The class invariant of region 0 with the scratch split off as a memref owned at some contents; the other scoped
    buffers (region 1's staging buffers) stay as they are. -/
def restOf0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

theorem PhiA0_eq (c : Dev nD) :
    (Pipeline.ΦA spec0 c : sProp 𝕄)
      = iprop(iprop((∃ d, owns (c : Thread nD τ) scM0_0 fullShare d) ∗ restOf0 c) ∗ (∃ r, prngReg c r)) := by
  unfold Pipeline.ΦA restOf0; rw [scopedRest0_eq]; simp only [scM0_0, owns_whole]; try rfl

end Cert.Kernel.Frame

end
-- ==== Proof.FrameKernel.CaseA.lean ====
/-
  Region 0's body at a grid point of tile 0 (the reset branch taken, the copy-out branch not): run on whole staging
  memrefs with the four inputs at given contents, window 4's buffer and the scratch at anything, and window 5's buffer —
  which this case never stores into — at given contents, it ends with the inputs and window 5's buffer as they were and
  with window 4's buffer and the scratch each overwritten by a list of stored pieces. The pieces are found by running the
  body symbolically; they are this definition's first components.
-/
import proofs.«147860_j24275155157741_2_alg».proof.Proof.FrameKernel.Shared

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRun0_A (c : Dev nD) (i : grid0.Coords) (arg2 : Memref sig .tc .vmem S1x1024x768 .f32) (harg2 : arg2.IsWhole) (arg3 : Memref sig .tc .vmem S768x64 .bf16) (harg3 : arg3.IsWhole) (arg4 : Memref sig .tc .vmem S768x64 .bf16) (harg4 : arg4.IsWhole) (arg5 : Memref sig .tc .vmem S768x64 .bf16) (harg5 : arg5.IsWhole) (arg6 : Memref sig .tc .vmem S1x1024x64 .bf16) (harg6 : arg6.IsWhole) (arg7 : Memref sig .tc .vmem S1x64x64 .f32) (harg7 : arg7.IsWhole) (arg8 : Memref sig .tc .vmem S64x64 .f32) (harg8 : arg8.IsWhole) (hc0 : cond0_0 i) (hc1 : ¬cond0_1 i)
    (x0 : Vec F S1x1024x768 .f32) (x1 x2 x3 : Vec F S768x64 .bf16) :
    Σ' (L4 : List (View.Piece (Elt F) S1x1024x64 .bf16)), { LS0 : List (View.Piece (Elt F) S64x64 .f32) //
      ∀ (xi5 : Vec F S1x64x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc0_proj_ktv_kernel i arg2 harg2 arg3 harg3 arg4 harg4 arg5 harg5 arg6 harg6 arg7 harg7 arg8 harg8) K } := by
  refine ⟨?_, ?_, fun xi5 E K => ?run⟩
  case run =>
    simp only [cc0_proj_ktv_kernel_eq_skeleton]; unfold cc0_proj_ktv_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%ds0, %fs0, -, HS0⟩, Hk⟩
    obtain rfl := harg2.eq_unread hf0; obtain rfl := harg3.eq_unread hf1; obtain rfl := harg4.eq_unread hf2; obtain rfl := harg5.eq_unread hf3; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]
    · iexists _; isplitr; · ipureintro; exact harg7.read_unread _
      iexact H5
    iexists _; iexact HS0

end Cert.Kernel.Frame

end
-- ==== Proof.FrameKernel.CaseB.lean ====
/-
  Region 0's body at a grid point of tile 1 or 2 (neither branch taken): run on whole staging memrefs with the four
  inputs at given contents, window 4's buffer at anything, window 5's buffer — never stored into here — and the scratch at
  given contents (what the tile before left), it ends with the inputs and window 5's buffer as they were and with window
  4's buffer and the scratch each overwritten by a list of stored pieces, found by running the body symbolically.
-/
import proofs.«147860_j24275155157741_2_alg».proof.Proof.FrameKernel.Shared

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRun0_B (c : Dev nD) (i : grid0.Coords) (arg2 : Memref sig .tc .vmem S1x1024x768 .f32) (harg2 : arg2.IsWhole) (arg3 : Memref sig .tc .vmem S768x64 .bf16) (harg3 : arg3.IsWhole) (arg4 : Memref sig .tc .vmem S768x64 .bf16) (harg4 : arg4.IsWhole) (arg5 : Memref sig .tc .vmem S768x64 .bf16) (harg5 : arg5.IsWhole) (arg6 : Memref sig .tc .vmem S1x1024x64 .bf16) (harg6 : arg6.IsWhole) (arg7 : Memref sig .tc .vmem S1x64x64 .f32) (harg7 : arg7.IsWhole) (arg8 : Memref sig .tc .vmem S64x64 .f32) (harg8 : arg8.IsWhole) (hc0 : ¬cond0_0 i) (hc1 : ¬cond0_1 i)
    (x0 : Vec F S1x1024x768 .f32) (x1 x2 x3 : Vec F S768x64 .bf16) (xs0 : Vec F S64x64 .f32) :
    Σ' (L4 : List (View.Piece (Elt F) S1x1024x64 .bf16)), { LS0 : List (View.Piece (Elt F) S64x64 .f32) //
      ∀ (xi5 : Vec F S1x64x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xi5 ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc0_proj_ktv_kernel i arg2 harg2 arg3 harg3 arg4 harg4 arg5 harg5 arg6 harg6 arg7 harg7 arg8 harg8) K } := by
  refine ⟨?_, ?_, fun xi5 E K => ?run⟩
  case run =>
    simp only [cc0_proj_ktv_kernel_eq_skeleton]; unfold cc0_proj_ktv_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hf5; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]
    · iexists _; isplitr; · ipureintro; exact harg7.read_unread _
      iexact H5
    iexists _; iexact HS0

end Cert.Kernel.Frame

end
-- ==== Proof.FrameKernel.CaseC.lean ====
/-
  Region 0's body at a grid point of tile 3 (the reset branch not taken, the copy-out branch taken): run on whole staging
  memrefs with the four inputs at given contents, the buffers of windows 4 and 5 at anything and the scratch at given
  contents (what tile 2 left), it ends with the inputs as they were and with both output buffers and the scratch each
  overwritten by a list of stored pieces, found by running the body symbolically.
-/
import proofs.«147860_j24275155157741_2_alg».proof.Proof.FrameKernel.Shared

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRun0_C (c : Dev nD) (i : grid0.Coords) (arg2 : Memref sig .tc .vmem S1x1024x768 .f32) (harg2 : arg2.IsWhole) (arg3 : Memref sig .tc .vmem S768x64 .bf16) (harg3 : arg3.IsWhole) (arg4 : Memref sig .tc .vmem S768x64 .bf16) (harg4 : arg4.IsWhole) (arg5 : Memref sig .tc .vmem S768x64 .bf16) (harg5 : arg5.IsWhole) (arg6 : Memref sig .tc .vmem S1x1024x64 .bf16) (harg6 : arg6.IsWhole) (arg7 : Memref sig .tc .vmem S1x64x64 .f32) (harg7 : arg7.IsWhole) (arg8 : Memref sig .tc .vmem S64x64 .f32) (harg8 : arg8.IsWhole) (hc0 : ¬cond0_0 i) (hc1 : cond0_1 i)
    (x0 : Vec F S1x1024x768 .f32) (x1 x2 x3 : Vec F S768x64 .bf16) (xs0 : Vec F S64x64 .f32) :
    Σ' (L4 : List (View.Piece (Elt F) S1x1024x64 .bf16)) (L5 : List (View.Piece (Elt F) S1x64x64 .f32)), { LS0 : List (View.Piece (Elt F) S64x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc0_proj_ktv_kernel i arg2 harg2 arg3 harg3 arg4 harg4 arg5 harg5 arg6 harg6 arg7 harg7 arg8 harg8) K } := by
  refine ⟨?_, ?_, ?_, fun E K => ?run⟩
  case run =>
    simp only [cc0_proj_ktv_kernel_eq_skeleton]; unfold cc0_proj_ktv_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    iexists _; iexact HS0

end Cert.Kernel.Frame

end
-- ==== Proof.FrameKernel.Region1.lean ====
/-
  Region 1's body: on whole staging memrefs with a tile of query rows and the batch's 64 × 64 matrix at given contents and
  the output buffer at anything, it ends with the inputs as they were and the output buffer at the one stored value — the
  tile of query rows times the matrix — read through the store's rectangle, which is the whole buffer.
-/
import proofs.«147860_j24275155157741_2_alg».proof.Proof.FrameKernel.Shared

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The one rectangle region 1's body loads and stores through: a whole [1, 1024, 64] buffer; and the whole [1, 64, 64]. -/
abbrev r1_q : Rect S1x1024x64 := Rect.unit (s := S1x1024x64) ![0, 0, 0] S1x1024x64.size inb_S1x1024x64_S1x1024x64_0_0_0
abbrev r1_m : Rect S1x64x64 := Rect.unit (s := S1x64x64) ![0, 0, 0] S1x64x64.size inb_S1x64x64_S1x64x64_0_0_0

/-- What the body leaves in the output window's buffer, from the two input blocks: its one store as a piece. -/
def out1_2 (x0 : Vec F S1x1024x64 .bf16) (x1 : Vec F S1x64x64 .f32) : Vec F S1x1024x64 .f32 :=
  View.canon [⟨r1_q, k1_pay1 (View.ld x0 r1_q) (View.ld x1 r1_m)⟩]

/-- The store's rectangle is the whole buffer, so the piece covers it. -/
theorem cover1_2 (p0 : Vec F S1x1024x64 .f32) (y : S1x1024x64.Idx) :
    ∃ pc ∈ ([⟨r1_q, p0⟩] : List (View.Piece (Elt F) S1x1024x64 .f32)), y ∈ pc.1.set :=
  View.cover_of_tiled [⟨r1_q, p0⟩] S1x1024x64.size (by rfl) y

set_option maxHeartbeats 4000000 in
theorem sound_kernel1 (c : Dev nD) (E : Set ℕ) (i : grid1.Coords) (arg2 : Memref sig .tc .vmem S1x1024x64 .bf16) (harg2 : arg2.IsWhole) (arg3 : Memref sig .tc .vmem S1x64x64 .f32) (harg3 : arg3.IsWhole) (arg4 : Memref sig .tc .vmem S1x1024x64 .f32) (harg4 : arg4.IsWhole)
    (x0 : Vec F S1x1024x64 .bf16) (x1 : Vec F S1x64x64 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out1_2 x0 x1)) -∗ K ⟨⟩))
      ⊢ wp frame (wpE (defs₀ (F := F)) Variants.none c none) E (cc1_attn_out_kernel i arg2 harg2 arg3 harg3 arg4 harg4) K := by
  simp only [cc1_attn_out_kernel_eq_skeleton]; unfold cc1_attn_out_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

end Cert.Kernel.Frame

end
-- ==== Proof.FrameKernel.Data.lean ====
/-
  The proof data of the two regions.

  Region 0. At a grid point the body is in one of three cases, by the tile number: tile 0 (reset, then accumulate), tiles
  1 and 2 (accumulate), tile 3 (accumulate, then scale and copy out). What each case leaves in window 4's buffer, in window
  5's buffer and in the scratch is the list of pieces that case's run found, read back; the scratch a case starts from is
  what the tile before left, so the contents after each point are defined by recursion along the grid's 16 points
  (`outsAt0`). The region's invariant before a point is the class's before the first point and afterwards the scratch at
  what the point before left (`PhiS`).

  Region 1 has one case and carries nothing: its output buffer after the body is the one stored value.
-/
import proofs.«147860_j24275155157741_2_alg».proof.Proof.FrameKernel.CaseA
import proofs.«147860_j24275155157741_2_alg».proof.Proof.FrameKernel.CaseB
import proofs.«147860_j24275155157741_2_alg».proof.Proof.FrameKernel.CaseC
import proofs.«147860_j24275155157741_2_alg».proof.Proof.FrameKernel.Region1

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The found pieces cover their buffers -/

theorem cover4_A (c : Dev nD) (i : grid0.Coords) (arg2 : Memref sig .tc .vmem S1x1024x768 .f32) (harg2 : arg2.IsWhole) (arg3 : Memref sig .tc .vmem S768x64 .bf16) (harg3 : arg3.IsWhole) (arg4 : Memref sig .tc .vmem S768x64 .bf16) (harg4 : arg4.IsWhole) (arg5 : Memref sig .tc .vmem S768x64 .bf16) (harg5 : arg5.IsWhole) (arg6 : Memref sig .tc .vmem S1x1024x64 .bf16) (harg6 : arg6.IsWhole) (arg7 : Memref sig .tc .vmem S1x64x64 .f32) (harg7 : arg7.IsWhole) (arg8 : Memref sig .tc .vmem S64x64 .f32) (harg8 : arg8.IsWhole) (hc0 : cond0_0 i) (hc1 : ¬cond0_1 i) (x0 : Vec F S1x1024x768 .f32) (x1 x2 x3 : Vec F S768x64 .bf16) (y : S1x1024x64.Idx) :
    ∃ pc ∈ (kernelRun0_A c i arg2 harg2 arg3 harg3 arg4 harg4 arg5 harg5 arg6 harg6 arg7 harg7 arg8 harg8 hc0 hc1 x0 x1 x2 x3).1, y ∈ pc.1.set :=
  View.cover_of_tiledL (kernelRun0_A c i arg2 harg2 arg3 harg3 arg4 harg4 arg5 harg5 arg6 harg6 arg7 harg7 arg8 harg8 hc0 hc1 x0 x1 x2 x3).1 S1x1024x64.size (by sl_kernel_rfl) y
theorem scover_A (c : Dev nD) (i : grid0.Coords) (arg2 : Memref sig .tc .vmem S1x1024x768 .f32) (harg2 : arg2.IsWhole) (arg3 : Memref sig .tc .vmem S768x64 .bf16) (harg3 : arg3.IsWhole) (arg4 : Memref sig .tc .vmem S768x64 .bf16) (harg4 : arg4.IsWhole) (arg5 : Memref sig .tc .vmem S768x64 .bf16) (harg5 : arg5.IsWhole) (arg6 : Memref sig .tc .vmem S1x1024x64 .bf16) (harg6 : arg6.IsWhole) (arg7 : Memref sig .tc .vmem S1x64x64 .f32) (harg7 : arg7.IsWhole) (arg8 : Memref sig .tc .vmem S64x64 .f32) (harg8 : arg8.IsWhole) (hc0 : cond0_0 i) (hc1 : ¬cond0_1 i) (x0 : Vec F S1x1024x768 .f32) (x1 x2 x3 : Vec F S768x64 .bf16) (y : S64x64.Idx) :
    ∃ pc ∈ (kernelRun0_A c i arg2 harg2 arg3 harg3 arg4 harg4 arg5 harg5 arg6 harg6 arg7 harg7 arg8 harg8 hc0 hc1 x0 x1 x2 x3).2.1, y ∈ pc.1.set :=
  View.cover_of_tiledL (kernelRun0_A c i arg2 harg2 arg3 harg3 arg4 harg4 arg5 harg5 arg6 harg6 arg7 harg7 arg8 harg8 hc0 hc1 x0 x1 x2 x3).2.1 S64x64.size (by sl_kernel_rfl) y
theorem cover4_B (c : Dev nD) (i : grid0.Coords) (arg2 : Memref sig .tc .vmem S1x1024x768 .f32) (harg2 : arg2.IsWhole) (arg3 : Memref sig .tc .vmem S768x64 .bf16) (harg3 : arg3.IsWhole) (arg4 : Memref sig .tc .vmem S768x64 .bf16) (harg4 : arg4.IsWhole) (arg5 : Memref sig .tc .vmem S768x64 .bf16) (harg5 : arg5.IsWhole) (arg6 : Memref sig .tc .vmem S1x1024x64 .bf16) (harg6 : arg6.IsWhole) (arg7 : Memref sig .tc .vmem S1x64x64 .f32) (harg7 : arg7.IsWhole) (arg8 : Memref sig .tc .vmem S64x64 .f32) (harg8 : arg8.IsWhole) (hc0 : ¬cond0_0 i) (hc1 : ¬cond0_1 i) (x0 : Vec F S1x1024x768 .f32) (x1 x2 x3 : Vec F S768x64 .bf16) (xs0 : Vec F S64x64 .f32) (y : S1x1024x64.Idx) :
    ∃ pc ∈ (kernelRun0_B c i arg2 harg2 arg3 harg3 arg4 harg4 arg5 harg5 arg6 harg6 arg7 harg7 arg8 harg8 hc0 hc1 x0 x1 x2 x3 xs0).1, y ∈ pc.1.set :=
  View.cover_of_tiledL (kernelRun0_B c i arg2 harg2 arg3 harg3 arg4 harg4 arg5 harg5 arg6 harg6 arg7 harg7 arg8 harg8 hc0 hc1 x0 x1 x2 x3 xs0).1 S1x1024x64.size (by sl_kernel_rfl) y
theorem scover_B (c : Dev nD) (i : grid0.Coords) (arg2 : Memref sig .tc .vmem S1x1024x768 .f32) (harg2 : arg2.IsWhole) (arg3 : Memref sig .tc .vmem S768x64 .bf16) (harg3 : arg3.IsWhole) (arg4 : Memref sig .tc .vmem S768x64 .bf16) (harg4 : arg4.IsWhole) (arg5 : Memref sig .tc .vmem S768x64 .bf16) (harg5 : arg5.IsWhole) (arg6 : Memref sig .tc .vmem S1x1024x64 .bf16) (harg6 : arg6.IsWhole) (arg7 : Memref sig .tc .vmem S1x64x64 .f32) (harg7 : arg7.IsWhole) (arg8 : Memref sig .tc .vmem S64x64 .f32) (harg8 : arg8.IsWhole) (hc0 : ¬cond0_0 i) (hc1 : ¬cond0_1 i) (x0 : Vec F S1x1024x768 .f32) (x1 x2 x3 : Vec F S768x64 .bf16) (xs0 : Vec F S64x64 .f32) (y : S64x64.Idx) :
    ∃ pc ∈ (kernelRun0_B c i arg2 harg2 arg3 harg3 arg4 harg4 arg5 harg5 arg6 harg6 arg7 harg7 arg8 harg8 hc0 hc1 x0 x1 x2 x3 xs0).2.1, y ∈ pc.1.set :=
  View.cover_of_tiledL (kernelRun0_B c i arg2 harg2 arg3 harg3 arg4 harg4 arg5 harg5 arg6 harg6 arg7 harg7 arg8 harg8 hc0 hc1 x0 x1 x2 x3 xs0).2.1 S64x64.size (by sl_kernel_rfl) y
theorem cover4_C (c : Dev nD) (i : grid0.Coords) (arg2 : Memref sig .tc .vmem S1x1024x768 .f32) (harg2 : arg2.IsWhole) (arg3 : Memref sig .tc .vmem S768x64 .bf16) (harg3 : arg3.IsWhole) (arg4 : Memref sig .tc .vmem S768x64 .bf16) (harg4 : arg4.IsWhole) (arg5 : Memref sig .tc .vmem S768x64 .bf16) (harg5 : arg5.IsWhole) (arg6 : Memref sig .tc .vmem S1x1024x64 .bf16) (harg6 : arg6.IsWhole) (arg7 : Memref sig .tc .vmem S1x64x64 .f32) (harg7 : arg7.IsWhole) (arg8 : Memref sig .tc .vmem S64x64 .f32) (harg8 : arg8.IsWhole) (hc0 : ¬cond0_0 i) (hc1 : cond0_1 i) (x0 : Vec F S1x1024x768 .f32) (x1 x2 x3 : Vec F S768x64 .bf16) (xs0 : Vec F S64x64 .f32) (y : S1x1024x64.Idx) :
    ∃ pc ∈ (kernelRun0_C c i arg2 harg2 arg3 harg3 arg4 harg4 arg5 harg5 arg6 harg6 arg7 harg7 arg8 harg8 hc0 hc1 x0 x1 x2 x3 xs0).1, y ∈ pc.1.set :=
  View.cover_of_tiledL (kernelRun0_C c i arg2 harg2 arg3 harg3 arg4 harg4 arg5 harg5 arg6 harg6 arg7 harg7 arg8 harg8 hc0 hc1 x0 x1 x2 x3 xs0).1 S1x1024x64.size (by sl_kernel_rfl) y
theorem cover5_C (c : Dev nD) (i : grid0.Coords) (arg2 : Memref sig .tc .vmem S1x1024x768 .f32) (harg2 : arg2.IsWhole) (arg3 : Memref sig .tc .vmem S768x64 .bf16) (harg3 : arg3.IsWhole) (arg4 : Memref sig .tc .vmem S768x64 .bf16) (harg4 : arg4.IsWhole) (arg5 : Memref sig .tc .vmem S768x64 .bf16) (harg5 : arg5.IsWhole) (arg6 : Memref sig .tc .vmem S1x1024x64 .bf16) (harg6 : arg6.IsWhole) (arg7 : Memref sig .tc .vmem S1x64x64 .f32) (harg7 : arg7.IsWhole) (arg8 : Memref sig .tc .vmem S64x64 .f32) (harg8 : arg8.IsWhole) (hc0 : ¬cond0_0 i) (hc1 : cond0_1 i) (x0 : Vec F S1x1024x768 .f32) (x1 x2 x3 : Vec F S768x64 .bf16) (xs0 : Vec F S64x64 .f32) (y : S1x64x64.Idx) :
    ∃ pc ∈ (kernelRun0_C c i arg2 harg2 arg3 harg3 arg4 harg4 arg5 harg5 arg6 harg6 arg7 harg7 arg8 harg8 hc0 hc1 x0 x1 x2 x3 xs0).2.1, y ∈ pc.1.set :=
  View.cover_of_tiledL (kernelRun0_C c i arg2 harg2 arg3 harg3 arg4 harg4 arg5 harg5 arg6 harg6 arg7 harg7 arg8 harg8 hc0 hc1 x0 x1 x2 x3 xs0).2.1 S1x64x64.size (by sl_kernel_rfl) y
theorem scover_C (c : Dev nD) (i : grid0.Coords) (arg2 : Memref sig .tc .vmem S1x1024x768 .f32) (harg2 : arg2.IsWhole) (arg3 : Memref sig .tc .vmem S768x64 .bf16) (harg3 : arg3.IsWhole) (arg4 : Memref sig .tc .vmem S768x64 .bf16) (harg4 : arg4.IsWhole) (arg5 : Memref sig .tc .vmem S768x64 .bf16) (harg5 : arg5.IsWhole) (arg6 : Memref sig .tc .vmem S1x1024x64 .bf16) (harg6 : arg6.IsWhole) (arg7 : Memref sig .tc .vmem S1x64x64 .f32) (harg7 : arg7.IsWhole) (arg8 : Memref sig .tc .vmem S64x64 .f32) (harg8 : arg8.IsWhole) (hc0 : ¬cond0_0 i) (hc1 : cond0_1 i) (x0 : Vec F S1x1024x768 .f32) (x1 x2 x3 : Vec F S768x64 .bf16) (xs0 : Vec F S64x64 .f32) (y : S64x64.Idx) :
    ∃ pc ∈ (kernelRun0_C c i arg2 harg2 arg3 harg3 arg4 harg4 arg5 harg5 arg6 harg6 arg7 harg7 arg8 harg8 hc0 hc1 x0 x1 x2 x3 xs0).2.2.1, y ∈ pc.1.set :=
  View.cover_of_tiledL (kernelRun0_C c i arg2 harg2 arg3 harg3 arg4 harg4 arg5 harg5 arg6 harg6 arg7 harg7 arg8 harg8 hc0 hc1 x0 x1 x2 x3 xs0).2.2.1 S64x64.size (by sl_kernel_rfl) y

section Data
variable (V : (c : Dev nD) → (b : Ref sig .tc) → Buf (Elt F) ((c : Thread nD τ).loc b))

/-! ## Each case's run at a grid point, on the memrefs and blocks the pipeline calls the body with there -/

def runA (c : Dev nD) (t : Fin cfg0.N) (h0 : t.val % 4 = 0) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => absurd ((hcond0_1 t).mp h) (by omega)) (iblk0 V c 0 t) (iblk0 V c 1 t) (iblk0 V c 2 t) (iblk0 V c 3 t)
def runB (c : Dev nD) (t : Fin cfg0.N) (h0 : ¬ t.val % 4 = 0) (h1 : ¬ t.val % 4 = 3) (xs0 : Vec F S64x64 .f32) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk0 V c 0 t) (iblk0 V c 1 t) (iblk0 V c 2 t) (iblk0 V c 3 t) xs0
def runC (c : Dev nD) (t : Fin cfg0.N) (h1 : t.val % 4 = 3) (xs0 : Vec F S64x64 .f32) :=
  kernelRun0_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => absurd ((hcond0_0 t).mp h) (by omega)) ((hcond0_1 t).mpr h1) (iblk0 V c 0 t) (iblk0 V c 1 t) (iblk0 V c 2 t) (iblk0 V c 3 t) xs0

/-- Window 4's buffer, window 5's buffer and the scratch after the body. -/
abbrev Outs0 (F : FTy → Type) [FloatOps F] : Type := Vec F S1x1024x64 .bf16 × Vec F S1x64x64 .f32 × Vec F S64x64 .f32

/-- After a tile-0 point: the pieces found, read back; window 5's component is a placeholder nothing consults (the window
    is idle there and not written back). -/
def tupA (c : Dev nD) (t : Fin cfg0.N) (h0 : t.val % 4 = 0) : Outs0 F :=
  (VO0_4.read (Elt F) (VO0_4.writes (Elt F) VO0_4.junk (runA V c t h0).1),
   VO0_5.read (Elt F) VO0_5.junk,
   VS0_0.read (Elt F) (VS0_0.writes (Elt F) VS0_0.junk (runA V c t h0).2.1))
/-- After a point of tile 1 or 2, from the scratch `xs0` the tile before left. -/
def tupB (c : Dev nD) (t : Fin cfg0.N) (h0 : ¬ t.val % 4 = 0) (h1 : ¬ t.val % 4 = 3) (xs0 : Vec F S64x64 .f32) : Outs0 F :=
  (VO0_4.read (Elt F) (VO0_4.writes (Elt F) VO0_4.junk (runB V c t h0 h1 xs0).1),
   VO0_5.read (Elt F) VO0_5.junk,
   VS0_0.read (Elt F) (VS0_0.writes (Elt F) VS0_0.junk (runB V c t h0 h1 xs0).2.1))
/-- After a tile-3 point, from the scratch tile 2 left. -/
def tupC (c : Dev nD) (t : Fin cfg0.N) (h1 : t.val % 4 = 3) (xs0 : Vec F S64x64 .f32) : Outs0 F :=
  (VO0_4.read (Elt F) (VO0_4.writes (Elt F) VO0_4.junk (runC V c t h1 xs0).1),
   VO0_5.read (Elt F) (VO0_5.writes (Elt F) VO0_5.junk (runC V c t h1 xs0).2.1),
   VS0_0.read (Elt F) (VS0_0.writes (Elt F) VS0_0.junk (runC V c t h1 xs0).2.2.1))

/-- THE ACCUMULATION: the three buffers after the body at position `n` of the grid, by recursion on `n`. -/
def outsAt0 (c : Dev nD) : (n : ℕ) → n < cfg0.N → Outs0 F
  | 0, hn => tupA V c ⟨0, hn⟩ (Nat.zero_mod _)
  | n + 1, hn =>
    if h0 : (n + 1) % 4 = 0 then tupA V c ⟨n + 1, hn⟩ h0
    else if h1 : (n + 1) % 4 = 3 then tupC V c ⟨n + 1, hn⟩ h1 (outsAt0 c n (Nat.lt_of_succ_lt hn)).2.2
    else tupB V c ⟨n + 1, hn⟩ h0 h1 (outsAt0 c n (Nat.lt_of_succ_lt hn)).2.2

theorem outsAt0_A (c : Dev nD) (t : Fin cfg0.N) (h0 : t.val % 4 = 0) :
    outsAt0 V c t.val t.isLt = tupA V c t h0 := by
  obtain ⟨n, hn⟩ := t
  cases n with
  | zero => rfl
  | succ n => exact dif_pos h0

theorem outsAt0_B (c : Dev nD) (t : Fin cfg0.N) (h0 : ¬t.val % 4 = 0) (h1 : ¬t.val % 4 = 3) :
    outsAt0 V c t.val t.isLt = tupB V c t h0 h1 (outsAt0 V c (t.val - 1) (Nat.lt_of_le_of_lt (Nat.sub_le _ _) t.isLt)).2.2 := by
  obtain ⟨n, hn⟩ := t
  cases n with
  | zero => exact absurd (Nat.zero_mod _) h0
  | succ n => exact (dif_neg h0).trans (dif_neg h1)

theorem outsAt0_C (c : Dev nD) (t : Fin cfg0.N) (h1 : t.val % 4 = 3) :
    outsAt0 V c t.val t.isLt = tupC V c t h1 (outsAt0 V c (t.val - 1) (Nat.lt_of_le_of_lt (Nat.sub_le _ _) t.isLt)).2.2 := by
  obtain ⟨n, hn⟩ := t
  cases n with
  | zero => exact absurd (show (0 : ℕ) % 4 = 3 from h1) (by decide)
  | succ n => exact (dif_neg (by show ¬ (n + 1) % 4 = 0; have : (n + 1) % 4 = 3 := h1; omega)).trans (dif_pos h1)

/-- The invariant before position `n`: before the first point the class's (every scoped buffer that is no staging buffer
    of the region at anything, the generator register at some state); afterwards the same with the scratch at what the
    point before left in it. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.2) ∗ restOf0 c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scM0_0 fullShare ((outsAt0 V c n hn).2.2) ∗ restOf0 c) ∗ (∃ r, prngReg c r)) := rfl
theorem PhiS_pos (c : Dev nD) (n : ℕ) (h : n ≤ cfg0.N) (hz : n ≠ 0) :
    PhiS V c n h = iprop(iprop(owns (c : Thread nD τ) scM0_0 fullShare ((outsAt0 V c (n - 1) (by omega)).2.2) ∗ restOf0 c) ∗ (∃ r, prngReg c r)) := by
  cases n with
  | zero => exact absurd rfl hz
  | succ n => rfl

/-! ## The proof data -/

/-- Region 0 on core `c`: the arrays as the region finds them; after the body each input's buffer at its block and the
    outputs' at `outsAt0`'s components; the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
    | ⟨5, _⟩ => (outsAt0 V c t.val t.isLt).2.1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).1 := by dsimp only [dat0]
theorem after0_5 (c : Dev nD) (t : Fin cfg0.N) : (dat0 V c).after 5 t = (outsAt0 V c t.val t.isLt).2.1 := by dsimp only [dat0]
theorem PhiS_castSucc (c : Dev nD) (t : Fin cfg0.N) :
    (dat0 V c).Φ t.castSucc = PhiS V c t.val (Nat.le_of_lt t.isLt) := by
  dsimp only [dat0]; simp only [Fin.coe_castSucc]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-- Region 1 on core `c`: the arrays as the region finds them; after the body the two inputs' buffers at their blocks and
    the output's at the stored product; the class invariant; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

end Data

end Cert.Kernel.Frame

end
-- ==== Proof.FrameKernel.Body.lean ====
/-
  The body obligations of the two regions: at every grid point, from the region's invariant, the core owing nothing and
  each window's current staging buffer at what it holds there, the kernel body runs to the invariant at the next
  point and each buffer at what the proof data says the body leaves.

  Region 0: the tile number decides the case; the case's run is applied to the inputs' blocks and, at tiles 1 to 3, to the
  scratch the tile before left (handed over by the invariant); the scratch comes back at this point's contents, window
  4's buffer at its pieces read back, window 5's buffer untouched (tiles 0 to 2) or at its pieces read back (tile 3).
  Region 1: the one triple, at the two inputs' blocks.
-/
import proofs.«147860_j24275155157741_2_alg».proof.Proof.FrameKernel.Data

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Body
variable (V : (c : Dev nD) → (b : Ref sig .tc) → Buf (Elt F) ((c : Thread nD τ).loc b))

/-! ## Region 0 -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

set_option maxHeartbeats 8000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS V c (t.val + 1) t.isLt from rfl, PhiS_succ]
  have hN : t.val < 16 := lt_of_lt_of_eq t.isLt (show cfg0.N = 16 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  by_cases h0 : t.val % 4 = 0
  · -- tile 0
    have hc1 : ¬cond0_1 (grid0.coords t) := fun h => by have := (hcond0_1 t).mp h; omega
    rw [Dat.leavesExact_idle (dat0 V c) 5 t (idleAt0_5 t hc1) (noFlush0_5 t hc1)]
    rw [outsAt0_A V c t h0]
    unfold tupA; (try dsimp only)
    by_cases hz : t.val = 0
    ·
      rw [PhiS_castSucc V c t, PhiS_zero V c _ _ hz, PhiA0_eq]
      iintro ⟨⟨⟨HS0, Hrest⟩, Hg⟩, Ho, ⟨%d0, H0⟩, ⟨%d1, H1⟩, ⟨%d2, H2⟩, ⟨%d3, H3⟩, ⟨%d4, H4⟩, ⟨%d5, H5⟩⟩
      iapply ((runA V c t h0).2.2 _ Set.univ _)
      isplitl [H0]; · iexact H0
      isplitl [H1]; · iexact H1
      isplitl [H2]; · iexact H2
      isplitl [H3]; · iexact H3
      isplitl [H4]; · iexists _; iexact H4
      isplitl [H5]; · iexact H5
      isplitl [HS0]; · iexact HS0
      iintro ⟨H0, H1, H2, H3, ⟨%e4, H4⟩, H5, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover_A c _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover4_A c _ _ _ _ _ _ _ _ _ _ _ _ _ _ _ _ _ _ _ _ _)
      iexists _; iexact H5
    ·
      rw [PhiS_castSucc V c t, PhiS_pos V c _ _ hz]
      iintro ⟨⟨⟨HS0, Hrest⟩, Hg⟩, Ho, ⟨%d0, H0⟩, ⟨%d1, H1⟩, ⟨%d2, H2⟩, ⟨%d3, H3⟩, ⟨%d4, H4⟩, ⟨%d5, H5⟩⟩
      iapply ((runA V c t h0).2.2 _ Set.univ _)
      isplitl [H0]; · iexact H0
      isplitl [H1]; · iexact H1
      isplitl [H2]; · iexact H2
      isplitl [H3]; · iexact H3
      isplitl [H4]; · iexists _; iexact H4
      isplitl [H5]; · iexact H5
      isplitl [HS0]; · iexists _; iexact HS0
      iintro ⟨H0, H1, H2, H3, ⟨%e4, H4⟩, H5, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover_A c _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover4_A c _ _ _ _ _ _ _ _ _ _ _ _ _ _ _ _ _ _ _ _ _)
      iexists _; iexact H5
  · have hz : t.val ≠ 0 := fun h => h0 (by rw [h])
    by_cases h1 : t.val % 4 = 3
    · -- tile 3
      have hc1 : cond0_1 (grid0.coords t) := (hcond0_1 t).mpr h1
      rw [show (dat0 V c).leavesExact 5 t = owns (c : Thread nD τ) (ms0_5 t) fullShare ((dat0 V c).after 5 t) from by
        unfold Dat.leavesExact; rw [liveAt0_5 t hc1], after0_5]
      rw [outsAt0_C V c t h1]
      unfold tupC; (try dsimp only)
      rw [PhiS_castSucc V c t, PhiS_pos V c _ _ hz]
      iintro ⟨⟨⟨HS0, Hrest⟩, Hg⟩, Ho, ⟨%d0, H0⟩, ⟨%d1, H1⟩, ⟨%d2, H2⟩, ⟨%d3, H3⟩, ⟨%d4, H4⟩, ⟨%d5, H5⟩⟩
      iapply ((runC V c t h1 _).2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      iintro ⟨H0, H1, H2, H3, ⟨%e4, H4⟩, ⟨%e5, H5⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover_C c _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover4_C c _ _ _ _ _ _ _ _ _ _ _ _ _ _ _ _ _ _ _ _ _ _)
      unfold owns; iexists _; isplitr
      swap; · iexact H5
      ipureintro; exact View.read_writes_of_cover _ _ _ _ _ (cover5_C c _ _ _ _ _ _ _ _ _ _ _ _ _ _ _ _ _ _ _ _ _ _)
    · -- tiles 1 and 2
      have hc1 : ¬cond0_1 (grid0.coords t) := fun h => h1 ((hcond0_1 t).mp h)
      rw [Dat.leavesExact_idle (dat0 V c) 5 t (idleAt0_5 t hc1) (noFlush0_5 t hc1)]
      rw [outsAt0_B V c t h0 h1]
      unfold tupB; (try dsimp only)
      rw [PhiS_castSucc V c t, PhiS_pos V c _ _ hz]
      iintro ⟨⟨⟨HS0, Hrest⟩, Hg⟩, Ho, ⟨%d0, H0⟩, ⟨%d1, H1⟩, ⟨%d2, H2⟩, ⟨%d3, H3⟩, ⟨%d4, H4⟩, ⟨%d5, H5⟩⟩
      iapply ((runB V c t h0 h1 _).2.2 _ Set.univ _)
      isplitl [H0]; · iexact H0
      isplitl [H1]; · iexact H1
      isplitl [H2]; · iexact H2
      isplitl [H3]; · iexact H3
      isplitl [H4]; · iexists _; iexact H4
      isplitl [H5]; · iexact H5
      isplitl [HS0]; · iexact HS0
      iintro ⟨H0, H1, H2, H3, ⟨%e4, H4⟩, H5, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover_B c _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover4_B c _ _ _ _ _ _ _ _ _ _ _ _ _ _ _ _ _ _ _ _ _ _)
      iexists _; iexact H5

theorem body_obligation0 (c : Dev nD) : BodyObligation (dat0 (F := F) V c) (defs₀ (F := F)) Variants.none () Set.univ := fun t => by
  rw [bigSep_W0, bigSep_W0]
  exact sound_body0 V c t

/-- What the launch hands region 0 is its invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]

/-- After the last point the invariant gives the class's back: the scratch's named contents are forgotten. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 16 := N_0; omega), PhiA0_eq]
  iintro ⟨⟨HS0, Hrest⟩, Hg⟩
  isplitl [HS0 Hrest]
  · isplitl [HS0]
    · iexists _; iexact HS0
    iexact Hrest
  iexact Hg

/-! ## Region 1 -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

set_option maxHeartbeats 4000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

end Body

end Cert.Kernel.Frame

end
-- ==== Proof.FrameKernel.Run.lean ====
/-
  The run of the whole program, from the launch to the return, as three segments: the six host operations that transpose
  and convert the weight matrices, region 0, region 1.

  The contents of the core's unscoped buffers at each boundary are a fold from the launch memory: after the host
  operations; after region 0, whose two output arrays hold what its write-backs leave and every other buffer what it held;
  after region 1 likewise. Each region's record takes its arrays out of "every unscoped buffer at the boundary's contents",
  runs the pipeline over the region's proof data, and puts them back at the next boundary's contents. The run theorem
  says: every weakly fair execution terminates, nothing faulting, with every unscoped buffer at the last boundary's
  contents. The frame claim (the four arguments end as launched: no host operation and no region writes one) and the
  result array's contents are both read off it.
-/
import proofs.«147860_j24275155157741_2_alg».proof.Proof.FrameKernel.Body
import proofs.«147860_j24275155157741_2_alg».proof.Proof.Gen.Kernel.Regions

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch, and after the host operations (region 0's entry). -/
abbrev W0 (c : Dev nD) : Valuation τ sig (Elt F) := Gen.V0 m c
abbrev W1 (c : Dev nD) : Valuation τ sig (Elt F) := Gen.V1 m c
/-- Region 0's entry contents read at the TensorCore's references. -/
abbrev VE0 : (c : Dev nD) → (b : Ref sig .tc) → Buf (Elt F) ((c : Thread nD τ).loc b) := fun c b => W1 m c b
/-- At region 0's exit: its arrays at what the pipeline leaves, every other buffer as entered. -/
def W2 (c : Dev nD) : Valuation τ sig (Elt F) :=
  Pipeline.withArrays spec0 c (W1 m c) fun w => (dat0 (VE0 m) c).arrAt w cfg0.N
theorem W2_arr (c : Dev nD) (w : Fin cfg0.W) :
    W2 m c (Proc.devRef .tc (Pipeline.arrRef spec0 w)) = (dat0 (VE0 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- Region 1's entry contents read at the TensorCore's references. -/
abbrev VE1 : (c : Dev nD) → (b : Ref sig .tc) → Buf (Elt F) ((c : Thread nD τ).loc b) := fun c b => W2 m c b
theorem hF0 (c : Dev nD) (w : Fin cfg0.W) : (dat0 (VE0 m) c).arrAt w cfg0.N = VE1 m c (Pipeline.arrRef spec0 w) :=
  (W2_arr m c w).symm
theorem hrest0 (c : Dev nD) : ∀ b, b ∉ Finset.univ.image (Pipeline.arrRef spec0) → VE1 m c b = VE0 m c b :=
  fun b hb => W2_of_ne m c b fun w e => hb (Finset.mem_image.mpr ⟨w, Finset.mem_univ _, e⟩)

/-- At region 1's exit (the return). -/
def W3 (c : Dev nD) : Valuation τ sig (Elt F) :=
  Pipeline.withArrays spec1 c (W2 m c) fun w => (dat1 (VE1 m) c).arrAt w cfg1.N
theorem W3_arr (c : Dev nD) (w : Fin cfg1.W) :
    W3 m c (Proc.devRef .tc (Pipeline.arrRef spec1 w)) = (dat1 (VE1 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev VX1 : (c : Dev nD) → (b : Ref sig .tc) → Buf (Elt F) ((c : Thread nD τ).loc b) := fun c b => W3 m c b
theorem hF1 (c : Dev nD) (w : Fin cfg1.W) : (dat1 (VE1 m) c).arrAt w cfg1.N = VX1 m c (Pipeline.arrRef spec1 w) :=
  (W3_arr m c w).symm
theorem hrest1 (c : Dev nD) : ∀ b, b ∉ Finset.univ.image (Pipeline.arrRef spec1) → VX1 m c b = VE1 m c b :=
  fun b hb => W3_of_ne m c b fun w e => hb (Finset.mem_image.mpr ⟨w, Finset.mem_univ _, e⟩)

/-! ### The arguments end as launched -/

theorem W3_main_arg0 (c : Dev nD) : W3 m c (Proc.devRef .tc main_arg0) = m ((c : Thread nD τ).loc main_arg0) :=
  calc W3 m c (Proc.devRef .tc main_arg0)
    _ = W2 m c (Proc.devRef .tc main_arg0) := W3_of_ne m c main_arg0 (by decide)
    _ = W1 m c (Proc.devRef .tc main_arg0) := (W2_arr m c 0).trans (((dat0 (VE0 m) c).arrAt_in 0 rfl _).trans (A_eq0 (VE0 m) c 0))
    _ = W0 m c (Proc.devRef .tc main_arg0) := Gen.V1_of m c main_arg0 (by decide)
    _ = m ((c : Thread nD τ).loc main_arg0) := rfl
theorem W3_main_arg1 (c : Dev nD) : W3 m c (Proc.devRef .tc main_arg1) = m ((c : Thread nD τ).loc main_arg1) :=
  calc W3 m c (Proc.devRef .tc main_arg1)
    _ = W2 m c (Proc.devRef .tc main_arg1) := W3_of_ne m c main_arg1 (by decide)
    _ = W1 m c (Proc.devRef .tc main_arg1) := W2_of_ne m c main_arg1 (by decide)
    _ = W0 m c (Proc.devRef .tc main_arg1) := Gen.V1_of m c main_arg1 (by decide)
    _ = m ((c : Thread nD τ).loc main_arg1) := rfl
theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide)
    _ = W1 m c (Proc.devRef .tc main_arg2) := W2_of_ne m c main_arg2 (by decide)
    _ = W0 m c (Proc.devRef .tc main_arg2) := Gen.V1_of m c main_arg2 (by decide)
    _ = m ((c : Thread nD τ).loc main_arg2) := rfl
theorem W3_main_arg3 (c : Dev nD) : W3 m c (Proc.devRef .tc main_arg3) = m ((c : Thread nD τ).loc main_arg3) :=
  calc W3 m c (Proc.devRef .tc main_arg3)
    _ = W2 m c (Proc.devRef .tc main_arg3) := W3_of_ne m c main_arg3 (by decide)
    _ = W1 m c (Proc.devRef .tc main_arg3) := W2_of_ne m c main_arg3 (by decide)
    _ = W0 m c (Proc.devRef .tc main_arg3) := Gen.V1_of m c main_arg3 (by decide)
    _ = m ((c : Thread nD τ).loc main_arg3) := rfl

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (VE0 m) c
  | ⟨1, _⟩ => fun c => dat1 (VE1 m) c
abbrev 𝒱₀ : Variants := Variants.none
abbrev L : GSem nD τ sig → Finset Unit := fun _ => ∅
abbrev lv : GSem nD τ sig → Unit → ℕ := fun _ _ => 0
/-- What rides beside the buffers through every segment: the generator register at some state, and the core owing
    nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m c) ∗ ∃ r, prngReg c r)

/-! ## The regions as segments -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VE0 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (VE0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VE0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA spec0 c from hout0 (VE0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VE0 m c) (VE1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VE1 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (VE1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (VE1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (VE1 m c) (VX1 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev mainSegs : List (Pipeline.Seg (pcfgs (F := F)) adm (pdats m) () defs₀ 𝒱₀ L lv) :=
  [ .host (hseg hostOps0 hostOps0_sub hostOps0_fresh (W0 m)),
    .region (reg0 m),
    .region (reg1 m) ]
theorem main_run (c : Dev nD) : main (F := F) c = Pipeline.Seg.run (mainSegs m) := (main_chain c).trans (by chain_rfl)

set_option backward.isDefEq.respectTransparency.types false in
/-- THE RUN: from any memory with zero counters every weakly fair execution of @main terminates, nothing faulting, and
    every unscoped buffer ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (mainSegs m)
    (fun c Q => by rw [main_run m c])
    (by simp only [mainSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h => h)

/-- THE FRAME: the four arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c)⟩) (run_all m ρ)

/-- The run with the result array named: it ends at what region 1's write-backs leave, the arguments as launched. -/
theorem run_result : θ_run defs (onTc (τ := τ) (main (F := F))) ⟨m, fun _ => 0, ρ⟩ (fun r => ∀ c : Dev nD,
      r.2.mem ((c.tc : Thread nD τ).loc main_v7) = (dat1 (VE1 m) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_v7 (by decide))).trans (W3_arr m c 2),
     (h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c)⟩) (run_all m ρ)

end Cert.Kernel.Frame

end
-- ==== Proof.FrameKernelIdeal.Shared.lean ====
/-
  The frame of a program with two kernel regions: what both regions' proofs share.

  Region 0 runs on a 4 × 4 grid (batch b, tile t of 1024 rows). Its body reads one tile of the input and the three
  transposed weight matrices, writes the tile's query rows (window 4), and adds the tile's Kᵀ V into a 64 × 64 scratch
  that it carries from one tile to the next: the scratch is reset at tile 0 and, at tile 3, scaled and copied into
  window 5, which the body leaves alone at the other tiles. Region 1, on the same grid, multiplies a tile of query rows
  by the batch's 64 × 64 matrix.

  Here: a window's block at a grid point read off the array as the region finds it; that an input's staging buffer holds
  its block at every point; the two branch conditions of region 0's body in closed form over the grid; where window 5 is
  idle; the staging and scratch memrefs; and the class invariant with the scratch named.
-/
import proofs.«147860_j24275155157741_2_alg».proof.Proof.Gen.KernelIdeal.Launch
import proofs.«147860_j24275155157741_2_alg».proof.Proof.Gen.KernelIdeal.Skeleton
import proofs.«147860_j24275155157741_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Blocks
-- the TensorCore's buffer contents when a region is entered: a parameter, instantiated per region by the run
variable (V : (c : Dev nD) → (b : Ref sig .tc) → Buf (Elt F) ((c : Thread nD τ).loc b))

/-- Window `w` of region 0 at point `t`: its block of the array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Window `w` of region 1 at point `t`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's current staging buffer holds its block at every point, fetched there or not (when it is not
    fetched its block index has not moved), for any proof data over the entry contents that leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

end Blocks

/-! ## Region 0's branch conditions, in closed form -/

/-- "This is tile 0" as the body computes it from the grid coordinates. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- "This is tile 3". -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where region 0's windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
/-- Away from tile 3 the body stores nothing into window 5, and the pipeline does not write it back there. -/
theorem idleAt0_5 : ∀ t : Fin cfg0.N, ¬cond0_1 (grid0.coords t) → cfg0.idle 5 (grid0.coords t) = true := by decide +kernel
theorem noFlush0_5 : ∀ t : Fin cfg0.N, ¬cond0_1 (grid0.coords t) → (cfg0.win 5).flush t = false := by decide +kernel
theorem liveAt0_5 : ∀ t : Fin cfg0.N, cond0_1 (grid0.coords t) → cfg0.idle 5 (grid0.coords t) = false := by decide +kernel

/-! ## The memrefs the body is called with -/

/-- One staging buffer of each output window of region 0, through which its contents are stated. -/
abbrev VO0_4 : View sig .tc .vmem S1x1024x64 .bf16 := (Memref.whole cc0_stg4_0 : Memref sig .tc .vmem S1x1024x64 .bf16).view
abbrev VO0_5 : View sig .tc .vmem S1x64x64 .f32 := (Memref.whole cc0_stg5_0 : Memref sig .tc .vmem S1x64x64 .f32).view
abbrev ms0_0 (t : Fin cfg0.N) : Memref sig .tc .vmem S1x1024x768 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S768x64 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S768x64 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S768x64 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1024x64 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x64x64 .f32 := win0_5.stage (cfg0.slots t 5)
abbrev hs0_5 (t : Fin cfg0.N) : (ms0_5 t).IsWhole := hstage0_5 ((cfg0.slots t 5).cast nbuf0_5)
/-- The 64 × 64 scratch: a whole scoped buffer of the kernel's own, passed beside the windows. -/
abbrev scM0_0 : Memref sig .tc .vmem S64x64 .f32 := Memref.whole cc0_scratch0
abbrev VS0_0 : View sig .tc .vmem S64x64 .f32 := scM0_0.view

/-- The class invariant of region 0 with the scratch split off as a memref owned at some contents; the other scoped
    buffers (region 1's staging buffers) stay as they are. -/
def restOf0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

theorem PhiA0_eq (c : Dev nD) :
    (Pipeline.ΦA spec0 c : sProp 𝕄)
      = iprop(iprop((∃ d, owns (c : Thread nD τ) scM0_0 fullShare d) ∗ restOf0 c) ∗ (∃ r, prngReg c r)) := by
  unfold Pipeline.ΦA restOf0; rw [scopedRest0_eq]; simp only [scM0_0, owns_whole]; try rfl

end Cert.KernelIdeal.Frame

end
-- ==== Proof.FrameKernelIdeal.CaseA.lean ====
/-
  Region 0's body at a grid point of tile 0 (the reset branch taken, the copy-out branch not): run on whole staging
  memrefs with the four inputs at given contents, window 4's buffer and the scratch at anything, and window 5's buffer —
  which this case never stores into — at given contents, it ends with the inputs and window 5's buffer as they were and
  with window 4's buffer and the scratch each overwritten by a list of stored pieces. The pieces are found by running the
  body symbolically; they are this definition's first components.
-/
import proofs.«147860_j24275155157741_2_alg».proof.Proof.FrameKernelIdeal.Shared

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def kernelRun0_A (c : Dev nD) (i : grid0.Coords) (arg2 : Memref sig .tc .vmem S1x1024x768 .f32) (harg2 : arg2.IsWhole) (arg3 : Memref sig .tc .vmem S768x64 .bf16) (harg3 : arg3.IsWhole) (arg4 : Memref sig .tc .vmem S768x64 .bf16) (harg4 : arg4.IsWhole) (arg5 : Memref sig .tc .vmem S768x64 .bf16) (harg5 : arg5.IsWhole) (arg6 : Memref sig .tc .vmem S1x1024x64 .bf16) (harg6 : arg6.IsWhole) (arg7 : Memref sig .tc .vmem S1x64x64 .f32) (harg7 : arg7.IsWhole) (arg8 : Memref sig .tc .vmem S64x64 .f32) (harg8 : arg8.IsWhole) (hc0 : cond0_0 i) (hc1 : ¬cond0_1 i)
    (x0 : Vec F S1x1024x768 .f32) (x1 x2 x3 : Vec F S768x64 .bf16) :
    Σ' (L4 : List (View.Piece (Elt F) S1x1024x64 .bf16)), { LS0 : List (View.Piece (Elt F) S64x64 .f32) //
      ∀ (xi5 : Vec F S1x64x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc0_proj_ktv_kernel i arg2 harg2 arg3 harg3 arg4 harg4 arg5 harg5 arg6 harg6 arg7 harg7 arg8 harg8) K } := by
  refine ⟨?_, ?_, fun xi5 E K => ?run⟩
  case run =>
    simp only [cc0_proj_ktv_kernel_eq_skeleton]; unfold cc0_proj_ktv_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%ds0, %fs0, -, HS0⟩, Hk⟩
    obtain rfl := harg2.eq_unread hf0; obtain rfl := harg3.eq_unread hf1; obtain rfl := harg4.eq_unread hf2; obtain rfl := harg5.eq_unread hf3; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]
    · iexists _; isplitr; · ipureintro; exact harg7.read_unread _
      iexact H5
    iexists _; iexact HS0

end Cert.KernelIdeal.Frame

end
-- ==== Proof.FrameKernelIdeal.CaseB.lean ====
/-
  Region 0's body at a grid point of tile 1 or 2 (neither branch taken): run on whole staging memrefs with the four
  inputs at given contents, window 4's buffer at anything, window 5's buffer — never stored into here — and the scratch at
  given contents (what the tile before left), it ends with the inputs and window 5's buffer as they were and with window
  4's buffer and the scratch each overwritten by a list of stored pieces, found by running the body symbolically.
-/
import proofs.«147860_j24275155157741_2_alg».proof.Proof.FrameKernelIdeal.Shared

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def kernelRun0_B (c : Dev nD) (i : grid0.Coords) (arg2 : Memref sig .tc .vmem S1x1024x768 .f32) (harg2 : arg2.IsWhole) (arg3 : Memref sig .tc .vmem S768x64 .bf16) (harg3 : arg3.IsWhole) (arg4 : Memref sig .tc .vmem S768x64 .bf16) (harg4 : arg4.IsWhole) (arg5 : Memref sig .tc .vmem S768x64 .bf16) (harg5 : arg5.IsWhole) (arg6 : Memref sig .tc .vmem S1x1024x64 .bf16) (harg6 : arg6.IsWhole) (arg7 : Memref sig .tc .vmem S1x64x64 .f32) (harg7 : arg7.IsWhole) (arg8 : Memref sig .tc .vmem S64x64 .f32) (harg8 : arg8.IsWhole) (hc0 : ¬cond0_0 i) (hc1 : ¬cond0_1 i)
    (x0 : Vec F S1x1024x768 .f32) (x1 x2 x3 : Vec F S768x64 .bf16) (xs0 : Vec F S64x64 .f32) :
    Σ' (L4 : List (View.Piece (Elt F) S1x1024x64 .bf16)), { LS0 : List (View.Piece (Elt F) S64x64 .f32) //
      ∀ (xi5 : Vec F S1x64x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xi5 ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc0_proj_ktv_kernel i arg2 harg2 arg3 harg3 arg4 harg4 arg5 harg5 arg6 harg6 arg7 harg7 arg8 harg8) K } := by
  refine ⟨?_, ?_, fun xi5 E K => ?run⟩
  case run =>
    simp only [cc0_proj_ktv_kernel_eq_skeleton]; unfold cc0_proj_ktv_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hf5; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]
    · iexists _; isplitr; · ipureintro; exact harg7.read_unread _
      iexact H5
    iexists _; iexact HS0

end Cert.KernelIdeal.Frame

end
-- ==== Proof.FrameKernelIdeal.CaseC.lean ====
/-
  Region 0's body at a grid point of tile 3 (the reset branch not taken, the copy-out branch taken): run on whole staging
  memrefs with the four inputs at given contents, the buffers of windows 4 and 5 at anything and the scratch at given
  contents (what tile 2 left), it ends with the inputs as they were and with both output buffers and the scratch each
  overwritten by a list of stored pieces, found by running the body symbolically.
-/
import proofs.«147860_j24275155157741_2_alg».proof.Proof.FrameKernelIdeal.Shared

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def kernelRun0_C (c : Dev nD) (i : grid0.Coords) (arg2 : Memref sig .tc .vmem S1x1024x768 .f32) (harg2 : arg2.IsWhole) (arg3 : Memref sig .tc .vmem S768x64 .bf16) (harg3 : arg3.IsWhole) (arg4 : Memref sig .tc .vmem S768x64 .bf16) (harg4 : arg4.IsWhole) (arg5 : Memref sig .tc .vmem S768x64 .bf16) (harg5 : arg5.IsWhole) (arg6 : Memref sig .tc .vmem S1x1024x64 .bf16) (harg6 : arg6.IsWhole) (arg7 : Memref sig .tc .vmem S1x64x64 .f32) (harg7 : arg7.IsWhole) (arg8 : Memref sig .tc .vmem S64x64 .f32) (harg8 : arg8.IsWhole) (hc0 : ¬cond0_0 i) (hc1 : cond0_1 i)
    (x0 : Vec F S1x1024x768 .f32) (x1 x2 x3 : Vec F S768x64 .bf16) (xs0 : Vec F S64x64 .f32) :
    Σ' (L4 : List (View.Piece (Elt F) S1x1024x64 .bf16)) (L5 : List (View.Piece (Elt F) S1x64x64 .f32)), { LS0 : List (View.Piece (Elt F) S64x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc0_proj_ktv_kernel i arg2 harg2 arg3 harg3 arg4 harg4 arg5 harg5 arg6 harg6 arg7 harg7 arg8 harg8) K } := by
  refine ⟨?_, ?_, ?_, fun E K => ?run⟩
  case run =>
    simp only [cc0_proj_ktv_kernel_eq_skeleton]; unfold cc0_proj_ktv_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    iexists _; iexact HS0

end Cert.KernelIdeal.Frame

end
-- ==== Proof.FrameKernelIdeal.Region1.lean ====
/-
  Region 1's body: on whole staging memrefs with a tile of query rows and the batch's 64 × 64 matrix at given contents and
  the output buffer at anything, it ends with the inputs as they were and the output buffer at the one stored value — the
  tile of query rows times the matrix — read through the store's rectangle, which is the whole buffer.
-/
import proofs.«147860_j24275155157741_2_alg».proof.Proof.FrameKernelIdeal.Shared

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The one rectangle region 1's body loads and stores through: a whole [1, 1024, 64] buffer; and the whole [1, 64, 64]. -/
abbrev r1_q : Rect S1x1024x64 := Rect.unit (s := S1x1024x64) ![0, 0, 0] S1x1024x64.size inb_S1x1024x64_S1x1024x64_0_0_0
abbrev r1_m : Rect S1x64x64 := Rect.unit (s := S1x64x64) ![0, 0, 0] S1x64x64.size inb_S1x64x64_S1x64x64_0_0_0

/-- What the body leaves in the output window's buffer, from the two input blocks: its one store as a piece. -/
def out1_2 (x0 : Vec F S1x1024x64 .bf16) (x1 : Vec F S1x64x64 .f32) : Vec F S1x1024x64 .f32 :=
  View.canon [⟨r1_q, k1_pay1 (View.ld x0 r1_q) (View.ld x1 r1_m)⟩]

/-- The store's rectangle is the whole buffer, so the piece covers it. -/
theorem cover1_2 (p0 : Vec F S1x1024x64 .f32) (y : S1x1024x64.Idx) :
    ∃ pc ∈ ([⟨r1_q, p0⟩] : List (View.Piece (Elt F) S1x1024x64 .f32)), y ∈ pc.1.set :=
  View.cover_of_tiled [⟨r1_q, p0⟩] S1x1024x64.size (by rfl) y

set_option maxHeartbeats 4000000 in
theorem sound_kernel1 (c : Dev nD) (E : Set ℕ) (i : grid1.Coords) (arg2 : Memref sig .tc .vmem S1x1024x64 .bf16) (harg2 : arg2.IsWhole) (arg3 : Memref sig .tc .vmem S1x64x64 .f32) (harg3 : arg3.IsWhole) (arg4 : Memref sig .tc .vmem S1x1024x64 .f32) (harg4 : arg4.IsWhole)
    (x0 : Vec F S1x1024x64 .bf16) (x1 : Vec F S1x64x64 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out1_2 x0 x1)) -∗ K ⟨⟩))
      ⊢ wp frame (wpE (defs₀ (F := F)) Variants.none c none) E (cc1_attn_out_kernel i arg2 harg2 arg3 harg3 arg4 harg4) K := by
  simp only [cc1_attn_out_kernel_eq_skeleton]; unfold cc1_attn_out_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

end Cert.KernelIdeal.Frame

end
-- ==== Proof.FrameKernelIdeal.Data.lean ====
/-
  The proof data of the two regions.

  Region 0. At a grid point the body is in one of three cases, by the tile number: tile 0 (reset, then accumulate), tiles
  1 and 2 (accumulate), tile 3 (accumulate, then scale and copy out). What each case leaves in window 4's buffer, in window
  5's buffer and in the scratch is the list of pieces that case's run found, read back; the scratch a case starts from is
  what the tile before left, so the contents after each point are defined by recursion along the grid's 16 points
  (`outsAt0`). The region's invariant before a point is the class's before the first point and afterwards the scratch at
  what the point before left (`PhiS`).

  Region 1 has one case and carries nothing: its output buffer after the body is the one stored value.
-/
import proofs.«147860_j24275155157741_2_alg».proof.Proof.FrameKernelIdeal.CaseA
import proofs.«147860_j24275155157741_2_alg».proof.Proof.FrameKernelIdeal.CaseB
import proofs.«147860_j24275155157741_2_alg».proof.Proof.FrameKernelIdeal.CaseC
import proofs.«147860_j24275155157741_2_alg».proof.Proof.FrameKernelIdeal.Region1

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The found pieces cover their buffers -/

theorem cover4_A (c : Dev nD) (i : grid0.Coords) (arg2 : Memref sig .tc .vmem S1x1024x768 .f32) (harg2 : arg2.IsWhole) (arg3 : Memref sig .tc .vmem S768x64 .bf16) (harg3 : arg3.IsWhole) (arg4 : Memref sig .tc .vmem S768x64 .bf16) (harg4 : arg4.IsWhole) (arg5 : Memref sig .tc .vmem S768x64 .bf16) (harg5 : arg5.IsWhole) (arg6 : Memref sig .tc .vmem S1x1024x64 .bf16) (harg6 : arg6.IsWhole) (arg7 : Memref sig .tc .vmem S1x64x64 .f32) (harg7 : arg7.IsWhole) (arg8 : Memref sig .tc .vmem S64x64 .f32) (harg8 : arg8.IsWhole) (hc0 : cond0_0 i) (hc1 : ¬cond0_1 i) (x0 : Vec F S1x1024x768 .f32) (x1 x2 x3 : Vec F S768x64 .bf16) (y : S1x1024x64.Idx) :
    ∃ pc ∈ (kernelRun0_A c i arg2 harg2 arg3 harg3 arg4 harg4 arg5 harg5 arg6 harg6 arg7 harg7 arg8 harg8 hc0 hc1 x0 x1 x2 x3).1, y ∈ pc.1.set :=
  View.cover_of_tiledL (kernelRun0_A c i arg2 harg2 arg3 harg3 arg4 harg4 arg5 harg5 arg6 harg6 arg7 harg7 arg8 harg8 hc0 hc1 x0 x1 x2 x3).1 S1x1024x64.size (by sl_kernel_rfl) y
theorem scover_A (c : Dev nD) (i : grid0.Coords) (arg2 : Memref sig .tc .vmem S1x1024x768 .f32) (harg2 : arg2.IsWhole) (arg3 : Memref sig .tc .vmem S768x64 .bf16) (harg3 : arg3.IsWhole) (arg4 : Memref sig .tc .vmem S768x64 .bf16) (harg4 : arg4.IsWhole) (arg5 : Memref sig .tc .vmem S768x64 .bf16) (harg5 : arg5.IsWhole) (arg6 : Memref sig .tc .vmem S1x1024x64 .bf16) (harg6 : arg6.IsWhole) (arg7 : Memref sig .tc .vmem S1x64x64 .f32) (harg7 : arg7.IsWhole) (arg8 : Memref sig .tc .vmem S64x64 .f32) (harg8 : arg8.IsWhole) (hc0 : cond0_0 i) (hc1 : ¬cond0_1 i) (x0 : Vec F S1x1024x768 .f32) (x1 x2 x3 : Vec F S768x64 .bf16) (y : S64x64.Idx) :
    ∃ pc ∈ (kernelRun0_A c i arg2 harg2 arg3 harg3 arg4 harg4 arg5 harg5 arg6 harg6 arg7 harg7 arg8 harg8 hc0 hc1 x0 x1 x2 x3).2.1, y ∈ pc.1.set :=
  View.cover_of_tiledL (kernelRun0_A c i arg2 harg2 arg3 harg3 arg4 harg4 arg5 harg5 arg6 harg6 arg7 harg7 arg8 harg8 hc0 hc1 x0 x1 x2 x3).2.1 S64x64.size (by sl_kernel_rfl) y
theorem cover4_B (c : Dev nD) (i : grid0.Coords) (arg2 : Memref sig .tc .vmem S1x1024x768 .f32) (harg2 : arg2.IsWhole) (arg3 : Memref sig .tc .vmem S768x64 .bf16) (harg3 : arg3.IsWhole) (arg4 : Memref sig .tc .vmem S768x64 .bf16) (harg4 : arg4.IsWhole) (arg5 : Memref sig .tc .vmem S768x64 .bf16) (harg5 : arg5.IsWhole) (arg6 : Memref sig .tc .vmem S1x1024x64 .bf16) (harg6 : arg6.IsWhole) (arg7 : Memref sig .tc .vmem S1x64x64 .f32) (harg7 : arg7.IsWhole) (arg8 : Memref sig .tc .vmem S64x64 .f32) (harg8 : arg8.IsWhole) (hc0 : ¬cond0_0 i) (hc1 : ¬cond0_1 i) (x0 : Vec F S1x1024x768 .f32) (x1 x2 x3 : Vec F S768x64 .bf16) (xs0 : Vec F S64x64 .f32) (y : S1x1024x64.Idx) :
    ∃ pc ∈ (kernelRun0_B c i arg2 harg2 arg3 harg3 arg4 harg4 arg5 harg5 arg6 harg6 arg7 harg7 arg8 harg8 hc0 hc1 x0 x1 x2 x3 xs0).1, y ∈ pc.1.set :=
  View.cover_of_tiledL (kernelRun0_B c i arg2 harg2 arg3 harg3 arg4 harg4 arg5 harg5 arg6 harg6 arg7 harg7 arg8 harg8 hc0 hc1 x0 x1 x2 x3 xs0).1 S1x1024x64.size (by sl_kernel_rfl) y
theorem scover_B (c : Dev nD) (i : grid0.Coords) (arg2 : Memref sig .tc .vmem S1x1024x768 .f32) (harg2 : arg2.IsWhole) (arg3 : Memref sig .tc .vmem S768x64 .bf16) (harg3 : arg3.IsWhole) (arg4 : Memref sig .tc .vmem S768x64 .bf16) (harg4 : arg4.IsWhole) (arg5 : Memref sig .tc .vmem S768x64 .bf16) (harg5 : arg5.IsWhole) (arg6 : Memref sig .tc .vmem S1x1024x64 .bf16) (harg6 : arg6.IsWhole) (arg7 : Memref sig .tc .vmem S1x64x64 .f32) (harg7 : arg7.IsWhole) (arg8 : Memref sig .tc .vmem S64x64 .f32) (harg8 : arg8.IsWhole) (hc0 : ¬cond0_0 i) (hc1 : ¬cond0_1 i) (x0 : Vec F S1x1024x768 .f32) (x1 x2 x3 : Vec F S768x64 .bf16) (xs0 : Vec F S64x64 .f32) (y : S64x64.Idx) :
    ∃ pc ∈ (kernelRun0_B c i arg2 harg2 arg3 harg3 arg4 harg4 arg5 harg5 arg6 harg6 arg7 harg7 arg8 harg8 hc0 hc1 x0 x1 x2 x3 xs0).2.1, y ∈ pc.1.set :=
  View.cover_of_tiledL (kernelRun0_B c i arg2 harg2 arg3 harg3 arg4 harg4 arg5 harg5 arg6 harg6 arg7 harg7 arg8 harg8 hc0 hc1 x0 x1 x2 x3 xs0).2.1 S64x64.size (by sl_kernel_rfl) y
theorem cover4_C (c : Dev nD) (i : grid0.Coords) (arg2 : Memref sig .tc .vmem S1x1024x768 .f32) (harg2 : arg2.IsWhole) (arg3 : Memref sig .tc .vmem S768x64 .bf16) (harg3 : arg3.IsWhole) (arg4 : Memref sig .tc .vmem S768x64 .bf16) (harg4 : arg4.IsWhole) (arg5 : Memref sig .tc .vmem S768x64 .bf16) (harg5 : arg5.IsWhole) (arg6 : Memref sig .tc .vmem S1x1024x64 .bf16) (harg6 : arg6.IsWhole) (arg7 : Memref sig .tc .vmem S1x64x64 .f32) (harg7 : arg7.IsWhole) (arg8 : Memref sig .tc .vmem S64x64 .f32) (harg8 : arg8.IsWhole) (hc0 : ¬cond0_0 i) (hc1 : cond0_1 i) (x0 : Vec F S1x1024x768 .f32) (x1 x2 x3 : Vec F S768x64 .bf16) (xs0 : Vec F S64x64 .f32) (y : S1x1024x64.Idx) :
    ∃ pc ∈ (kernelRun0_C c i arg2 harg2 arg3 harg3 arg4 harg4 arg5 harg5 arg6 harg6 arg7 harg7 arg8 harg8 hc0 hc1 x0 x1 x2 x3 xs0).1, y ∈ pc.1.set :=
  View.cover_of_tiledL (kernelRun0_C c i arg2 harg2 arg3 harg3 arg4 harg4 arg5 harg5 arg6 harg6 arg7 harg7 arg8 harg8 hc0 hc1 x0 x1 x2 x3 xs0).1 S1x1024x64.size (by sl_kernel_rfl) y
theorem cover5_C (c : Dev nD) (i : grid0.Coords) (arg2 : Memref sig .tc .vmem S1x1024x768 .f32) (harg2 : arg2.IsWhole) (arg3 : Memref sig .tc .vmem S768x64 .bf16) (harg3 : arg3.IsWhole) (arg4 : Memref sig .tc .vmem S768x64 .bf16) (harg4 : arg4.IsWhole) (arg5 : Memref sig .tc .vmem S768x64 .bf16) (harg5 : arg5.IsWhole) (arg6 : Memref sig .tc .vmem S1x1024x64 .bf16) (harg6 : arg6.IsWhole) (arg7 : Memref sig .tc .vmem S1x64x64 .f32) (harg7 : arg7.IsWhole) (arg8 : Memref sig .tc .vmem S64x64 .f32) (harg8 : arg8.IsWhole) (hc0 : ¬cond0_0 i) (hc1 : cond0_1 i) (x0 : Vec F S1x1024x768 .f32) (x1 x2 x3 : Vec F S768x64 .bf16) (xs0 : Vec F S64x64 .f32) (y : S1x64x64.Idx) :
    ∃ pc ∈ (kernelRun0_C c i arg2 harg2 arg3 harg3 arg4 harg4 arg5 harg5 arg6 harg6 arg7 harg7 arg8 harg8 hc0 hc1 x0 x1 x2 x3 xs0).2.1, y ∈ pc.1.set :=
  View.cover_of_tiledL (kernelRun0_C c i arg2 harg2 arg3 harg3 arg4 harg4 arg5 harg5 arg6 harg6 arg7 harg7 arg8 harg8 hc0 hc1 x0 x1 x2 x3 xs0).2.1 S1x64x64.size (by sl_kernel_rfl) y
theorem scover_C (c : Dev nD) (i : grid0.Coords) (arg2 : Memref sig .tc .vmem S1x1024x768 .f32) (harg2 : arg2.IsWhole) (arg3 : Memref sig .tc .vmem S768x64 .bf16) (harg3 : arg3.IsWhole) (arg4 : Memref sig .tc .vmem S768x64 .bf16) (harg4 : arg4.IsWhole) (arg5 : Memref sig .tc .vmem S768x64 .bf16) (harg5 : arg5.IsWhole) (arg6 : Memref sig .tc .vmem S1x1024x64 .bf16) (harg6 : arg6.IsWhole) (arg7 : Memref sig .tc .vmem S1x64x64 .f32) (harg7 : arg7.IsWhole) (arg8 : Memref sig .tc .vmem S64x64 .f32) (harg8 : arg8.IsWhole) (hc0 : ¬cond0_0 i) (hc1 : cond0_1 i) (x0 : Vec F S1x1024x768 .f32) (x1 x2 x3 : Vec F S768x64 .bf16) (xs0 : Vec F S64x64 .f32) (y : S64x64.Idx) :
    ∃ pc ∈ (kernelRun0_C c i arg2 harg2 arg3 harg3 arg4 harg4 arg5 harg5 arg6 harg6 arg7 harg7 arg8 harg8 hc0 hc1 x0 x1 x2 x3 xs0).2.2.1, y ∈ pc.1.set :=
  View.cover_of_tiledL (kernelRun0_C c i arg2 harg2 arg3 harg3 arg4 harg4 arg5 harg5 arg6 harg6 arg7 harg7 arg8 harg8 hc0 hc1 x0 x1 x2 x3 xs0).2.2.1 S64x64.size (by sl_kernel_rfl) y

section Data
variable (V : (c : Dev nD) → (b : Ref sig .tc) → Buf (Elt F) ((c : Thread nD τ).loc b))

/-! ## Each case's run at a grid point, on the memrefs and blocks the pipeline calls the body with there -/

def runA (c : Dev nD) (t : Fin cfg0.N) (h0 : t.val % 4 = 0) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => absurd ((hcond0_1 t).mp h) (by omega)) (iblk0 V c 0 t) (iblk0 V c 1 t) (iblk0 V c 2 t) (iblk0 V c 3 t)
def runB (c : Dev nD) (t : Fin cfg0.N) (h0 : ¬ t.val % 4 = 0) (h1 : ¬ t.val % 4 = 3) (xs0 : Vec F S64x64 .f32) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk0 V c 0 t) (iblk0 V c 1 t) (iblk0 V c 2 t) (iblk0 V c 3 t) xs0
def runC (c : Dev nD) (t : Fin cfg0.N) (h1 : t.val % 4 = 3) (xs0 : Vec F S64x64 .f32) :=
  kernelRun0_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => absurd ((hcond0_0 t).mp h) (by omega)) ((hcond0_1 t).mpr h1) (iblk0 V c 0 t) (iblk0 V c 1 t) (iblk0 V c 2 t) (iblk0 V c 3 t) xs0

/-- Window 4's buffer, window 5's buffer and the scratch after the body. -/
abbrev Outs0 (F : FTy → Type) [FloatOps F] : Type := Vec F S1x1024x64 .bf16 × Vec F S1x64x64 .f32 × Vec F S64x64 .f32

/-- After a tile-0 point: the pieces found, read back; window 5's component is a placeholder nothing consults (the window
    is idle there and not written back). -/
def tupA (c : Dev nD) (t : Fin cfg0.N) (h0 : t.val % 4 = 0) : Outs0 F :=
  (VO0_4.read (Elt F) (VO0_4.writes (Elt F) VO0_4.junk (runA V c t h0).1),
   VO0_5.read (Elt F) VO0_5.junk,
   VS0_0.read (Elt F) (VS0_0.writes (Elt F) VS0_0.junk (runA V c t h0).2.1))
/-- After a point of tile 1 or 2, from the scratch `xs0` the tile before left. -/
def tupB (c : Dev nD) (t : Fin cfg0.N) (h0 : ¬ t.val % 4 = 0) (h1 : ¬ t.val % 4 = 3) (xs0 : Vec F S64x64 .f32) : Outs0 F :=
  (VO0_4.read (Elt F) (VO0_4.writes (Elt F) VO0_4.junk (runB V c t h0 h1 xs0).1),
   VO0_5.read (Elt F) VO0_5.junk,
   VS0_0.read (Elt F) (VS0_0.writes (Elt F) VS0_0.junk (runB V c t h0 h1 xs0).2.1))
/-- After a tile-3 point, from the scratch tile 2 left. -/
def tupC (c : Dev nD) (t : Fin cfg0.N) (h1 : t.val % 4 = 3) (xs0 : Vec F S64x64 .f32) : Outs0 F :=
  (VO0_4.read (Elt F) (VO0_4.writes (Elt F) VO0_4.junk (runC V c t h1 xs0).1),
   VO0_5.read (Elt F) (VO0_5.writes (Elt F) VO0_5.junk (runC V c t h1 xs0).2.1),
   VS0_0.read (Elt F) (VS0_0.writes (Elt F) VS0_0.junk (runC V c t h1 xs0).2.2.1))

/-- THE ACCUMULATION: the three buffers after the body at position `n` of the grid, by recursion on `n`. -/
def outsAt0 (c : Dev nD) : (n : ℕ) → n < cfg0.N → Outs0 F
  | 0, hn => tupA V c ⟨0, hn⟩ (Nat.zero_mod _)
  | n + 1, hn =>
    if h0 : (n + 1) % 4 = 0 then tupA V c ⟨n + 1, hn⟩ h0
    else if h1 : (n + 1) % 4 = 3 then tupC V c ⟨n + 1, hn⟩ h1 (outsAt0 c n (Nat.lt_of_succ_lt hn)).2.2
    else tupB V c ⟨n + 1, hn⟩ h0 h1 (outsAt0 c n (Nat.lt_of_succ_lt hn)).2.2

theorem outsAt0_A (c : Dev nD) (t : Fin cfg0.N) (h0 : t.val % 4 = 0) :
    outsAt0 V c t.val t.isLt = tupA V c t h0 := by
  obtain ⟨n, hn⟩ := t
  cases n with
  | zero => rfl
  | succ n => exact dif_pos h0

theorem outsAt0_B (c : Dev nD) (t : Fin cfg0.N) (h0 : ¬t.val % 4 = 0) (h1 : ¬t.val % 4 = 3) :
    outsAt0 V c t.val t.isLt = tupB V c t h0 h1 (outsAt0 V c (t.val - 1) (Nat.lt_of_le_of_lt (Nat.sub_le _ _) t.isLt)).2.2 := by
  obtain ⟨n, hn⟩ := t
  cases n with
  | zero => exact absurd (Nat.zero_mod _) h0
  | succ n => exact (dif_neg h0).trans (dif_neg h1)

theorem outsAt0_C (c : Dev nD) (t : Fin cfg0.N) (h1 : t.val % 4 = 3) :
    outsAt0 V c t.val t.isLt = tupC V c t h1 (outsAt0 V c (t.val - 1) (Nat.lt_of_le_of_lt (Nat.sub_le _ _) t.isLt)).2.2 := by
  obtain ⟨n, hn⟩ := t
  cases n with
  | zero => exact absurd (show (0 : ℕ) % 4 = 3 from h1) (by decide)
  | succ n => exact (dif_neg (by show ¬ (n + 1) % 4 = 0; have : (n + 1) % 4 = 3 := h1; omega)).trans (dif_pos h1)

/-- The invariant before position `n`: before the first point the class's (every scoped buffer that is no staging buffer
    of the region at anything, the generator register at some state); afterwards the same with the scratch at what the
    point before left in it. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.2) ∗ restOf0 c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scM0_0 fullShare ((outsAt0 V c n hn).2.2) ∗ restOf0 c) ∗ (∃ r, prngReg c r)) := rfl
theorem PhiS_pos (c : Dev nD) (n : ℕ) (h : n ≤ cfg0.N) (hz : n ≠ 0) :
    PhiS V c n h = iprop(iprop(owns (c : Thread nD τ) scM0_0 fullShare ((outsAt0 V c (n - 1) (by omega)).2.2) ∗ restOf0 c) ∗ (∃ r, prngReg c r)) := by
  cases n with
  | zero => exact absurd rfl hz
  | succ n => rfl

/-! ## The proof data -/

/-- Region 0 on core `c`: the arrays as the region finds them; after the body each input's buffer at its block and the
    outputs' at `outsAt0`'s components; the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
    | ⟨5, _⟩ => (outsAt0 V c t.val t.isLt).2.1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).1 := by dsimp only [dat0]
theorem after0_5 (c : Dev nD) (t : Fin cfg0.N) : (dat0 V c).after 5 t = (outsAt0 V c t.val t.isLt).2.1 := by dsimp only [dat0]
theorem PhiS_castSucc (c : Dev nD) (t : Fin cfg0.N) :
    (dat0 V c).Φ t.castSucc = PhiS V c t.val (Nat.le_of_lt t.isLt) := by
  dsimp only [dat0]; simp only [Fin.coe_castSucc]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-- Region 1 on core `c`: the arrays as the region finds them; after the body the two inputs' buffers at their blocks and
    the output's at the stored product; the class invariant; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

end Data

end Cert.KernelIdeal.Frame

end
-- ==== Proof.FrameKernelIdeal.Body.lean ====
/-
  The body obligations of the two regions: at every grid point, from the region's invariant, the core owing nothing and
  each window's current staging buffer at what it holds there, the kernel body runs to the invariant at the next
  point and each buffer at what the proof data says the body leaves.

  Region 0: the tile number decides the case; the case's run is applied to the inputs' blocks and, at tiles 1 to 3, to the
  scratch the tile before left (handed over by the invariant); the scratch comes back at this point's contents, window
  4's buffer at its pieces read back, window 5's buffer untouched (tiles 0 to 2) or at its pieces read back (tile 3).
  Region 1: the one triple, at the two inputs' blocks.
-/
import proofs.«147860_j24275155157741_2_alg».proof.Proof.FrameKernelIdeal.Data

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Body
variable (V : (c : Dev nD) → (b : Ref sig .tc) → Buf (Elt F) ((c : Thread nD τ).loc b))

/-! ## Region 0 -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

set_option maxHeartbeats 8000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS V c (t.val + 1) t.isLt from rfl, PhiS_succ]
  have hN : t.val < 16 := lt_of_lt_of_eq t.isLt (show cfg0.N = 16 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  by_cases h0 : t.val % 4 = 0
  · -- tile 0
    have hc1 : ¬cond0_1 (grid0.coords t) := fun h => by have := (hcond0_1 t).mp h; omega
    rw [Dat.leavesExact_idle (dat0 V c) 5 t (idleAt0_5 t hc1) (noFlush0_5 t hc1)]
    rw [outsAt0_A V c t h0]
    unfold tupA; (try dsimp only)
    by_cases hz : t.val = 0
    ·
      rw [PhiS_castSucc V c t, PhiS_zero V c _ _ hz, PhiA0_eq]
      iintro ⟨⟨⟨HS0, Hrest⟩, Hg⟩, Ho, ⟨%d0, H0⟩, ⟨%d1, H1⟩, ⟨%d2, H2⟩, ⟨%d3, H3⟩, ⟨%d4, H4⟩, ⟨%d5, H5⟩⟩
      iapply ((runA V c t h0).2.2 _ Set.univ _)
      isplitl [H0]; · iexact H0
      isplitl [H1]; · iexact H1
      isplitl [H2]; · iexact H2
      isplitl [H3]; · iexact H3
      isplitl [H4]; · iexists _; iexact H4
      isplitl [H5]; · iexact H5
      isplitl [HS0]; · iexact HS0
      iintro ⟨H0, H1, H2, H3, ⟨%e4, H4⟩, H5, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover_A c _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover4_A c _ _ _ _ _ _ _ _ _ _ _ _ _ _ _ _ _ _ _ _ _)
      iexists _; iexact H5
    ·
      rw [PhiS_castSucc V c t, PhiS_pos V c _ _ hz]
      iintro ⟨⟨⟨HS0, Hrest⟩, Hg⟩, Ho, ⟨%d0, H0⟩, ⟨%d1, H1⟩, ⟨%d2, H2⟩, ⟨%d3, H3⟩, ⟨%d4, H4⟩, ⟨%d5, H5⟩⟩
      iapply ((runA V c t h0).2.2 _ Set.univ _)
      isplitl [H0]; · iexact H0
      isplitl [H1]; · iexact H1
      isplitl [H2]; · iexact H2
      isplitl [H3]; · iexact H3
      isplitl [H4]; · iexists _; iexact H4
      isplitl [H5]; · iexact H5
      isplitl [HS0]; · iexists _; iexact HS0
      iintro ⟨H0, H1, H2, H3, ⟨%e4, H4⟩, H5, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover_A c _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover4_A c _ _ _ _ _ _ _ _ _ _ _ _ _ _ _ _ _ _ _ _ _)
      iexists _; iexact H5
  · have hz : t.val ≠ 0 := fun h => h0 (by rw [h])
    by_cases h1 : t.val % 4 = 3
    · -- tile 3
      have hc1 : cond0_1 (grid0.coords t) := (hcond0_1 t).mpr h1
      rw [show (dat0 V c).leavesExact 5 t = owns (c : Thread nD τ) (ms0_5 t) fullShare ((dat0 V c).after 5 t) from by
        unfold Dat.leavesExact; rw [liveAt0_5 t hc1], after0_5]
      rw [outsAt0_C V c t h1]
      unfold tupC; (try dsimp only)
      rw [PhiS_castSucc V c t, PhiS_pos V c _ _ hz]
      iintro ⟨⟨⟨HS0, Hrest⟩, Hg⟩, Ho, ⟨%d0, H0⟩, ⟨%d1, H1⟩, ⟨%d2, H2⟩, ⟨%d3, H3⟩, ⟨%d4, H4⟩, ⟨%d5, H5⟩⟩
      iapply ((runC V c t h1 _).2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      iintro ⟨H0, H1, H2, H3, ⟨%e4, H4⟩, ⟨%e5, H5⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover_C c _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover4_C c _ _ _ _ _ _ _ _ _ _ _ _ _ _ _ _ _ _ _ _ _ _)
      unfold owns; iexists _; isplitr
      swap; · iexact H5
      ipureintro; exact View.read_writes_of_cover _ _ _ _ _ (cover5_C c _ _ _ _ _ _ _ _ _ _ _ _ _ _ _ _ _ _ _ _ _ _)
    · -- tiles 1 and 2
      have hc1 : ¬cond0_1 (grid0.coords t) := fun h => h1 ((hcond0_1 t).mp h)
      rw [Dat.leavesExact_idle (dat0 V c) 5 t (idleAt0_5 t hc1) (noFlush0_5 t hc1)]
      rw [outsAt0_B V c t h0 h1]
      unfold tupB; (try dsimp only)
      rw [PhiS_castSucc V c t, PhiS_pos V c _ _ hz]
      iintro ⟨⟨⟨HS0, Hrest⟩, Hg⟩, Ho, ⟨%d0, H0⟩, ⟨%d1, H1⟩, ⟨%d2, H2⟩, ⟨%d3, H3⟩, ⟨%d4, H4⟩, ⟨%d5, H5⟩⟩
      iapply ((runB V c t h0 h1 _).2.2 _ Set.univ _)
      isplitl [H0]; · iexact H0
      isplitl [H1]; · iexact H1
      isplitl [H2]; · iexact H2
      isplitl [H3]; · iexact H3
      isplitl [H4]; · iexists _; iexact H4
      isplitl [H5]; · iexact H5
      isplitl [HS0]; · iexact HS0
      iintro ⟨H0, H1, H2, H3, ⟨%e4, H4⟩, H5, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover_B c _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover4_B c _ _ _ _ _ _ _ _ _ _ _ _ _ _ _ _ _ _ _ _ _ _)
      iexists _; iexact H5

theorem body_obligation0 (c : Dev nD) : BodyObligation (dat0 (F := F) V c) (defs₀ (F := F)) Variants.none () Set.univ := fun t => by
  rw [bigSep_W0, bigSep_W0]
  exact sound_body0 V c t

/-- What the launch hands region 0 is its invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]

/-- After the last point the invariant gives the class's back: the scratch's named contents are forgotten. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 16 := N_0; omega), PhiA0_eq]
  iintro ⟨⟨HS0, Hrest⟩, Hg⟩
  isplitl [HS0 Hrest]
  · isplitl [HS0]
    · iexists _; iexact HS0
    iexact Hrest
  iexact Hg

/-! ## Region 1 -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

set_option maxHeartbeats 4000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

end Body

end Cert.KernelIdeal.Frame

end
-- ==== Proof.FrameKernelIdeal.Run.lean ====
/-
  The run of the whole program, from the launch to the return, as three segments: the six host operations that transpose
  and convert the weight matrices, region 0, region 1.

  The contents of the core's unscoped buffers at each boundary are a fold from the launch memory: after the host
  operations; after region 0, whose two output arrays hold what its write-backs leave and every other buffer what it held;
  after region 1 likewise. Each region's record takes its arrays out of "every unscoped buffer at the boundary's contents",
  runs the pipeline over the region's proof data, and puts them back at the next boundary's contents. The run theorem
  says: every weakly fair execution terminates, nothing faulting, with every unscoped buffer at the last boundary's
  contents. The frame claim (the four arguments end as launched: no host operation and no region writes one) and the
  result array's contents are both read off it.
-/
import proofs.«147860_j24275155157741_2_alg».proof.Proof.FrameKernelIdeal.Body
import proofs.«147860_j24275155157741_2_alg».proof.Proof.Gen.KernelIdeal.Regions

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch, and after the host operations (region 0's entry). -/
abbrev W0 (c : Dev nD) : Valuation τ sig (Elt F) := Gen.V0 m c
abbrev W1 (c : Dev nD) : Valuation τ sig (Elt F) := Gen.V1 m c
/-- Region 0's entry contents read at the TensorCore's references. -/
abbrev VE0 : (c : Dev nD) → (b : Ref sig .tc) → Buf (Elt F) ((c : Thread nD τ).loc b) := fun c b => W1 m c b
/-- At region 0's exit: its arrays at what the pipeline leaves, every other buffer as entered. -/
def W2 (c : Dev nD) : Valuation τ sig (Elt F) :=
  Pipeline.withArrays spec0 c (W1 m c) fun w => (dat0 (VE0 m) c).arrAt w cfg0.N
theorem W2_arr (c : Dev nD) (w : Fin cfg0.W) :
    W2 m c (Proc.devRef .tc (Pipeline.arrRef spec0 w)) = (dat0 (VE0 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- Region 1's entry contents read at the TensorCore's references. -/
abbrev VE1 : (c : Dev nD) → (b : Ref sig .tc) → Buf (Elt F) ((c : Thread nD τ).loc b) := fun c b => W2 m c b
theorem hF0 (c : Dev nD) (w : Fin cfg0.W) : (dat0 (VE0 m) c).arrAt w cfg0.N = VE1 m c (Pipeline.arrRef spec0 w) :=
  (W2_arr m c w).symm
theorem hrest0 (c : Dev nD) : ∀ b, b ∉ Finset.univ.image (Pipeline.arrRef spec0) → VE1 m c b = VE0 m c b :=
  fun b hb => W2_of_ne m c b fun w e => hb (Finset.mem_image.mpr ⟨w, Finset.mem_univ _, e⟩)

/-- At region 1's exit (the return). -/
def W3 (c : Dev nD) : Valuation τ sig (Elt F) :=
  Pipeline.withArrays spec1 c (W2 m c) fun w => (dat1 (VE1 m) c).arrAt w cfg1.N
theorem W3_arr (c : Dev nD) (w : Fin cfg1.W) :
    W3 m c (Proc.devRef .tc (Pipeline.arrRef spec1 w)) = (dat1 (VE1 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev VX1 : (c : Dev nD) → (b : Ref sig .tc) → Buf (Elt F) ((c : Thread nD τ).loc b) := fun c b => W3 m c b
theorem hF1 (c : Dev nD) (w : Fin cfg1.W) : (dat1 (VE1 m) c).arrAt w cfg1.N = VX1 m c (Pipeline.arrRef spec1 w) :=
  (W3_arr m c w).symm
theorem hrest1 (c : Dev nD) : ∀ b, b ∉ Finset.univ.image (Pipeline.arrRef spec1) → VX1 m c b = VE1 m c b :=
  fun b hb => W3_of_ne m c b fun w e => hb (Finset.mem_image.mpr ⟨w, Finset.mem_univ _, e⟩)

/-! ### The arguments end as launched -/

theorem W3_main_arg0 (c : Dev nD) : W3 m c (Proc.devRef .tc main_arg0) = m ((c : Thread nD τ).loc main_arg0) :=
  calc W3 m c (Proc.devRef .tc main_arg0)
    _ = W2 m c (Proc.devRef .tc main_arg0) := W3_of_ne m c main_arg0 (by decide)
    _ = W1 m c (Proc.devRef .tc main_arg0) := (W2_arr m c 0).trans (((dat0 (VE0 m) c).arrAt_in 0 rfl _).trans (A_eq0 (VE0 m) c 0))
    _ = W0 m c (Proc.devRef .tc main_arg0) := Gen.V1_of m c main_arg0 (by decide)
    _ = m ((c : Thread nD τ).loc main_arg0) := rfl
theorem W3_main_arg1 (c : Dev nD) : W3 m c (Proc.devRef .tc main_arg1) = m ((c : Thread nD τ).loc main_arg1) :=
  calc W3 m c (Proc.devRef .tc main_arg1)
    _ = W2 m c (Proc.devRef .tc main_arg1) := W3_of_ne m c main_arg1 (by decide)
    _ = W1 m c (Proc.devRef .tc main_arg1) := W2_of_ne m c main_arg1 (by decide)
    _ = W0 m c (Proc.devRef .tc main_arg1) := Gen.V1_of m c main_arg1 (by decide)
    _ = m ((c : Thread nD τ).loc main_arg1) := rfl
theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide)
    _ = W1 m c (Proc.devRef .tc main_arg2) := W2_of_ne m c main_arg2 (by decide)
    _ = W0 m c (Proc.devRef .tc main_arg2) := Gen.V1_of m c main_arg2 (by decide)
    _ = m ((c : Thread nD τ).loc main_arg2) := rfl
theorem W3_main_arg3 (c : Dev nD) : W3 m c (Proc.devRef .tc main_arg3) = m ((c : Thread nD τ).loc main_arg3) :=
  calc W3 m c (Proc.devRef .tc main_arg3)
    _ = W2 m c (Proc.devRef .tc main_arg3) := W3_of_ne m c main_arg3 (by decide)
    _ = W1 m c (Proc.devRef .tc main_arg3) := W2_of_ne m c main_arg3 (by decide)
    _ = W0 m c (Proc.devRef .tc main_arg3) := Gen.V1_of m c main_arg3 (by decide)
    _ = m ((c : Thread nD τ).loc main_arg3) := rfl

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (VE0 m) c
  | ⟨1, _⟩ => fun c => dat1 (VE1 m) c
abbrev 𝒱₀ : Variants := Variants.none
abbrev L : GSem nD τ sig → Finset Unit := fun _ => ∅
abbrev lv : GSem nD τ sig → Unit → ℕ := fun _ _ => 0
/-- What rides beside the buffers through every segment: the generator register at some state, and the core owing
    nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m c) ∗ ∃ r, prngReg c r)

/-! ## The regions as segments -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VE0 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (VE0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VE0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA spec0 c from hout0 (VE0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VE0 m c) (VE1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VE1 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (VE1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (VE1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (VE1 m c) (VX1 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev mainSegs : List (Pipeline.Seg (pcfgs (F := F)) adm (pdats m) () defs₀ 𝒱₀ L lv) :=
  [ .host (hseg hostOps0 hostOps0_sub hostOps0_fresh (W0 m)),
    .region (reg0 m),
    .region (reg1 m) ]
theorem main_run (c : Dev nD) : main (F := F) c = Pipeline.Seg.run (mainSegs m) := (main_chain c).trans (by chain_rfl)

set_option backward.isDefEq.respectTransparency.types false in
/-- THE RUN: from any memory with zero counters every weakly fair execution of @main terminates, nothing faulting, and
    every unscoped buffer ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (mainSegs m)
    (fun c Q => by rw [main_run m c])
    (by simp only [mainSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h => h)

/-- THE FRAME: the four arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c)⟩) (run_all m ρ)

/-- The run with the result array named: it ends at what region 1's write-backs leave, the arguments as launched. -/
theorem run_result : θ_run defs (onTc (τ := τ) (main (F := F))) ⟨m, fun _ => 0, ρ⟩ (fun r => ∀ c : Dev nD,
      r.2.mem ((c.tc : Thread nD τ).loc main_v7) = (dat1 (VE1 m) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_v7 (by decide))).trans (W3_arr m c 2),
     (h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c)⟩) (run_all m ρ)

end Cert.KernelIdeal.Frame

end
-- ==== Proof.Spec.lean ====
/-
  Softmax-free ("linear") attention on one batch of T = 4096 rows of C = 768 features, with head width D = 64.

  From an input x[b, l, c] and three weight matrices W[e, c] the three projections are
      q[b, l, e] = Σ_c x[b, l, c] · Wq[e, c],   k, v likewise.
  The result can be arranged in two ways.
    * Scores first:   out[b, l, d] = Σ_j ((Σ_e q[b, l, e] · k[b, j, e]) · 1/8) · v[b, j, d]         (`outRef`)
    * Keys-values first: the 64 × 64 matrix  ktv[b, e, d] = (Σ_j k[b, j, e] · v[b, j, d]) · 1/8 is formed once per batch,
      its sum over the 4096 rows j taken tile by tile — four tiles of 1024 rows, a running total started from 0 — and
                      out[b, l, d] = Σ_e q[b, l, e] · ktv[b, e, d]                                   (`outKer`)
  The two agree whenever every entry is a real number: both are the triple sum Σ_j Σ_e q·k·v / 8, regrouped.
  This module only states the two arrangements, index by index, over literal shapes; it imports no program.
-/
import Idealize.ShloMosaic.Lib.ValueIdx
import Idealize.ShloMosaic.PureOps.Ideal

noncomputable section

namespace LinAttn

open Idealize.ShloMosaic Idealize.ShloMosaic.ValueIdx
open scoped BigOperators

/-- The input's shape [4, 4096, 768], a weight matrix's [64, 768], the result's [4, 4096, 64]. -/
abbrev SX : Shape := ⟨3, ![4, 4096, 768]⟩
abbrev SW : Shape := ⟨2, ![64, 768]⟩
abbrev SO : Shape := ⟨3, ![4, 4096, 64]⟩

/-- The single-precision word both programs print for the scale 64^(-1/2) = 1/8. -/
abbrev c8 : EReal := Ideal.ofBits .f32 0x3E000000#32

/-- One projection entry: row `l` of batch `b` against row `e` of the weight matrix. -/
def proj (x : SX.Idx → EReal) (w : SW.Idx → EReal) (b : Fin 4) (l : Fin 4096) (e : Fin 64) : EReal :=
  ∑ c : Fin 768, x (ix3 b l c) * w (ix2 e c)

/-- Row `r` of tile `t`: the tiles are 1024 consecutive rows each. -/
def row (t : Fin 4) (r : Fin 1024) : Fin 4096 := ⟨t.val * 1024 + r.val, by omega⟩

/-- One tile's contribution to entry (e, d) of Kᵀ V in batch `b`. -/
def tile (x : SX.Idx → EReal) (wk wv : SW.Idx → EReal) (b : Fin 4) (t : Fin 4) (e d : Fin 64) : EReal :=
  ∑ r : Fin 1024, proj x wk b (row t r) e * proj x wv b (row t r) d

/-- Entry (e, d) of the scaled Kᵀ V of batch `b`: the running total over the four tiles, started from 0, times 1/8. -/
def ktv (x : SX.Idx → EReal) (wk wv : SW.Idx → EReal) (b : Fin 4) (e d : Fin 64) : EReal :=
  ((((0 + tile x wk wv b 0 e d) + tile x wk wv b 1 e d) + tile x wk wv b 2 e d) + tile x wk wv b 3 e d) * c8

/-- Keys-values first, at coordinates. -/
def outKerAt (x : SX.Idx → EReal) (wq wk wv : SW.Idx → EReal) (b : Fin 4) (l : Fin 4096) (d : Fin 64) : EReal :=
  ∑ e : Fin 64, proj x wq b l e * ktv x wk wv b e d

/-- Scores first, at coordinates. -/
def outRefAt (x : SX.Idx → EReal) (wq wk wv : SW.Idx → EReal) (b : Fin 4) (l : Fin 4096) (d : Fin 64) : EReal :=
  ∑ j : Fin 4096, ((∑ e : Fin 64, proj x wq b l e * proj x wk b j e) * c8) * proj x wv b j d

/-- The two arrangements as whole arrays. -/
def outKer (x : SX.Idx → EReal) (wq wk wv : SW.Idx → EReal) : SO.Idx → EReal :=
  fun i => outKerAt x wq wk wv (i 0) (i 1) (i 2)
def outRef (x : SX.Idx → EReal) (wq wk wv : SW.Idx → EReal) : SO.Idx → EReal :=
  fun i => outRefAt x wq wk wv (i 0) (i 1) (i 2)

end LinAttn

end
-- ==== Proof.LibMatProd.lean ====
/-
  The product of two rank-2 arrays of extended reals, entry by entry, and two ways a program spells it.

  `entry A B p q` is the sum over `l` of `A (p, l) * B (l, q)`; `mm A B` is the array of these entries.  A matrix
  unit's product of rank-2 operands accumulated onto the zero array, contracting the columns of the left operand
  against the rows of the right one, is `entry` at every pair of coordinates (`matmul_zero_entry`): the accumulator
  adds nothing and the contraction's one-axis index set is re-indexed by its coordinate.  A sum written through two
  index maps that put `(row of i, l)` on the left and `(l, column of i)` on the right is `mm` at `i` (`sum_eq_mm`).
  Everything is over generic extents; indices are built from coordinates.
-/
import Idealize.ShloMosaic.Lib.ValueIdx
import Idealize.ShloMosaic.PureOps.Ideal.Laws

noncomputable section

open scoped BigOperators

namespace MatProd

open Idealize.ShloMosaic Idealize.ShloMosaic.ValueIdx

/-- Entry `(p, q)` of the product of an `n × k` array and a `k × m` array. -/
def entry {n k m : ℕ} (A : (⟨2, ![n, k]⟩ : Shape).Idx → EReal) (B : (⟨2, ![k, m]⟩ : Shape).Idx → EReal)
    (p : Fin n) (q : Fin m) : EReal :=
  ∑ l : Fin k, A (ix2 p l) * B (ix2 l q)

/-- The product as an array: at an index, the entry at that index's two coordinates. -/
def mm {n k m : ℕ} (A : (⟨2, ![n, k]⟩ : Shape).Idx → EReal) (B : (⟨2, ![k, m]⟩ : Shape).Idx → EReal) :
    (⟨2, ![n, m]⟩ : Shape).Idx → EReal :=
  fun i => entry A B ⟨(i 0).val, idx2_lt0 i⟩ ⟨(i 1).val, idx2_lt1 i⟩

/-- At an index given by its coordinates the product array reads the entry. -/
theorem mm_ix2 {n k m : ℕ} (A : (⟨2, ![n, k]⟩ : Shape).Idx → EReal) (B : (⟨2, ![k, m]⟩ : Shape).Idx → EReal)
    (p : Fin n) (q : Fin m) : mm A B (ix2 p q) = entry A B p q := rfl

/-- A sum over `l` of a left factor read at `(row of i, l)` times a right factor read at `(l, column of i)` is the
    product array at `i`, however the two index maps are spelt. -/
theorem sum_eq_mm {n k m : ℕ} (A : (⟨2, ![n, k]⟩ : Shape).Idx → EReal) (B : (⟨2, ![k, m]⟩ : Shape).Idx → EReal)
    (i : (⟨2, ![n, m]⟩ : Shape).Idx) (li : Fin k → (⟨2, ![n, k]⟩ : Shape).Idx) (ri : Fin k → (⟨2, ![k, m]⟩ : Shape).Idx)
    (hl : ∀ l, li l = ix2 ⟨(i 0).val, idx2_lt0 i⟩ l) (hr : ∀ l, ri l = ix2 l ⟨(i 1).val, idx2_lt1 i⟩) :
    ∑ l : Fin k, A (li l) * B (ri l) = mm A B i :=
  Finset.sum_congr rfl fun l _ => by rw [hl l, hr l]

/-- A matrix unit's product of rank-2 operands onto the zero accumulator is the product's entry.  `hr`, `hs`: one
    axis of extent `k` is contracted.  `hl0` … `hr1`: the left operand is read at (row of the result, contracted
    coordinate), the right operand at (contracted coordinate, column of the result). -/
theorem matmul_zero_entry {n k m : ℕ} {φ₁ φ₂ : FTy}
    (d : DotDims (⟨2, ![n, k]⟩ : Shape) (⟨2, ![k, m]⟩ : Shape) (⟨2, ![n, m]⟩ : Shape)) (prec : Option ContractPrecision)
    (hr : d.contr.rank = 1) (hs : d.contr.size ⟨0, by omega⟩ = k)
    (hl0 : ∀ (j : (⟨2, ![n, m]⟩ : Shape).Idx) (c : d.contr.Idx), (d.lhsIdx j c 0).val = (j 0).val)
    (hl1 : ∀ (j : (⟨2, ![n, m]⟩ : Shape).Idx) (c : d.contr.Idx), (d.lhsIdx j c 1).val = (c ⟨0, by omega⟩).val)
    (hr0 : ∀ (j : (⟨2, ![n, m]⟩ : Shape).Idx) (c : d.contr.Idx), (d.rhsIdx j c 0).val = (c ⟨0, by omega⟩).val)
    (hr1 : ∀ (j : (⟨2, ![n, m]⟩ : Shape).Idx) (c : d.contr.Idx), (d.rhsIdx j c 1).val = (j 1).val)
    (lhs : FVec Ideal (⟨2, ![n, k]⟩ : Shape) φ₁) (rhs : FVec Ideal (⟨2, ![k, m]⟩ : Shape) φ₂) (p : Fin n) (q : Fin m) :
    FloatOps.matmul d prec lhs rhs (constant (F := Ideal) (⟨2, ![n, m]⟩ : Shape) .f32 0x00000000#32) (ix2 p q)
      = entry lhs rhs p q := by
  rw [Ideal.matmul_constant_zero_apply, ← Equiv.sum_comp (contrEquiv1 d k hr hs).symm]
  unfold entry
  refine Finset.sum_congr rfl fun l _ => ?_
  have hk := contrEquiv1_symm_val d k hr hs l
  have el : d.lhsIdx (ix2 p q) ((contrEquiv1 d k hr hs).symm l) = ix2 p l := funext fun a => Fin.ext (by
    match a with
    | ⟨0, _⟩ => exact hl0 _ _
    | ⟨1, _⟩ => exact (hl1 _ _).trans hk)
  have er : d.rhsIdx (ix2 p q) ((contrEquiv1 d k hr hs).symm l) = ix2 l q := funext fun a => Fin.ext (by
    match a with
    | ⟨0, _⟩ => exact (hr0 _ _).trans hk
    | ⟨1, _⟩ => exact hr1 _ _)
  rw [el, er]

end MatProd

end
-- ==== Proof.LibDot2.lean ====
/-
  The plain matrix product's dimension numbers, read at coordinates.

  A product of an n × k array with a k × q array that contracts the columns of the left operand against the rows of the
  right one, with no batch axes, carries the dimension numbers "left contracting [1], right contracting [0], left free
  [0], right free [1]".  For any record with these lists: one axis is contracted and its extent is k; the left operand is
  read at (row of the result, contraction position) and the right operand at (contraction position, column of the result).
-/
import Idealize.ShloMosaic.Lib.ValueIdx
import Idealize.ShloMosaic.PureOps.Ideal.Laws

namespace Dot2

open Idealize.ShloMosaic Idealize.ShloMosaic.ValueIdx

variable {n k q : ℕ} (d : DotDims (⟨2, ![n, k]⟩ : Shape) (⟨2, ![k, q]⟩ : Shape) (⟨2, ![n, q]⟩ : Shape))
  (h1 : d.lhsContracting = [1]) (h2 : d.rhsContracting = [0]) (h3 : d.lhsNonContracting = [0])
  (h4 : d.rhsNonContracting = [1]) (h5 : d.lhsBatch = []) (h6 : d.rhsBatch = [])

include h1 in
/-- One axis is contracted. -/
theorem rank_contr : d.contr.rank = 1 := by rw [d.rank_contr, h1]; rfl

include h1 in
/-- Its extent is the left operand's number of columns. -/
theorem size_contr (h0 : 0 < d.contr.rank) : d.contr.size ⟨0, h0⟩ = k := by
  have := d.size_contr 0 (by rw [h1]; exact Nat.one_pos)
  rw [this]
  simp only [h1]
  rfl

include h1 in
/-- The left operand's column is the contraction position. -/
theorem lhs1 (h0 : 0 < d.contr.rank) (j : (⟨2, ![n, q]⟩ : Shape).Idx) (c : d.contr.Idx) :
    (d.lhsIdx j c 1).val = (c ⟨0, h0⟩).val := d.lhsIdx_val_of_single h1 j c

include h2 in
/-- The right operand's row is the contraction position. -/
theorem rhs0 (h0 : 0 < d.contr.rank) (j : (⟨2, ![n, q]⟩ : Shape).Idx) (c : d.contr.Idx) :
    (d.rhsIdx j c 0).val = (c ⟨0, h0⟩).val := d.rhsIdx_val_of_single h2 j c

include h3 h5 in
/-- The left operand's row is the result's row. -/
theorem lhs0 (j : (⟨2, ![n, q]⟩ : Shape).Idx) (c : d.contr.Idx) : (d.lhsIdx j c 0).val = (j 0).val := by
  unfold DotDims.lhsIdx
  have hb : (0 : Fin 2) ∉ d.lhsBatch := by rw [h5]; exact List.not_mem_nil
  have hn : (0 : Fin 2) ∈ d.lhsNonContracting := by rw [h3]; exact List.mem_singleton.mpr rfl
  rw [dif_neg hb, dif_pos hn]
  simp only [Fin.val_cast]
  have key : ∀ (p p' : Nat) (hp : p < 2) (hp' : p' < 2), p = p' → (j ⟨p, hp⟩).val = (j ⟨p', hp'⟩).val :=
    fun p p' hp hp' h => by subst h; rfl
  exact key _ _ _ _ (by simp [h5, h3])

include h4 h6 h3 h5 in
/-- The right operand's column is the result's column. -/
theorem rhs1 (j : (⟨2, ![n, q]⟩ : Shape).Idx) (c : d.contr.Idx) : (d.rhsIdx j c 1).val = (j 1).val := by
  unfold DotDims.rhsIdx
  have hb : (1 : Fin 2) ∉ d.rhsBatch := by rw [h6]; exact List.not_mem_nil
  have hn : (1 : Fin 2) ∈ d.rhsNonContracting := by rw [h4]; exact List.mem_singleton.mpr rfl
  rw [dif_neg hb, dif_pos hn]
  simp only [Fin.val_cast]
  have key : ∀ (p p' : Nat) (hp : p < 2) (hp' : p' < 2), p = p' → (j ⟨p, hp⟩).val = (j ⟨p', hp'⟩).val :=
    fun p p' hp hp' h => by subst h; rfl
  exact key _ _ _ _ (by simp [h5, h3, h4])

end Dot2
-- ==== Proof.PayloadAt.lean ====
/-
  The values the two kernels store, read entry by entry when every float is an extended real.

  At that reading a change of float format is the identity, a reshape that only adds or drops a leading axis of
  extent one keeps the remaining coordinates, and a matrix unit's product accumulated onto the zero array is the plain
  sum over the contracted coordinate.  Each statement below reads one stored array at an index written by its
  coordinates and gives the entry as sums and products of the entries of the arrays it was computed from.
-/
import proofs.«147860_j24275155157741_2_alg».proof.Proof.Gen.KernelIdeal.Skeleton
import proofs.«147860_j24275155157741_2_alg».proof.Proof.Spec
import proofs.«147860_j24275155157741_2_alg».proof.Proof.LibMatProd
import proofs.«147860_j24275155157741_2_alg».proof.Proof.LibDot2
import Idealize.ShloMosaic.Lib.ValueIdx
import Idealize.ShloMosaic.Lib.ValueLayout
import Idealize.ShloMosaic.PureOps.Ideal.Laws

noncomputable section

namespace Cert.KernelIdeal.PayloadAt

open Idealize.ShloMosaic Idealize.ShloMosaic.ValueIdx Cert.KernelIdeal Cert.KernelIdeal.Gen
open scoped BigOperators

variable [Cert.KernelIdeal.Facts]
open Cert.KernelIdeal.Facts₀ Cert.KernelIdeal.Facts

/-- The running total's first value: the zero array. -/
theorem pay1_at (e d : Fin 64) : k0_pay1 (F := Ideal) (ix2 e d) = 0 := by
  unfold k0_pay1
  rw [shapeCast_self]
  exact Ideal.ofBits_zero_f32

/-- The scaled total: each entry times the constant 1/8, under a leading axis of extent one. -/
theorem pay5_at (acc : Vec Ideal S64x64 .f32) (e d : Fin 64) :
    k0_pay5 (F := Ideal) acc (ix3 (0 : Fin 1) e d) = acc (ix2 e d) * LinAttn.c8 := by
  unfold k0_pay5
  refine (shapeCast_ab_1ab_apply _ _ (0 : Fin 1) e d).trans ?_
  rfl

/-- A weight matrix transposed and then narrowed in format: entry (c, e) is the matrix's entry (e, c). -/
theorem wT_at (W : FVec Ideal S64x768 .f32) (c : Fin 768) (e : Fin 64) :
    truncf (F := Ideal) .bf16 (transpose S768x64 [1, 0] W Facts₀.transposes_S64x768_S768x64_1_0) Facts₀.bitsLt_bf16_f32 (ix2 c e)
      = W (ix2 e c) :=
  (truncf_apply _ Facts₀.bitsLt_bf16_f32 _).trans (transpose_ix2_apply W Facts₀.transposes_S64x768_S768x64_1_0 c e)

/-! ## The three matrix products, entry by entry -/

/-- The input tile, with its leading unit axis dropped and its format narrowed: entry (r, c) is entry (0, r, c). -/
theorem pay2_at (x : Vec Ideal S1x1024x768 .f32) (r : Fin 1024) (c : Fin 768) :
    k0_pay2 (F := Ideal) x (ix2 r c) = x (ix3 (0 : Fin 1) r c) := by
  unfold k0_pay2
  exact (truncf_apply _ Facts₀.bitsLt_bf16_f32 _).trans (shapeCast_1ab_ab_apply x _ r c)

/-- A projection's product: rows of the tile against columns of the transposed weight matrix. -/
theorem proj_dot (lhs : FVec Ideal S1024x768 .bf16) (rhs : FVec Ideal S768x64 .bf16) (r : Fin 1024) (e : Fin 64) :
    matmul dot_S1024x768_S768x64_S1024x64_1_0_0_1_n_n none lhs rhs (constant (F := Ideal) S1024x64 .f32 0x00000000#32) (ix2 r e)
      = ∑ c : Fin 768, lhs (ix2 r c) * rhs (ix2 c e) :=
  MatProd.matmul_zero_entry (n := 1024) (k := 768) (m := 64) dot_S1024x768_S768x64_S1024x64_1_0_0_1_n_n none
    (Dot2.rank_contr _ rfl) (Dot2.size_contr _ rfl _) (Dot2.lhs0 _ rfl rfl) (Dot2.lhs1 _ rfl _) (Dot2.rhs0 _ rfl _)
    (Dot2.rhs1 _ rfl rfl rfl rfl) lhs rhs r e

/-- The second kernel's product: rows of the queries against columns of the 64 × 64 matrix. -/
theorem out_dot (lhs : FVec Ideal S1024x64 .bf16) (rhs : FVec Ideal S64x64 .bf16) (r : Fin 1024) (d : Fin 64) :
    matmul dot_S1024x64_S64x64_S1024x64_1_0_0_1_n_n none lhs rhs (constant (F := Ideal) S1024x64 .f32 0x00000000#32) (ix2 r d)
      = ∑ e : Fin 64, lhs (ix2 r e) * rhs (ix2 e d) :=
  MatProd.matmul_zero_entry (n := 1024) (k := 64) (m := 64) dot_S1024x64_S64x64_S1024x64_1_0_0_1_n_n none
    (Dot2.rank_contr _ rfl) (Dot2.size_contr _ rfl _) (Dot2.lhs0 _ rfl rfl) (Dot2.lhs1 _ rfl _) (Dot2.rhs0 _ rfl _)
    (Dot2.rhs1 _ rfl rfl rfl rfl) lhs rhs r d

/-- One projection stored: entry (0, r, e) is row r of the tile against column e of the transposed weight matrix. -/
theorem pay3_at (x : Vec Ideal S1x1024x768 .f32) (w : Vec Ideal S768x64 .bf16) (r : Fin 1024) (e : Fin 64) :
    k0_pay3 (F := Ideal) x w (ix3 (0 : Fin 1) r e) = ∑ c : Fin 768, x (ix3 (0 : Fin 1) r c) * w (ix2 c e) := by
  unfold k0_pay3
  refine (shapeCast_ab_1ab_apply _ _ (0 : Fin 1) r e).trans ?_
  refine (truncf_apply _ Facts₀.bitsLt_bf16_f32 _).trans ?_
  refine (proj_dot _ _ r e).trans ?_
  refine Finset.sum_congr rfl fun c _ => ?_
  rw [pay2_at, shapeCast_self]

/-- The second kernel's stored tile: entry (0, r, d) is row r of the queries against column d of the 64 × 64 matrix. -/
theorem k1pay_at (q : Vec Ideal S1x1024x64 .bf16) (kv : Vec Ideal S1x64x64 .f32) (r : Fin 1024) (d : Fin 64) :
    k1_pay1 (F := Ideal) q kv (ix3 (0 : Fin 1) r d) = ∑ e : Fin 64, q (ix3 (0 : Fin 1) r e) * kv (ix3 (0 : Fin 1) e d) := by
  unfold k1_pay1
  refine (shapeCast_ab_1ab_apply _ _ (0 : Fin 1) r d).trans ?_
  refine (out_dot _ _ r d).trans ?_
  refine Finset.sum_congr rfl fun e _ => ?_
  refine congrArg₂ (· * ·) (shapeCast_1ab_ab_apply q _ r e) ?_
  exact (truncf_apply _ Facts₀.bitsLt_bf16_f32 _).trans (shapeCast_1ab_ab_apply kv _ e d)

/-- In the product that contracts the rows of both operands, the left operand's column is the result's row … -/
theorem gram_lhs1 (j : S64x64.Idx) (q : dot_S1024x64_S1024x64_S64x64_0_0_1_1_n_n.contr.Idx) :
    (dot_S1024x64_S1024x64_S64x64_0_0_1_1_n_n.lhsIdx j q 1).val = (j 0).val := by
  unfold DotDims.lhsIdx
  rw [dif_neg (show ¬(1 : Fin S1024x64.rank) ∈ dot_S1024x64_S1024x64_S64x64_0_0_1_1_n_n.lhsBatch by decide),
    dif_pos (show (1 : Fin S1024x64.rank) ∈ dot_S1024x64_S1024x64_S64x64_0_0_1_1_n_n.lhsNonContracting by decide)]
  rfl

/-- … and the right operand's column is the result's column. -/
theorem gram_rhs1 (j : S64x64.Idx) (q : dot_S1024x64_S1024x64_S64x64_0_0_1_1_n_n.contr.Idx) :
    (dot_S1024x64_S1024x64_S64x64_0_0_1_1_n_n.rhsIdx j q 1).val = (j 1).val := by
  unfold DotDims.rhsIdx
  rw [dif_neg (show ¬(1 : Fin S1024x64.rank) ∈ dot_S1024x64_S1024x64_S64x64_0_0_1_1_n_n.rhsBatch by decide),
    dif_pos (show (1 : Fin S1024x64.rank) ∈ dot_S1024x64_S1024x64_S64x64_0_0_1_1_n_n.rhsNonContracting by decide)]
  rfl

/-- The tile's contribution to the 64 × 64 matrix: the product that contracts the ROWS of both operands. -/
theorem gram_dot (lhs rhs : FVec Ideal S1024x64 .bf16) (e d : Fin 64) :
    matmul dot_S1024x64_S1024x64_S64x64_0_0_1_1_n_n none lhs rhs (constant (F := Ideal) S64x64 .f32 0x00000000#32) (ix2 e d)
      = ∑ r : Fin 1024, lhs (ix2 r e) * rhs (ix2 r d) := by
  refine (Ideal.matmul_constant_zero_apply dot_S1024x64_S1024x64_S64x64_0_0_1_1_n_n none lhs rhs (ix2 e d)).trans ?_
  rw [← Equiv.sum_comp (contrEquiv1 dot_S1024x64_S1024x64_S64x64_0_0_1_1_n_n 1024 rfl rfl).symm]
  refine Finset.sum_congr rfl fun l _ => ?_
  have hk := contrEquiv1_symm_val dot_S1024x64_S1024x64_S64x64_0_0_1_1_n_n 1024 rfl rfl l
  have el : dot_S1024x64_S1024x64_S64x64_0_0_1_1_n_n.lhsIdx (ix2 e d)
      ((contrEquiv1 dot_S1024x64_S1024x64_S64x64_0_0_1_1_n_n 1024 rfl rfl).symm l) = ix2 l e := funext fun a => Fin.ext (by
    match a with
    | ⟨0, _⟩ => exact (dot_S1024x64_S1024x64_S64x64_0_0_1_1_n_n.lhsIdx_val_of_single rfl _ _).trans hk
    | ⟨1, _⟩ => exact gram_lhs1 _ _)
  have er : dot_S1024x64_S1024x64_S64x64_0_0_1_1_n_n.rhsIdx (ix2 e d)
      ((contrEquiv1 dot_S1024x64_S1024x64_S64x64_0_0_1_1_n_n 1024 rfl rfl).symm l) = ix2 l d := funext fun a => Fin.ext (by
    match a with
    | ⟨0, _⟩ => exact (dot_S1024x64_S1024x64_S64x64_0_0_1_1_n_n.rhsIdx_val_of_single rfl _ _).trans hk
    | ⟨1, _⟩ => exact gram_rhs1 _ _)
  rw [el, er]

/-- The running total after one more tile: the total before, plus, over the tile's rows, the key projection's entry
    times the value projection's entry. -/
theorem pay4_at (x : Vec Ideal S1x1024x768 .f32) (wk wv : Vec Ideal S768x64 .bf16) (acc : Vec Ideal S64x64 .f32) (e d : Fin 64) :
    k0_pay4 (F := Ideal) x wk wv acc (ix2 e d)
      = acc (ix2 e d) + ∑ r : Fin 1024, (∑ c : Fin 768, x (ix3 (0 : Fin 1) r c) * wk (ix2 c e))
          * (∑ c : Fin 768, x (ix3 (0 : Fin 1) r c) * wv (ix2 c d)) := by
  unfold k0_pay4
  rw [shapeCast_self]
  refine (addf_apply _ _ _).trans ?_
  refine congrArg (acc (ix2 e d) + ·) ?_
  refine (gram_dot _ _ e d).trans ?_
  refine Finset.sum_congr rfl fun r _ => ?_
  refine congrArg₂ (· * ·) ?_ ?_
  · refine (truncf_apply _ Facts₀.bitsLt_bf16_f32 _).trans ?_
    refine (proj_dot _ _ r e).trans ?_
    refine Finset.sum_congr rfl fun c _ => ?_
    rw [pay2_at, shapeCast_self]
  · refine (truncf_apply _ Facts₀.bitsLt_bf16_f32 _).trans ?_
    refine (proj_dot _ _ r d).trans ?_
    refine Finset.sum_congr rfl fun c _ => ?_
    rw [pay2_at, shapeCast_self]

end Cert.KernelIdeal.PayloadAt

end
-- ==== Proof.Region0ValueBlocks.lean ====
/-
  The first kernel's windows over the 4 × 4 grid, read at coordinates.

  Grid point t works on batch t / 4 and tile t % 4.  The input's block there is rows (t % 4) · 1024 … + 1023 of batch
  t / 4; each transposed weight matrix is one block, the same at every point; the query rows' block sits where the
  input's does; the 64 × 64 result's block is the whole matrix of batch t / 4.
-/
import proofs.«147860_j24275155157741_2_alg».proof.Proof.FrameKernelIdeal.Data
import Idealize.ShloMosaic.Lib.Pipeline.Value
import Idealize.ShloMosaic.Lib.Tactic
import Idealize.ShloMosaic.Lib.ValueIdx

set_option maxRecDepth 16384

noncomputable section

namespace Cert.KernelIdeal.Region0Value

open Idealize.ShloMosaic Idealize.ShloMosaic.TcCoe Idealize.ShloMosaic.Tactic Idealize.SL.Sem
open Idealize.ShloMosaic.Pipeline (Dat)
open Idealize.ShloMosaic.ValueIdx
open Cert.KernelIdeal Cert.KernelIdeal.Gen Cert.KernelIdeal.Frame

variable {F : FTy → Type} [FloatOps F]

section Blocks
variable (V : (c : Dev nD) → (b : Ref sig .tc) → Buf (Elt F) ((c : Thread nD τ).loc b))

/-- Where each window's block sits at each of the sixteen grid points: batch t / 4, tile t % 4, or the one block. -/
theorem index_facts : ∀ t : Fin cfg0.N,
    win0_0.index t (0 : Fin 3) = t.val / 4 ∧ win0_0.index t (1 : Fin 3) = t.val % 4 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = t.val / 4 ∧ win0_4.index t (1 : Fin 3) = t.val % 4 ∧ win0_4.index t (2 : Fin 3) = 0
    ∧ win0_5.index t (0 : Fin 3) = t.val / 4 ∧ win0_5.index t (1 : Fin 3) = 0 ∧ win0_5.index t (2 : Fin 3) = 0 :=
  (by decide +kernel : ∀ t : Fin grid0.N, _)

/-- The input's block at point t: row r of the tile is row (t % 4) · 1024 + r of batch t / 4. -/
theorem xtile_apply (c : Dev nD) (t : Fin cfg0.N) (r : Fin 1024) (cc : Fin 768) (b : Fin 4) (l : Fin 4096)
    (hb : b.val = t.val / 4) (hl : l.val = t.val % 4 * 1024 + r.val) :
    (iblk0 V c 0 t : Vec F S1x1024x768 .f32) (ix3 (0 : Fin 1) r cc)
      = (V c main_arg0 : S4x4096x768.Idx → Elt F .f32) (ix3 b l cc) := by
  obtain ⟨e0, e1, e2, -⟩ := index_facts t
  unfold iblk0
  rw [View.read_apply]
  show V c main_arg0 _ = V c main_arg0 _
  congr 1
  funext a
  apply Fin.ext
  match a with
  | ⟨0, _⟩ => show win0_0.index t (0 : Fin 3) * 1 + 1 * 0 = b.val; omega
  | ⟨1, _⟩ => show win0_0.index t (1 : Fin 3) * 1024 + 1 * r.val = l.val; omega
  | ⟨2, _⟩ => show win0_0.index t (2 : Fin 3) * 768 + 1 * cc.val = cc.val; omega

/-- Each transposed weight matrix is its one block. -/
theorem wq_apply (c : Dev nD) (t : Fin cfg0.N) (cc : Fin 768) (e : Fin 64) :
    (iblk0 V c 1 t : Vec F S768x64 .bf16) (ix2 cc e) = (V c main_v1 : S768x64.Idx → Elt F .bf16) (ix2 cc e) := by
  obtain ⟨-, -, -, e0, e1, -⟩ := index_facts t
  unfold iblk0
  rw [View.read_apply]
  show V c main_v1 _ = V c main_v1 _
  congr 1
  funext a
  apply Fin.ext
  match a with
  | ⟨0, _⟩ => show win0_1.index t (0 : Fin 2) * 768 + 1 * cc.val = cc.val; omega
  | ⟨1, _⟩ => show win0_1.index t (1 : Fin 2) * 64 + 1 * e.val = e.val; omega
theorem wk_apply (c : Dev nD) (t : Fin cfg0.N) (cc : Fin 768) (e : Fin 64) :
    (iblk0 V c 2 t : Vec F S768x64 .bf16) (ix2 cc e) = (V c main_v3 : S768x64.Idx → Elt F .bf16) (ix2 cc e) := by
  obtain ⟨-, -, -, -, -, e0, e1, -⟩ := index_facts t
  unfold iblk0
  rw [View.read_apply]
  show V c main_v3 _ = V c main_v3 _
  congr 1
  funext a
  apply Fin.ext
  match a with
  | ⟨0, _⟩ => show win0_2.index t (0 : Fin 2) * 768 + 1 * cc.val = cc.val; omega
  | ⟨1, _⟩ => show win0_2.index t (1 : Fin 2) * 64 + 1 * e.val = e.val; omega
theorem wv_apply (c : Dev nD) (t : Fin cfg0.N) (cc : Fin 768) (e : Fin 64) :
    (iblk0 V c 3 t : Vec F S768x64 .bf16) (ix2 cc e) = (V c main_v5 : S768x64.Idx → Elt F .bf16) (ix2 cc e) := by
  obtain ⟨-, -, -, -, -, -, -, e0, e1, -⟩ := index_facts t
  unfold iblk0
  rw [View.read_apply]
  show V c main_v5 _ = V c main_v5 _
  congr 1
  funext a
  apply Fin.ext
  match a with
  | ⟨0, _⟩ => show win0_3.index t (0 : Fin 2) * 768 + 1 * cc.val = cc.val; omega
  | ⟨1, _⟩ => show win0_3.index t (1 : Fin 2) * 64 + 1 * e.val = e.val; omega

end Blocks

end Cert.KernelIdeal.Region0Value

end
-- ==== Proof.Region0ValuePieces.lean ====
/-
  What one run of the first kernel's body leaves in its three buffers, as values.

  The body stores the tile's query rows; it adds the tile's product of key and value projections onto the 64 × 64
  running total (started from the zero array at a batch's first tile); and at a batch's last tile it stores the scaled
  total.  Each buffer is filled by one store through its whole extent, so what it holds afterwards is that store's
  value, computed from the tile of the input, the weight matrices, and the total the tile before left.
-/
import proofs.«147860_j24275155157741_2_alg».proof.Proof.FrameKernelIdeal.Data
import Idealize.ShloMosaic.Lib.Pipeline.Value
import Idealize.ShloMosaic.Lib.Tactic

set_option maxRecDepth 16384

noncomputable section

namespace Cert.KernelIdeal.Region0Value

open Idealize.ShloMosaic Idealize.ShloMosaic.TcCoe Idealize.ShloMosaic.Tactic Idealize.SL.Sem
open Idealize.ShloMosaic.Pipeline (Dat)
open Cert.KernelIdeal Cert.KernelIdeal.Gen Cert.KernelIdeal.Frame

variable {F : FTy → Type} [FloatOps F]

theorem zeros3 : (![0, 0, 0] : Fin 3 → Nat) = fun _ => 0 := funext fun a => by fin_cases a <;> rfl
theorem zeros2 : (![0, 0] : Fin 2 → Nat) = fun _ => 0 := funext fun a => by fin_cases a <;> rfl

/-! ## A batch's first tile -/

/-- The query rows stored at a first tile. -/
theorem rows_A (c : Dev nD) (i : grid0.Coords) (arg2 : Memref sig .tc .vmem S1x1024x768 .f32) (harg2 : arg2.IsWhole) (arg3 : Memref sig .tc .vmem S768x64 .bf16) (harg3 : arg3.IsWhole) (arg4 : Memref sig .tc .vmem S768x64 .bf16) (harg4 : arg4.IsWhole) (arg5 : Memref sig .tc .vmem S768x64 .bf16) (harg5 : arg5.IsWhole) (arg6 : Memref sig .tc .vmem S1x1024x64 .bf16) (harg6 : arg6.IsWhole) (arg7 : Memref sig .tc .vmem S1x64x64 .f32) (harg7 : arg7.IsWhole) (arg8 : Memref sig .tc .vmem S64x64 .f32) (harg8 : arg8.IsWhole) (hc0 : cond0_0 i) (hc1 : ¬cond0_1 i) (x0 : Vec F S1x1024x768 .f32) (x1 x2 x3 : Vec F S768x64 .bf16)
    (v : View sig .tc .vmem S1x1024x64 .bf16) (f : v.ty.Contents (Elt F)) :
    v.read (Elt F) (v.writes (Elt F) f (kernelRun0_A c i arg2 harg2 arg3 harg3 arg4 harg4 arg5 harg5 arg6 harg6 arg7 harg7 arg8 harg8 hc0 hc1 x0 x1 x2 x3).1) = k0_pay3 x0 x1 := by
  rw [View.read_writes_eq_canon _ _ _ (cover4_A c i arg2 harg2 arg3 harg3 arg4 harg4 arg5 harg5 arg6 harg6 arg7 harg7 arg8 harg8 hc0 hc1 x0 x1 x2 x3)]
  unfold kernelRun0_A
  dsimp only
  rw [View.canon_unit_zero zeros3]
  simp only [View.readAt_eq_ld, harg2.read_unread, harg3.read_unread, View.ld_unit_zero (S := S1x1024x768) zeros3,
    View.ld_unit_zero (S := S768x64) zeros2]

/-- The running total after a first tile: the tile's contribution added onto the zero array. -/
theorem total_A (c : Dev nD) (i : grid0.Coords) (arg2 : Memref sig .tc .vmem S1x1024x768 .f32) (harg2 : arg2.IsWhole) (arg3 : Memref sig .tc .vmem S768x64 .bf16) (harg3 : arg3.IsWhole) (arg4 : Memref sig .tc .vmem S768x64 .bf16) (harg4 : arg4.IsWhole) (arg5 : Memref sig .tc .vmem S768x64 .bf16) (harg5 : arg5.IsWhole) (arg6 : Memref sig .tc .vmem S1x1024x64 .bf16) (harg6 : arg6.IsWhole) (arg7 : Memref sig .tc .vmem S1x64x64 .f32) (harg7 : arg7.IsWhole) (arg8 : Memref sig .tc .vmem S64x64 .f32) (harg8 : arg8.IsWhole) (hc0 : cond0_0 i) (hc1 : ¬cond0_1 i) (x0 : Vec F S1x1024x768 .f32) (x1 x2 x3 : Vec F S768x64 .bf16)
    (v : View sig .tc .vmem S64x64 .f32) (f : v.ty.Contents (Elt F)) :
    v.read (Elt F) (v.writes (Elt F) f (kernelRun0_A c i arg2 harg2 arg3 harg3 arg4 harg4 arg5 harg5 arg6 harg6 arg7 harg7 arg8 harg8 hc0 hc1 x0 x1 x2 x3).2.1) = k0_pay4 x0 x2 x3 k0_pay1 := by
  rw [View.read_writes_eq_canon _ _ _ (scover_A c i arg2 harg2 arg3 harg3 arg4 harg4 arg5 harg5 arg6 harg6 arg7 harg7 arg8 harg8 hc0 hc1 x0 x1 x2 x3)]
  unfold kernelRun0_A
  dsimp only
  sl_unfold_words
  rw [View.canon_cons_unit_zero (S := S64x64) zeros2, View.readCov_unit_zero (S := S64x64) _ zeros2]
  simp only [View.readAt_eq_ld, harg2.read_unread, harg4.read_unread, harg5.read_unread,
    View.ld_unit_zero (S := S1x1024x768) zeros3, View.ld_unit_zero (S := S768x64) zeros2]

/-! ## A batch's middle tiles -/

/-- The query rows stored at a middle tile. -/
theorem rows_B (c : Dev nD) (i : grid0.Coords) (arg2 : Memref sig .tc .vmem S1x1024x768 .f32) (harg2 : arg2.IsWhole) (arg3 : Memref sig .tc .vmem S768x64 .bf16) (harg3 : arg3.IsWhole) (arg4 : Memref sig .tc .vmem S768x64 .bf16) (harg4 : arg4.IsWhole) (arg5 : Memref sig .tc .vmem S768x64 .bf16) (harg5 : arg5.IsWhole) (arg6 : Memref sig .tc .vmem S1x1024x64 .bf16) (harg6 : arg6.IsWhole) (arg7 : Memref sig .tc .vmem S1x64x64 .f32) (harg7 : arg7.IsWhole) (arg8 : Memref sig .tc .vmem S64x64 .f32) (harg8 : arg8.IsWhole) (hc0 : ¬cond0_0 i) (hc1 : ¬cond0_1 i) (x0 : Vec F S1x1024x768 .f32) (x1 x2 x3 : Vec F S768x64 .bf16) (xs0 : Vec F S64x64 .f32)
    (v : View sig .tc .vmem S1x1024x64 .bf16) (f : v.ty.Contents (Elt F)) :
    v.read (Elt F) (v.writes (Elt F) f (kernelRun0_B c i arg2 harg2 arg3 harg3 arg4 harg4 arg5 harg5 arg6 harg6 arg7 harg7 arg8 harg8 hc0 hc1 x0 x1 x2 x3 xs0).1) = k0_pay3 x0 x1 := by
  rw [View.read_writes_eq_canon _ _ _ (cover4_B c i arg2 harg2 arg3 harg3 arg4 harg4 arg5 harg5 arg6 harg6 arg7 harg7 arg8 harg8 hc0 hc1 x0 x1 x2 x3 xs0)]
  unfold kernelRun0_B
  dsimp only
  rw [View.canon_unit_zero zeros3]
  simp only [View.readAt_eq_ld, harg2.read_unread, harg3.read_unread, View.ld_unit_zero (S := S1x1024x768) zeros3,
    View.ld_unit_zero (S := S768x64) zeros2]

/-- The running total after a middle tile: the tile's contribution added onto the total before it. -/
theorem total_B (c : Dev nD) (i : grid0.Coords) (arg2 : Memref sig .tc .vmem S1x1024x768 .f32) (harg2 : arg2.IsWhole) (arg3 : Memref sig .tc .vmem S768x64 .bf16) (harg3 : arg3.IsWhole) (arg4 : Memref sig .tc .vmem S768x64 .bf16) (harg4 : arg4.IsWhole) (arg5 : Memref sig .tc .vmem S768x64 .bf16) (harg5 : arg5.IsWhole) (arg6 : Memref sig .tc .vmem S1x1024x64 .bf16) (harg6 : arg6.IsWhole) (arg7 : Memref sig .tc .vmem S1x64x64 .f32) (harg7 : arg7.IsWhole) (arg8 : Memref sig .tc .vmem S64x64 .f32) (harg8 : arg8.IsWhole) (hc0 : ¬cond0_0 i) (hc1 : ¬cond0_1 i) (x0 : Vec F S1x1024x768 .f32) (x1 x2 x3 : Vec F S768x64 .bf16) (xs0 : Vec F S64x64 .f32)
    (v : View sig .tc .vmem S64x64 .f32) (f : v.ty.Contents (Elt F)) :
    v.read (Elt F) (v.writes (Elt F) f (kernelRun0_B c i arg2 harg2 arg3 harg3 arg4 harg4 arg5 harg5 arg6 harg6 arg7 harg7 arg8 harg8 hc0 hc1 x0 x1 x2 x3 xs0).2.1) = k0_pay4 x0 x2 x3 xs0 := by
  rw [View.read_writes_eq_canon _ _ _ (scover_B c i arg2 harg2 arg3 harg3 arg4 harg4 arg5 harg5 arg6 harg6 arg7 harg7 arg8 harg8 hc0 hc1 x0 x1 x2 x3 xs0)]
  unfold kernelRun0_B
  dsimp only
  try sl_unfold_words
  rw [View.canon_unit_zero zeros2]
  simp only [View.readAt_eq_ld, harg2.read_unread, harg4.read_unread, harg5.read_unread, harg8.read_unread,
    View.ld_unit_zero (S := S1x1024x768) zeros3, View.ld_unit_zero (S := S768x64) zeros2, View.ld_unit_zero (S := S64x64) zeros2]

/-! ## A batch's last tile -/

/-- The query rows stored at a last tile. -/
theorem rows_C (c : Dev nD) (i : grid0.Coords) (arg2 : Memref sig .tc .vmem S1x1024x768 .f32) (harg2 : arg2.IsWhole) (arg3 : Memref sig .tc .vmem S768x64 .bf16) (harg3 : arg3.IsWhole) (arg4 : Memref sig .tc .vmem S768x64 .bf16) (harg4 : arg4.IsWhole) (arg5 : Memref sig .tc .vmem S768x64 .bf16) (harg5 : arg5.IsWhole) (arg6 : Memref sig .tc .vmem S1x1024x64 .bf16) (harg6 : arg6.IsWhole) (arg7 : Memref sig .tc .vmem S1x64x64 .f32) (harg7 : arg7.IsWhole) (arg8 : Memref sig .tc .vmem S64x64 .f32) (harg8 : arg8.IsWhole) (hc0 : ¬cond0_0 i) (hc1 : cond0_1 i) (x0 : Vec F S1x1024x768 .f32) (x1 x2 x3 : Vec F S768x64 .bf16) (xs0 : Vec F S64x64 .f32)
    (v : View sig .tc .vmem S1x1024x64 .bf16) (f : v.ty.Contents (Elt F)) :
    v.read (Elt F) (v.writes (Elt F) f (kernelRun0_C c i arg2 harg2 arg3 harg3 arg4 harg4 arg5 harg5 arg6 harg6 arg7 harg7 arg8 harg8 hc0 hc1 x0 x1 x2 x3 xs0).1) = k0_pay3 x0 x1 := by
  rw [View.read_writes_eq_canon _ _ _ (cover4_C c i arg2 harg2 arg3 harg3 arg4 harg4 arg5 harg5 arg6 harg6 arg7 harg7 arg8 harg8 hc0 hc1 x0 x1 x2 x3 xs0)]
  unfold kernelRun0_C
  dsimp only
  rw [View.canon_unit_zero zeros3]
  simp only [View.readAt_eq_ld, harg2.read_unread, harg3.read_unread, View.ld_unit_zero (S := S1x1024x768) zeros3,
    View.ld_unit_zero (S := S768x64) zeros2]

/-- The running total after a last tile. -/
theorem total_C (c : Dev nD) (i : grid0.Coords) (arg2 : Memref sig .tc .vmem S1x1024x768 .f32) (harg2 : arg2.IsWhole) (arg3 : Memref sig .tc .vmem S768x64 .bf16) (harg3 : arg3.IsWhole) (arg4 : Memref sig .tc .vmem S768x64 .bf16) (harg4 : arg4.IsWhole) (arg5 : Memref sig .tc .vmem S768x64 .bf16) (harg5 : arg5.IsWhole) (arg6 : Memref sig .tc .vmem S1x1024x64 .bf16) (harg6 : arg6.IsWhole) (arg7 : Memref sig .tc .vmem S1x64x64 .f32) (harg7 : arg7.IsWhole) (arg8 : Memref sig .tc .vmem S64x64 .f32) (harg8 : arg8.IsWhole) (hc0 : ¬cond0_0 i) (hc1 : cond0_1 i) (x0 : Vec F S1x1024x768 .f32) (x1 x2 x3 : Vec F S768x64 .bf16) (xs0 : Vec F S64x64 .f32)
    (v : View sig .tc .vmem S64x64 .f32) (f : v.ty.Contents (Elt F)) :
    v.read (Elt F) (v.writes (Elt F) f (kernelRun0_C c i arg2 harg2 arg3 harg3 arg4 harg4 arg5 harg5 arg6 harg6 arg7 harg7 arg8 harg8 hc0 hc1 x0 x1 x2 x3 xs0).2.2.1) = k0_pay4 x0 x2 x3 xs0 := by
  rw [View.read_writes_eq_canon _ _ _ (scover_C c i arg2 harg2 arg3 harg3 arg4 harg4 arg5 harg5 arg6 harg6 arg7 harg7 arg8 harg8 hc0 hc1 x0 x1 x2 x3 xs0)]
  unfold kernelRun0_C
  dsimp only
  try sl_unfold_words
  rw [View.canon_unit_zero zeros2]
  simp only [View.readAt_eq_ld, harg2.read_unread, harg4.read_unread, harg5.read_unread, harg8.read_unread,
    View.ld_unit_zero (S := S1x1024x768) zeros3, View.ld_unit_zero (S := S768x64) zeros2, View.ld_unit_zero (S := S64x64) zeros2]

/-- The scaled total stored at a last tile: computed from the total that tile has just completed. -/
theorem scaled_C (c : Dev nD) (i : grid0.Coords) (arg2 : Memref sig .tc .vmem S1x1024x768 .f32) (harg2 : arg2.IsWhole) (arg3 : Memref sig .tc .vmem S768x64 .bf16) (harg3 : arg3.IsWhole) (arg4 : Memref sig .tc .vmem S768x64 .bf16) (harg4 : arg4.IsWhole) (arg5 : Memref sig .tc .vmem S768x64 .bf16) (harg5 : arg5.IsWhole) (arg6 : Memref sig .tc .vmem S1x1024x64 .bf16) (harg6 : arg6.IsWhole) (arg7 : Memref sig .tc .vmem S1x64x64 .f32) (harg7 : arg7.IsWhole) (arg8 : Memref sig .tc .vmem S64x64 .f32) (harg8 : arg8.IsWhole) (hc0 : ¬cond0_0 i) (hc1 : cond0_1 i) (x0 : Vec F S1x1024x768 .f32) (x1 x2 x3 : Vec F S768x64 .bf16) (xs0 : Vec F S64x64 .f32)
    (v : View sig .tc .vmem S1x64x64 .f32) (f : v.ty.Contents (Elt F)) :
    v.read (Elt F) (v.writes (Elt F) f (kernelRun0_C c i arg2 harg2 arg3 harg3 arg4 harg4 arg5 harg5 arg6 harg6 arg7 harg7 arg8 harg8 hc0 hc1 x0 x1 x2 x3 xs0).2.1) = k0_pay5 (k0_pay4 x0 x2 x3 xs0) := by
  rw [View.read_writes_eq_canon _ _ _ (cover5_C c i arg2 harg2 arg3 harg3 arg4 harg4 arg5 harg5 arg6 harg6 arg7 harg7 arg8 harg8 hc0 hc1 x0 x1 x2 x3 xs0)]
  unfold kernelRun0_C
  dsimp only
  try sl_unfold_words
  rw [View.canon_unit_zero zeros3, View.readCov_unit_zero (S := S64x64) _ zeros2]
  simp only [View.readAt_eq_ld, harg2.read_unread, harg4.read_unread, harg5.read_unread, harg8.read_unread,
    View.ld_unit_zero (S := S1x1024x768) zeros3, View.ld_unit_zero (S := S768x64) zeros2, View.ld_unit_zero (S := S64x64) zeros2]

end Cert.KernelIdeal.Region0Value

end
-- ==== Proof.Region0ValueCases.lean ====
/-
  The three buffers after the first kernel's body at a grid point, by the tile's place in its batch.

  At every point the query rows' buffer holds the tile's projection by the query weights.  The running total holds the
  tile's contribution added onto the zero array at a batch's first tile, and onto what the tile before left at the
  others.  At a batch's last tile the result's buffer holds the total just completed, scaled.
-/
import proofs.«147860_j24275155157741_2_alg».proof.Proof.Region0ValuePieces
import Idealize.ShloMosaic.Lib.Pipeline.Value
import Idealize.ShloMosaic.Lib.Tactic

set_option maxRecDepth 16384

noncomputable section

namespace Cert.KernelIdeal.Region0Value

open Idealize.ShloMosaic Idealize.ShloMosaic.TcCoe Idealize.ShloMosaic.Tactic Idealize.SL.Sem
open Idealize.ShloMosaic.Pipeline (Dat)
open Cert.KernelIdeal Cert.KernelIdeal.Gen Cert.KernelIdeal.Frame

variable {F : FTy → Type} [FloatOps F]

section Cases
variable (V : (c : Dev nD) → (b : Ref sig .tc) → Buf (Elt F) ((c : Thread nD τ).loc b))

theorem first_rows (c : Dev nD) (t : Fin cfg0.N) (h0 : t.val % 4 = 0) :
    (tupA V c t h0).1 = k0_pay3 (iblk0 V c 0 t) (iblk0 V c 1 t) := by
  unfold tupA
  dsimp only
  unfold runA
  exact rows_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => absurd ((hcond0_1 t).mp h) (by omega)) (iblk0 V c 0 t) (iblk0 V c 1 t) (iblk0 V c 2 t) (iblk0 V c 3 t) VO0_4 VO0_4.junk

theorem first_total (c : Dev nD) (t : Fin cfg0.N) (h0 : t.val % 4 = 0) :
    (tupA V c t h0).2.2 = k0_pay4 (iblk0 V c 0 t) (iblk0 V c 2 t) (iblk0 V c 3 t) k0_pay1 := by
  show VS0_0.read (Elt F) (VS0_0.writes (Elt F) VS0_0.junk (runA V c t h0).2.1) = _
  unfold runA
  exact total_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => absurd ((hcond0_1 t).mp h) (by omega)) (iblk0 V c 0 t) (iblk0 V c 1 t) (iblk0 V c 2 t) (iblk0 V c 3 t) VS0_0 VS0_0.junk

theorem middle_rows (c : Dev nD) (t : Fin cfg0.N) (h0 : ¬t.val % 4 = 0) (h1 : ¬t.val % 4 = 3) (xs0 : Vec F S64x64 .f32) :
    (tupB V c t h0 h1 xs0).1 = k0_pay3 (iblk0 V c 0 t) (iblk0 V c 1 t) := by
  unfold tupB
  dsimp only
  unfold runB
  exact rows_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk0 V c 0 t) (iblk0 V c 1 t) (iblk0 V c 2 t) (iblk0 V c 3 t) xs0 VO0_4 VO0_4.junk

theorem middle_total (c : Dev nD) (t : Fin cfg0.N) (h0 : ¬t.val % 4 = 0) (h1 : ¬t.val % 4 = 3) (xs0 : Vec F S64x64 .f32) :
    (tupB V c t h0 h1 xs0).2.2 = k0_pay4 (iblk0 V c 0 t) (iblk0 V c 2 t) (iblk0 V c 3 t) xs0 := by
  show VS0_0.read (Elt F) (VS0_0.writes (Elt F) VS0_0.junk (runB V c t h0 h1 xs0).2.1) = _
  unfold runB
  exact total_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk0 V c 0 t) (iblk0 V c 1 t) (iblk0 V c 2 t) (iblk0 V c 3 t) xs0 VS0_0 VS0_0.junk

theorem last_rows (c : Dev nD) (t : Fin cfg0.N) (h1 : t.val % 4 = 3) (xs0 : Vec F S64x64 .f32) :
    (tupC V c t h1 xs0).1 = k0_pay3 (iblk0 V c 0 t) (iblk0 V c 1 t) := by
  unfold tupC
  dsimp only
  unfold runC
  exact rows_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => absurd ((hcond0_0 t).mp h) (by omega)) ((hcond0_1 t).mpr h1) (iblk0 V c 0 t) (iblk0 V c 1 t) (iblk0 V c 2 t) (iblk0 V c 3 t) xs0 VO0_4 VO0_4.junk

theorem last_total (c : Dev nD) (t : Fin cfg0.N) (h1 : t.val % 4 = 3) (xs0 : Vec F S64x64 .f32) :
    (tupC V c t h1 xs0).2.2 = k0_pay4 (iblk0 V c 0 t) (iblk0 V c 2 t) (iblk0 V c 3 t) xs0 := by
  show VS0_0.read (Elt F) (VS0_0.writes (Elt F) VS0_0.junk (runC V c t h1 xs0).2.2.1) = _
  unfold runC
  exact total_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => absurd ((hcond0_0 t).mp h) (by omega)) ((hcond0_1 t).mpr h1) (iblk0 V c 0 t) (iblk0 V c 1 t) (iblk0 V c 2 t) (iblk0 V c 3 t) xs0 VS0_0 VS0_0.junk

theorem last_scaled (c : Dev nD) (t : Fin cfg0.N) (h1 : t.val % 4 = 3) (xs0 : Vec F S64x64 .f32) :
    (tupC V c t h1 xs0).2.1 = k0_pay5 (k0_pay4 (iblk0 V c 0 t) (iblk0 V c 2 t) (iblk0 V c 3 t) xs0) := by
  show VO0_5.read (Elt F) (VO0_5.writes (Elt F) VO0_5.junk (runC V c t h1 xs0).2.1) = _
  unfold runC
  exact scaled_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => absurd ((hcond0_0 t).mp h) (by omega)) ((hcond0_1 t).mpr h1) (iblk0 V c 0 t) (iblk0 V c 1 t) (iblk0 V c 2 t) (iblk0 V c 3 t) xs0 VO0_5 VO0_5.junk
/-- The recursion's value does not depend on how its position is spelt. -/
theorem outsAt0_congr (c : Dev nD) (n n' : ℕ) (h : n = n') (hn : n < cfg0.N) (hn' : n' < cfg0.N) :
    outsAt0 V c n hn = outsAt0 V c n' hn' := by
  subst h; rfl

/-- The query rows' buffer after any point. -/
theorem rows_at (c : Dev nD) (t : Fin cfg0.N) :
    (outsAt0 V c t.val t.isLt).1 = k0_pay3 (iblk0 V c 0 t) (iblk0 V c 1 t) := by
  by_cases h0 : t.val % 4 = 0
  · rw [outsAt0_A V c t h0]; exact first_rows V c t h0
  · by_cases h1 : t.val % 4 = 3
    · rw [outsAt0_C V c t h1]; exact last_rows V c t h1 _
    · rw [outsAt0_B V c t h0 h1]; exact middle_rows V c t h0 h1 _

/-- The running total after a batch's first tile. -/
theorem total_at_first (c : Dev nD) (t : Fin cfg0.N) (h0 : t.val % 4 = 0) :
    (outsAt0 V c t.val t.isLt).2.2 = k0_pay4 (iblk0 V c 0 t) (iblk0 V c 2 t) (iblk0 V c 3 t) k0_pay1 := by
  rw [outsAt0_A V c t h0]; exact first_total V c t h0

/-- The running total after a later tile, from the total the point before left. -/
theorem total_at_next (c : Dev nD) (s t : Fin cfg0.N) (hst : s.val + 1 = t.val) (h0 : ¬t.val % 4 = 0) :
    (outsAt0 V c t.val t.isLt).2.2
      = k0_pay4 (iblk0 V c 0 t) (iblk0 V c 2 t) (iblk0 V c 3 t) (outsAt0 V c s.val s.isLt).2.2 := by
  have hs : outsAt0 V c (t.val - 1) (Nat.lt_of_le_of_lt (Nat.sub_le _ _) t.isLt) = outsAt0 V c s.val s.isLt :=
    outsAt0_congr V c _ _ (by omega) _ _
  by_cases h1 : t.val % 4 = 3
  · rw [outsAt0_C V c t h1, hs]; exact last_total V c t h1 _
  · rw [outsAt0_B V c t h0 h1, hs]; exact middle_total V c t h0 h1 _

/-- The result's buffer after a batch's last tile: the completed total, scaled. -/
theorem scaled_at_last (c : Dev nD) (t : Fin cfg0.N) (h1 : t.val % 4 = 3) :
    (outsAt0 V c t.val t.isLt).2.1 = k0_pay5 (outsAt0 V c t.val t.isLt).2.2 := by
  rw [outsAt0_C V c t h1, last_scaled, last_total]

end Cases

end Cert.KernelIdeal.Region0Value

end
-- ==== Proof.Region0Q.lean ====
/-
  What the first kernel leaves in the query array.

  The first kernel runs on a 4 × 4 grid: at point (b, s) it takes rows 1024 s … 1024 s + 1023 of batch b of the input,
  multiplies them by the transposed query weights (all 768 features against all 64 columns), and writes the product back
  as the same rows of batch b of the query array — at every point, whatever the tile's place in its batch.  The 16
  blocks tile the query array, so after the run its entry (b, l, e) is the projection of row l of batch b of the input
  onto row e of the query weight matrix.
-/
import proofs.«147860_j24275155157741_2_alg».proof.Proof.FrameKernelIdeal.Data
import proofs.«147860_j24275155157741_2_alg».proof.Proof.PayloadAt
import proofs.«147860_j24275155157741_2_alg».proof.Proof.Region0ValueBlocks
import proofs.«147860_j24275155157741_2_alg».proof.Proof.Region0ValueCases
import Idealize.ShloMosaic.Lib.Pipeline.Value

noncomputable section

namespace Cert.KernelIdeal.Region0Q

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Frame
open scoped BigOperators

/-- Every block of the query array is some point's. -/
theorem idx_onto : ∀ (q0 : Fin 4) (q1 : Fin 4), ∃ t : Fin cfg0.N, win0_4.index t = ![q0.val, q1.val, 0] :=
  (by decide +kernel : ∀ (q0 : Fin 4) (q1 : Fin 4), ∃ t : Fin grid0.N, win0_4.index t = ![q0.val, q1.val, 0])

/-- The stored tile at an index of the block: row and column are the index's last two coordinates. -/
theorem pay3_block (x : Vec Ideal S1x1024x768 .f32) (w : Vec Ideal S768x64 .bf16) (y : S1x1024x64.Idx) :
    k0_pay3 (F := Ideal) x w y = ∑ cc : Fin 768, x (ix3 (0 : Fin 1) (y 1) cc) * w (ix2 cc (y 2)) := by
  obtain ⟨z, r, e, rfl⟩ : ∃ (z : Fin 1) (r : Fin 1024) (e : Fin 64), y = ix3 z r e := ⟨y 0, y 1, y 2, eq_ix3 y⟩
  obtain rfl : z = 0 := Subsingleton.elim _ _
  exact PayloadAt.pay3_at x w r e

section
variable (V : (c : Dev nD) → (b : Ref sig .tc) → Buf (Elt Ideal) ((c : Thread nD τ).loc b))

/-- The query array as one function of the input and the query weights. -/
abbrev G (x : LinAttn.SX.Idx → EReal) (wq : LinAttn.SW.Idx → EReal) : S4x4096x64.Idx → EReal :=
  fun i => LinAttn.proj x wq (i 0) (i 1) (i 2)

/-- What point `t` writes back is block `t` of that function, given that the query rows' buffer after the body at
    `t` holds the tile's product. -/
theorem flushed_eq (c : Dev nD) (x : LinAttn.SX.Idx → EReal) (wq : LinAttn.SW.Idx → EReal)
    (h0 : V c main_arg0 = x) (h1 : ∀ (cc : Fin 768) (e : Fin 64), V c main_v1 (ix2 cc e) = wq (ix2 e cc))
    (t : Fin cfg0.N) (hrows : (outsAt0 (F := Ideal) V c t.val t.isLt).1 = k0_pay3 (iblk0 V c 0 t) (iblk0 V c 1 t)) :
    (dat0 (F := Ideal) V c).flushed 4 t = ((cfg0.win 4).blk t).view.read (Elt Ideal) (G x wq) := by
  show (cfg0.win 4).cut (grid0.coords t) ((dat0 (F := Ideal) V c).after 4 t) = _
  rw [after0_4, hrows]
  obtain ⟨-, -, -, -, -, -, -, -, -, e9, e10, e11, -⟩ := Region0Value.index_facts t
  funext j
  show k0_pay3 (F := Ideal) (iblk0 V c 0 t) (iblk0 V c 1 t) j = G x wq (((cfg0.win 4).blk t).view.emb j)
  refine (pay3_block (iblk0 V c 0 t) (iblk0 V c 1 t) j).trans ?_
  have hj0 : (j 0).val < 1 := (j 0).isLt
  show _ = ∑ cc : Fin 768, x (ix3 ((((cfg0.win 4).blk t).view.emb j) 0) ((((cfg0.win 4).blk t).view.emb j) 1) cc)
      * wq (ix2 ((((cfg0.win 4).blk t).view.emb j) 2) cc)
  refine Finset.sum_congr rfl fun cc _ => ?_
  refine congrArg₂ (· * ·) ?_ ?_
  · refine (Region0Value.xtile_apply V c t (j 1) cc ((((cfg0.win 4).blk t).view.emb j) 0) ((((cfg0.win 4).blk t).view.emb j) 1) ?_ ?_).trans (congrFun h0 _)
    · show win0_4.index t (0 : Fin 3) * 1 + 1 * (j 0).val = t.val / 4; omega
    · show win0_4.index t (1 : Fin 3) * 1024 + 1 * (j 1).val = t.val % 4 * 1024 + (j 1).val; omega
  · refine (Region0Value.wq_apply V c t cc (j 2)).trans ((h1 cc (j 2)).trans ?_)
    refine congrArg (fun e : Fin 64 => wq (ix2 e cc)) (Fin.ext ?_)
    show (j 2).val = win0_4.index t (2 : Fin 3) * 64 + 1 * (j 2).val; omega

/-- An index of the query array is in point `t`'s block iff each coordinate is in the block's range on its axis. -/
theorem mem_blk (t : Fin cfg0.N) (i : S4x4096x64.Idx) :
    i ∈ ((cfg0.win 4).blk t).view.set ↔ ∀ a : Fin 3, win0_4.index t a * S1x1024x64.size a ≤ (i a).val ∧ (i a).val < win0_4.index t a * S1x1024x64.size a + S1x1024x64.size a := by
  show i ∈ ((View.whole main_v6_0).slice (win0_4.rect t)).set ↔ _
  rw [View.set_slice_whole, Rect.mem_set_unit]
  exact Iff.rfl

/-- Every index of the query array is in the block of the point of its batch and of its tile of 1024 rows. -/
theorem covered (i : S4x4096x64.Idx) :
    ∃ t : Fin cfg0.N, (cfg0.win 4).flush t = true ∧ i ∈ ((cfg0.win 4).blk t).view.set := by
  have hi0 : (i 0).val < 4 := (i 0).isLt
  have hi1 : (i 1).val < 4096 := (i 1).isLt
  have hi2 : (i 2).val < 64 := (i 2).isLt
  obtain ⟨t, ht⟩ := idx_onto ⟨(i 0).val, hi0⟩ ⟨(i 1).val / 1024, by omega⟩
  have q0 : win0_4.index t (0 : Fin 3) = (i 0).val := congrFun ht 0
  have q1 : win0_4.index t (1 : Fin 3) = (i 1).val / 1024 := congrFun ht 1
  have q2 : win0_4.index t (2 : Fin 3) = 0 := congrFun ht 2
  refine ⟨t, flush0_4 t, ?_⟩
  rw [mem_blk]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 1024 ≤ (i 1).val ∧ (i 1).val < win0_4.index t (1 : Fin 3) * 1024 + 1024; omega
  | ⟨2, _⟩ => show win0_4.index t (2 : Fin 3) * 64 ≤ (i 2).val ∧ (i 2).val < win0_4.index t (2 : Fin 3) * 64 + 64; omega

/-- The query array after the first kernel's run, given what the query rows' buffer holds after each point. -/
theorem q_array_of_rows (c : Dev nD) (x : LinAttn.SX.Idx → EReal) (wq : LinAttn.SW.Idx → EReal)
    (h0 : V c main_arg0 = x) (h1 : ∀ (cc : Fin 768) (e : Fin 64), V c main_v1 (ix2 cc e) = wq (ix2 e cc))
    (hrows : ∀ t : Fin cfg0.N, (outsAt0 (F := Ideal) V c t.val t.isLt).1 = k0_pay3 (iblk0 V c 0 t) (iblk0 V c 1 t)) :
    (dat0 (F := Ideal) V c).arrAt 4 cfg0.N = fun i => LinAttn.proj x wq (i 0) (i 1) (i 2) :=
  (dat0 (F := Ideal) V c).arrAt_eq_of_cover 4 (G x wq) (fun t _ => flushed_eq V c x wq h0 h1 t (hrows t)) covered

/-- THE QUERY ARRAY after the first kernel's run: entry (b, l, e) is row l of batch b of the input against row e of the
    query weight matrix. -/
theorem q_array (c : Dev nD) (x : LinAttn.SX.Idx → EReal) (wq : LinAttn.SW.Idx → EReal)
    (h0 : V c main_arg0 = x) (h1 : ∀ (cc : Fin 768) (e : Fin 64), V c main_v1 (ix2 cc e) = wq (ix2 e cc)) :
    (dat0 (F := Ideal) V c).arrAt 4 cfg0.N = fun i => LinAttn.proj x wq (i 0) (i 1) (i 2) :=
  q_array_of_rows V c x wq h0 h1 (Region0Value.rows_at V c)

end

end Cert.KernelIdeal.Region0Q

end
-- ==== Proof.Region0Value.lean ====
/-
  The scaled Kᵀ V array the first kernel leaves.

  Along the four tiles of a batch the 64 × 64 running total is 0 + tile 0, then + tile 1, + tile 2, + tile 3, each tile's
  contribution being, over its 1024 rows, the key projection's entry times the value projection's entry.  After the
  fourth tile the total is scaled by 1/8 and written back as the batch's matrix; the four write-backs, one per batch,
  fill the array.
-/
import proofs.«147860_j24275155157741_2_alg».proof.Proof.Region0ValueCases
import proofs.«147860_j24275155157741_2_alg».proof.Proof.Region0ValueBlocks
import proofs.«147860_j24275155157741_2_alg».proof.Proof.PayloadAt
import proofs.«147860_j24275155157741_2_alg».proof.Proof.Spec
import Idealize.ShloMosaic.Lib.Pipeline.Value
import Idealize.ShloMosaic.Lib.Tactic

set_option maxRecDepth 16384

noncomputable section

namespace Cert.KernelIdeal.Region0Value

open Idealize.ShloMosaic Idealize.ShloMosaic.TcCoe Idealize.ShloMosaic.Tactic Idealize.SL.Sem
open Idealize.ShloMosaic.Pipeline (Dat)
open Idealize.ShloMosaic.ValueIdx
open Cert.KernelIdeal Cert.KernelIdeal.Gen Cert.KernelIdeal.Frame
open scoped BigOperators

section
variable (V : (c : Dev nD) → (b : Ref sig .tc) → Buf (Elt Ideal) ((c : Thread nD τ).loc b)) (c : Dev nD)
variable (x : LinAttn.SX.Idx → EReal) (wk wv : LinAttn.SW.Idx → EReal)

/-- The input's block at a point of batch b and tile tt, in the specification's coordinates. -/
theorem xblock_at (h0 : V c main_arg0 = x) (t : Fin cfg0.N) (b tt : Fin 4) (hb : b.val = t.val / 4) (htt : tt.val = t.val % 4)
    (r : Fin 1024) (cc : Fin 768) :
    (iblk0 (F := Ideal) V c 0 t : Vec Ideal S1x1024x768 .f32) (ix3 (0 : Fin 1) r cc) = x (ix3 b (LinAttn.row tt r) cc) :=
  (xtile_apply (F := Ideal) V c t r cc b (LinAttn.row tt r) hb (by show tt.val * 1024 + r.val = _; rw [htt])).trans (congrFun h0 _)

/-- A tile's row against one weight matrix: the projection's entry at the tile's row. -/
theorem proj_row (xblk : Vec Ideal S1x1024x768 .f32) (b tt : Fin 4)
    (hx : ∀ (r : Fin 1024) (cc : Fin 768), xblk (ix3 (0 : Fin 1) r cc) = x (ix3 b (LinAttn.row tt r) cc))
    (wblk : Vec Ideal S768x64 .bf16) (w : LinAttn.SW.Idx → EReal) (hw : ∀ (cc : Fin 768) (e : Fin 64), wblk (ix2 cc e) = w (ix2 e cc))
    (r : Fin 1024) (e : Fin 64) :
    ∑ cc : Fin 768, xblk (ix3 (0 : Fin 1) r cc) * wblk (ix2 cc e) = LinAttn.proj x w b (LinAttn.row tt r) e := by
  unfold LinAttn.proj
  exact Finset.sum_congr rfl fun cc _ => congrArg₂ (· * ·) (hx r cc) (hw cc e)

/-- One more tile added onto a running total. -/
theorem tile_value (h0 : V c main_arg0 = x) (h3 : ∀ (cc : Fin 768) (e : Fin 64), V c main_v3 (ix2 cc e) = wk (ix2 e cc))
    (h5 : ∀ (cc : Fin 768) (e : Fin 64), V c main_v5 (ix2 cc e) = wv (ix2 e cc))
    (t : Fin cfg0.N) (b tt : Fin 4) (hb : b.val = t.val / 4) (htt : tt.val = t.val % 4) (acc : Vec Ideal S64x64 .f32) (e d : Fin 64) :
    k0_pay4 (F := Ideal) (iblk0 V c 0 t) (iblk0 V c 2 t) (iblk0 V c 3 t) acc (ix2 e d)
      = acc (ix2 e d) + LinAttn.tile x wk wv b tt e d := by
  refine (PayloadAt.pay4_at (iblk0 V c 0 t) (iblk0 V c 2 t) (iblk0 V c 3 t) acc e d).trans ?_
  refine congrArg (acc (ix2 e d) + ·) ?_
  unfold LinAttn.tile
  refine Finset.sum_congr rfl fun r _ => ?_
  exact congrArg₂ (· * ·)
    (proj_row x (iblk0 V c 0 t) b tt (xblock_at V c x h0 t b tt hb htt) (iblk0 V c 2 t) wk
      (fun cc e => (wk_apply (F := Ideal) V c t cc e).trans (h3 cc e)) r e)
    (proj_row x (iblk0 V c 0 t) b tt (xblock_at V c x h0 t b tt hb htt) (iblk0 V c 3 t) wv
      (fun cc e => (wv_apply (F := Ideal) V c t cc e).trans (h5 cc e)) r d)

/-- After a batch's first tile the total is 0 + tile 0. -/
theorem total_first (h0 : V c main_arg0 = x) (h3 : ∀ (cc : Fin 768) (e : Fin 64), V c main_v3 (ix2 cc e) = wk (ix2 e cc))
    (h5 : ∀ (cc : Fin 768) (e : Fin 64), V c main_v5 (ix2 cc e) = wv (ix2 e cc))
    (t : Fin cfg0.N) (b : Fin 4) (hb : b.val = t.val / 4) (ht : t.val % 4 = 0) (e d : Fin 64) :
    (outsAt0 (F := Ideal) V c t.val t.isLt).2.2 (ix2 e d) = 0 + LinAttn.tile x wk wv b 0 e d := by
  rw [total_at_first (F := Ideal) V c t ht]
  refine (tile_value V c x wk wv h0 h3 h5 t b 0 hb (by rw [ht]; rfl) (k0_pay1 (F := Ideal)) e d).trans ?_
  rw [PayloadAt.pay1_at]

/-- After a later tile the total is the one before plus that tile. -/
theorem total_step (h0 : V c main_arg0 = x) (h3 : ∀ (cc : Fin 768) (e : Fin 64), V c main_v3 (ix2 cc e) = wk (ix2 e cc))
    (h5 : ∀ (cc : Fin 768) (e : Fin 64), V c main_v5 (ix2 cc e) = wv (ix2 e cc))
    (s t : Fin cfg0.N) (hst : s.val + 1 = t.val) (ht : ¬t.val % 4 = 0) (b tt : Fin 4) (hb : b.val = t.val / 4) (htt : tt.val = t.val % 4)
    (e d : Fin 64) :
    (outsAt0 (F := Ideal) V c t.val t.isLt).2.2 (ix2 e d)
      = (outsAt0 (F := Ideal) V c s.val s.isLt).2.2 (ix2 e d) + LinAttn.tile x wk wv b tt e d := by
  rw [total_at_next (F := Ideal) V c s t hst ht]
  exact tile_value V c x wk wv h0 h3 h5 t b tt hb htt _ e d

/-- After a batch's last tile the total is ((((0 + tile 0) + tile 1) + tile 2) + tile 3). -/
theorem total_last (h0 : V c main_arg0 = x) (h3 : ∀ (cc : Fin 768) (e : Fin 64), V c main_v3 (ix2 cc e) = wk (ix2 e cc))
    (h5 : ∀ (cc : Fin 768) (e : Fin 64), V c main_v5 (ix2 cc e) = wv (ix2 e cc))
    (t : Fin cfg0.N) (b : Fin 4) (hb : b.val = t.val / 4) (ht : t.val % 4 = 3) (e d : Fin 64) :
    (outsAt0 (F := Ideal) V c t.val t.isLt).2.2 (ix2 e d)
      = (((0 + LinAttn.tile x wk wv b 0 e d) + LinAttn.tile x wk wv b 1 e d) + LinAttn.tile x wk wv b 2 e d)
          + LinAttn.tile x wk wv b 3 e d := by
  have hN : cfg0.N = 16 := N_0
  have hlt := t.isLt
  have l2 : t.val - 1 < cfg0.N := by omega
  have l1 : t.val - 2 < cfg0.N := by omega
  have l0 : t.val - 3 < cfg0.N := by omega
  rw [total_step V c x wk wv h0 h3 h5 ⟨t.val - 1, l2⟩ t (by show t.val - 1 + 1 = t.val; omega) (by omega) b 3 hb (by rw [ht]; rfl) e d,
    total_step V c x wk wv h0 h3 h5 ⟨t.val - 2, l1⟩ ⟨t.val - 1, l2⟩ (by show t.val - 2 + 1 = t.val - 1; omega) (by show ¬(t.val - 1) % 4 = 0; omega) b 2
      (by show b.val = (t.val - 1) / 4; omega) (by show (2 : Fin 4).val = (t.val - 1) % 4; show 2 = _; omega) e d,
    total_step V c x wk wv h0 h3 h5 ⟨t.val - 3, l0⟩ ⟨t.val - 2, l1⟩ (by show t.val - 3 + 1 = t.val - 2; omega) (by show ¬(t.val - 2) % 4 = 0; omega) b 1
      (by show b.val = (t.val - 2) / 4; omega) (by show (1 : Fin 4).val = (t.val - 2) % 4; show 1 = _; omega) e d,
    total_first V c x wk wv h0 h3 h5 ⟨t.val - 3, l0⟩ b (by show b.val = (t.val - 3) / 4; omega) (by show (t.val - 3) % 4 = 0; omega) e d]

/-- The scaled total under its leading unit axis, at an index of the block. -/
theorem scaled_at_block (acc : Vec Ideal S64x64 .f32) (y : S1x64x64.Idx) :
    k0_pay5 (F := Ideal) acc y = acc (ix2 (y 1) (y 2)) * LinAttn.c8 := by
  obtain ⟨z, e, d, rfl⟩ : ∃ (z : Fin 1) (e d : Fin 64), y = ix3 z e d := ⟨y 0, y 1, y 2, eq_ix3 y⟩
  obtain rfl : z = 0 := Subsingleton.elim _ _
  exact PayloadAt.pay5_at acc e d

/-- The specification's entry depends on its coordinates' values only. -/
theorem ktv_congr (b b' : Fin 4) (e e' d d' : Fin 64) (hb : b.val = b'.val) (he : e.val = e'.val) (hd : d.val = d'.val) :
    LinAttn.ktv x wk wv b e d = LinAttn.ktv x wk wv b' e' d' := by
  obtain rfl := Fin.ext hb; obtain rfl := Fin.ext he; obtain rfl := Fin.ext hd; rfl

/-- What a batch's last point writes back is its block of the scaled Kᵀ V array. -/
theorem flushed_eq (h0 : V c main_arg0 = x) (h3 : ∀ (cc : Fin 768) (e : Fin 64), V c main_v3 (ix2 cc e) = wk (ix2 e cc))
    (h5 : ∀ (cc : Fin 768) (e : Fin 64), V c main_v5 (ix2 cc e) = wv (ix2 e cc))
    (t : Fin cfg0.N) (hf : (cfg0.win 5).flush t = true) :
    (dat0 (F := Ideal) V c).flushed 5 t
      = ((cfg0.win 5).blk t).view.read (Elt Ideal) (fun i => LinAttn.ktv x wk wv (i 0) (i 1) (i 2)) := by
  have ht : t.val % 4 = 3 := (flush0_5 t).mp hf
  have hN : cfg0.N = 16 := N_0
  have hlt := t.isLt
  show (cfg0.win 5).cut (grid0.coords t) ((dat0 (F := Ideal) V c).after 5 t) = _
  rw [after0_5, scaled_at_last (F := Ideal) V c t ht]
  obtain ⟨-, -, -, -, -, -, -, -, -, -, -, -, e0, e1, e2⟩ := index_facts t
  funext j
  have hj0 : (j 0).val < 1 := (j 0).isLt
  have hj1 : (j 1).val < 64 := (j 1).isLt
  have hj2 : (j 2).val < 64 := (j 2).isLt
  show k0_pay5 (F := Ideal) (outsAt0 (F := Ideal) V c t.val t.isLt).2.2 j
    = LinAttn.ktv x wk wv ((((cfg0.win 5).blk t).view.emb j) 0) ((((cfg0.win 5).blk t).view.emb j) 1) ((((cfg0.win 5).blk t).view.emb j) 2)
  refine (scaled_at_block _ j).trans ?_
  refine (congrArg (· * LinAttn.c8)
    (total_last V c x wk wv h0 h3 h5 t ⟨t.val / 4, by omega⟩ rfl ht ⟨(j 1).val, hj1⟩ ⟨(j 2).val, hj2⟩)).trans ?_
  refine ktv_congr x wk wv _ _ _ _ _ _ ?_ ?_ ?_
  · show t.val / 4 = win0_5.index t (0 : Fin 3) * 1 + 1 * (j 0).val; omega
  · show (j 1).val = win0_5.index t (1 : Fin 3) * 64 + 1 * (j 1).val; omega
  · show (j 2).val = win0_5.index t (2 : Fin 3) * 64 + 1 * (j 2).val; omega

/-- An index of the array is in point t's block iff each coordinate is in the block's range on its axis. -/
theorem mem_blk (t : Fin cfg0.N) (i : S4x64x64.Idx) :
    i ∈ ((cfg0.win 5).blk t).view.set
      ↔ ∀ a : Fin 3, win0_5.index t a * S1x64x64.size a ≤ (i a).val ∧ (i a).val < win0_5.index t a * S1x64x64.size a + S1x64x64.size a := by
  show i ∈ ((View.whole main_v6_1).slice (win0_5.rect t)).set ↔ _
  rw [View.set_slice_whole, Rect.mem_set_unit]
  exact Iff.rfl

/-- Every index of the array is in the block written back at its batch's last point. -/
theorem covered (i : S4x64x64.Idx) :
    ∃ t : Fin cfg0.N, (cfg0.win 5).flush t = true ∧ i ∈ ((cfg0.win 5).blk t).view.set := by
  have hN : cfg0.N = 16 := N_0
  have hi0 : (i 0).val < 4 := (i 0).isLt
  have hi1 : (i 1).val < 64 := (i 1).isLt
  have hi2 : (i 2).val < 64 := (i 2).isLt
  have hlt : 4 * (i 0).val + 3 < cfg0.N := by omega
  obtain ⟨-, -, -, -, -, -, -, -, -, -, -, -, e0, e1, e2⟩ := index_facts ⟨4 * (i 0).val + 3, hlt⟩
  have e0' : win0_5.index ⟨4 * (i 0).val + 3, hlt⟩ (0 : Fin 3) = (4 * (i 0).val + 3) / 4 := e0
  refine ⟨⟨4 * (i 0).val + 3, hlt⟩, (flush0_5 _).mpr (by show (4 * (i 0).val + 3) % 4 = 3; omega), ?_⟩
  rw [mem_blk]
  intro a
  match a with
  | ⟨0, _⟩ => show win0_5.index ⟨4 * (i 0).val + 3, hlt⟩ (0 : Fin 3) * 1 ≤ (i 0).val ∧ (i 0).val < win0_5.index ⟨4 * (i 0).val + 3, hlt⟩ (0 : Fin 3) * 1 + 1; omega
  | ⟨1, _⟩ => show win0_5.index ⟨4 * (i 0).val + 3, hlt⟩ (1 : Fin 3) * 64 ≤ (i 1).val ∧ (i 1).val < win0_5.index ⟨4 * (i 0).val + 3, hlt⟩ (1 : Fin 3) * 64 + 64; omega
  | ⟨2, _⟩ => show win0_5.index ⟨4 * (i 0).val + 3, hlt⟩ (2 : Fin 3) * 64 ≤ (i 2).val ∧ (i 2).val < win0_5.index ⟨4 * (i 0).val + 3, hlt⟩ (2 : Fin 3) * 64 + 64; omega

/-- THE SCALED Kᵀ V ARRAY after the first kernel's run. -/
theorem ktv_array (h0 : V c main_arg0 = x) (h3 : ∀ (cc : Fin 768) (e : Fin 64), V c main_v3 (ix2 cc e) = wk (ix2 e cc))
    (h5 : ∀ (cc : Fin 768) (e : Fin 64), V c main_v5 (ix2 cc e) = wv (ix2 e cc)) :
    (dat0 (F := Ideal) V c).arrAt 5 cfg0.N = fun i => LinAttn.ktv x wk wv (i 0) (i 1) (i 2) :=
  (dat0 (F := Ideal) V c).arrAt_eq_of_cover 5 (fun i => LinAttn.ktv x wk wv (i 0) (i 1) (i 2))
    (fun t hf => flushed_eq V c x wk wv h0 h3 h5 t hf) covered

end

end Cert.KernelIdeal.Region0Value

end
-- ==== Proof.Region1Value.lean ====
/-
  What the second kernel leaves in its result array.

  The second kernel runs on a 4 × 4 grid: at point (b, s) it multiplies rows 1024 s … 1024 s + 1023 of batch b of the
  query array by batch b's 64 × 64 matrix and writes the product back as the same rows of batch b of the result.  Every
  point writes back, and the 16 blocks tile the result array, so after the run the result at (b, l, d) is the sum over
  the 64 features e of the query entry (b, l, e) times the matrix entry (b, e, d).
-/
import proofs.«147860_j24275155157741_2_alg».proof.Proof.FrameKernelIdeal.Data
import proofs.«147860_j24275155157741_2_alg».proof.Proof.PayloadAt
import Idealize.ShloMosaic.Lib.Pipeline.Value

noncomputable section

namespace Cert.KernelIdeal.Region1Value

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Frame
open scoped BigOperators

theorem hz3 : (![0, 0, 0] : Fin 3 → Nat) = fun _ => 0 := funext fun a => by fin_cases a <;> rfl

/-- The printed index maps over the grid: the query window moves with the result window, the matrix window follows its
    batch, and the result's block indices stay in their ranges. -/
theorem idx_facts : ∀ t : Fin cfg1.N,
      win1_0.index t (0 : Fin 3) = win1_2.index t (0 : Fin 3)
    ∧ win1_0.index t (1 : Fin 3) = win1_2.index t (1 : Fin 3)
    ∧ win1_0.index t (2 : Fin 3) = 0
    ∧ win1_1.index t (0 : Fin 3) = win1_2.index t (0 : Fin 3)
    ∧ win1_1.index t (1 : Fin 3) = 0
    ∧ win1_1.index t (2 : Fin 3) = 0
    ∧ win1_2.index t (0 : Fin 3) ≤ 3 ∧ win1_2.index t (1 : Fin 3) ≤ 3 ∧ win1_2.index t (2 : Fin 3) = 0 :=
  (by decide +kernel : ∀ t : Fin grid1.N, _)

/-- Every block of the result array is some point's. -/
theorem idx_onto : ∀ (q0 : Fin 4) (q1 : Fin 4), ∃ t : Fin cfg1.N, win1_2.index t = ![q0.val, q1.val, 0] :=
  (by decide +kernel : ∀ (q0 : Fin 4) (q1 : Fin 4), ∃ t : Fin grid1.N, win1_2.index t = ![q0.val, q1.val, 0])

section
variable (V : (c : Dev nD) → (b : Ref sig .tc) → Buf (Elt Ideal) ((c : Thread nD τ).loc b))

/-- The result array as one function of the query array and the matrices. -/
abbrev G (Q : S4x4096x64.Idx → EReal) (Kv : S4x64x64.Idx → EReal) : S4x4096x64.Idx → EReal :=
  fun i => ∑ e : Fin 64, Q (ix3 (i 0) (i 1) e) * Kv (ix3 (i 0) e (i 2))

/-- The stored tile at an index of the block: row and column are the index's last two coordinates. -/
theorem pay_at_block (q : Vec Ideal S1x1024x64 .bf16) (kv : Vec Ideal S1x64x64 .f32) (y : S1x1024x64.Idx) :
    k1_pay1 (F := Ideal) q kv y = ∑ e : Fin 64, q (ix3 (0 : Fin 1) (y 1) e) * kv (ix3 (0 : Fin 1) e (y 2)) := by
  obtain ⟨z, r, d, rfl⟩ : ∃ (z : Fin 1) (r : Fin 1024) (d : Fin 64), y = ix3 z r d := ⟨y 0, y 1, y 2, eq_ix3 y⟩
  obtain rfl : z = 0 := Subsingleton.elim _ _
  exact PayloadAt.k1pay_at q kv r d

/-- The query window's block at point `t`, at an index of the block, is the query array at the index whose coordinates
    are the block's index times the block's size plus the coordinate inside. -/
theorem q_block (c : Dev nD) (Q : S4x4096x64.Idx → EReal) (hq : V c main_v6_0 = Q) (t : Fin cfg1.N)
    (y : S1x1024x64.Idx) (i : S4x4096x64.Idx)
    (h0 : (i 0).val = win1_0.index t (0 : Fin 3) * 1 + 1 * (y 0).val)
    (h1 : (i 1).val = win1_0.index t (1 : Fin 3) * 1024 + 1 * (y 1).val)
    (h2 : (i 2).val = win1_0.index t (2 : Fin 3) * 64 + 1 * (y 2).val) :
    (iblk1 (F := Ideal) V c 0 t : Vec Ideal S1x1024x64 .bf16) y = Q i := by
  unfold iblk1
  show V c main_v6_0 (((cfg1.win 0).blk t).view.emb y) = Q i
  rw [hq]
  refine congrArg Q ?_
  funext a
  apply Fin.ext
  match a with
  | ⟨0, _⟩ => show win1_0.index t (0 : Fin 3) * 1 + 1 * (y 0).val = (i 0).val; omega
  | ⟨1, _⟩ => show win1_0.index t (1 : Fin 3) * 1024 + 1 * (y 1).val = (i 1).val; omega
  | ⟨2, _⟩ => show win1_0.index t (2 : Fin 3) * 64 + 1 * (y 2).val = (i 2).val; omega

/-- The matrix window's block at point `t`, likewise. -/
theorem kv_block (c : Dev nD) (Kv : S4x64x64.Idx → EReal) (hk : V c main_v6_1 = Kv) (t : Fin cfg1.N)
    (y : S1x64x64.Idx) (i : S4x64x64.Idx)
    (h0 : (i 0).val = win1_1.index t (0 : Fin 3) * 1 + 1 * (y 0).val)
    (h1 : (i 1).val = win1_1.index t (1 : Fin 3) * 64 + 1 * (y 1).val)
    (h2 : (i 2).val = win1_1.index t (2 : Fin 3) * 64 + 1 * (y 2).val) :
    (iblk1 (F := Ideal) V c 1 t : Vec Ideal S1x64x64 .f32) y = Kv i := by
  unfold iblk1
  show V c main_v6_1 (((cfg1.win 1).blk t).view.emb y) = Kv i
  rw [hk]
  refine congrArg Kv ?_
  funext a
  apply Fin.ext
  match a with
  | ⟨0, _⟩ => show win1_1.index t (0 : Fin 3) * 1 + 1 * (y 0).val = (i 0).val; omega
  | ⟨1, _⟩ => show win1_1.index t (1 : Fin 3) * 64 + 1 * (y 1).val = (i 1).val; omega
  | ⟨2, _⟩ => show win1_1.index t (2 : Fin 3) * 64 + 1 * (y 2).val = (i 2).val; omega

/-- What point `t` writes back is block `t` of that function. -/
theorem flushed_eq (c : Dev nD) (Q : S4x4096x64.Idx → EReal) (Kv : S4x64x64.Idx → EReal)
    (hq : V c main_v6_0 = Q) (hk : V c main_v6_1 = Kv) (t : Fin cfg1.N) :
    (dat1 (F := Ideal) V c).flushed 2 t = ((cfg1.win 2).blk t).view.read (Elt Ideal) (G Q Kv) := by
  show (cfg1.win 2).cut (grid1.coords t) ((dat1 (F := Ideal) V c).after 2 t) = _
  rw [after1_2]
  unfold out1_2
  rw [View.canon_unit_zero hz3]
  simp only [View.ld_unit_zero (S := S1x1024x64) hz3, View.ld_unit_zero (S := S1x64x64) hz3]
  obtain ⟨e0, e1, e2, e3, e4, e5, e6, e7, e8⟩ := idx_facts t
  funext j
  show k1_pay1 (F := Ideal) (iblk1 V c 0 t) (iblk1 V c 1 t) j = G Q Kv (((cfg1.win 2).blk t).view.emb j)
  refine (pay_at_block (iblk1 V c 0 t) (iblk1 V c 1 t) j).trans ?_
  have hj0 : (j 0).val < 1 := (j 0).isLt
  refine Finset.sum_congr rfl fun e _ => ?_
  refine congrArg₂ (· * ·) (q_block V c Q hq t _ _ ?_ ?_ ?_) (kv_block V c Kv hk t _ _ ?_ ?_ ?_)
  · show win1_2.index t (0 : Fin 3) * 1 + 1 * (j 0).val = win1_0.index t (0 : Fin 3) * 1 + 1 * 0; omega
  · show win1_2.index t (1 : Fin 3) * 1024 + 1 * (j 1).val = win1_0.index t (1 : Fin 3) * 1024 + 1 * (j 1).val; omega
  · show e.val = win1_0.index t (2 : Fin 3) * 64 + 1 * e.val; omega
  · show win1_2.index t (0 : Fin 3) * 1 + 1 * (j 0).val = win1_1.index t (0 : Fin 3) * 1 + 1 * 0; omega
  · show e.val = win1_1.index t (1 : Fin 3) * 64 + 1 * e.val; omega
  · show win1_2.index t (2 : Fin 3) * 64 + 1 * (j 2).val = win1_1.index t (2 : Fin 3) * 64 + 1 * (j 2).val; omega

/-- An index of the result array is in point `t`'s block iff each coordinate is in the block's range on its axis. -/
theorem mem_blk (t : Fin cfg1.N) (i : S4x4096x64.Idx) :
    i ∈ ((cfg1.win 2).blk t).view.set ↔ ∀ a : Fin 3, win1_2.index t a * S1x1024x64.size a ≤ (i a).val ∧ (i a).val < win1_2.index t a * S1x1024x64.size a + S1x1024x64.size a := by
  show i ∈ ((View.whole main_v7).slice (win1_2.rect t)).set ↔ _
  rw [View.set_slice_whole, Rect.mem_set_unit]
  exact Iff.rfl

/-- Every index of the result array is in the block of the point of its batch and of its tile of 1024 rows. -/
theorem covered (i : S4x4096x64.Idx) :
    ∃ t : Fin cfg1.N, (cfg1.win 2).flush t = true ∧ i ∈ ((cfg1.win 2).blk t).view.set := by
  have hi0 : (i 0).val < 4 := (i 0).isLt
  have hi1 : (i 1).val < 4096 := (i 1).isLt
  have hi2 : (i 2).val < 64 := (i 2).isLt
  obtain ⟨t, ht⟩ := idx_onto ⟨(i 0).val, hi0⟩ ⟨(i 1).val / 1024, by omega⟩
  have q0 : win1_2.index t (0 : Fin 3) = (i 0).val := congrFun ht 0
  have q1 : win1_2.index t (1 : Fin 3) = (i 1).val / 1024 := congrFun ht 1
  have q2 : win1_2.index t (2 : Fin 3) = 0 := congrFun ht 2
  refine ⟨t, flush1_2 t, ?_⟩
  rw [mem_blk]
  intro a
  match a with
  | ⟨0, _⟩ => show win1_2.index t (0 : Fin 3) * 1 ≤ (i 0).val ∧ (i 0).val < win1_2.index t (0 : Fin 3) * 1 + 1; omega
  | ⟨1, _⟩ => show win1_2.index t (1 : Fin 3) * 1024 ≤ (i 1).val ∧ (i 1).val < win1_2.index t (1 : Fin 3) * 1024 + 1024; omega
  | ⟨2, _⟩ => show win1_2.index t (2 : Fin 3) * 64 ≤ (i 2).val ∧ (i 2).val < win1_2.index t (2 : Fin 3) * 64 + 64; omega

/-- THE RESULT ARRAY after the second kernel's run: entry (b, l, d) is row l of batch b of the queries against column d
    of batch b's matrix. -/
theorem out_array (c : Dev nD) (Q : S4x4096x64.Idx → EReal) (Kv : S4x64x64.Idx → EReal)
    (hq : V c main_v6_0 = Q) (hk : V c main_v6_1 = Kv) :
    (dat1 (F := Ideal) V c).arrAt 2 cfg1.N = fun i => ∑ e : Fin 64, Q (ix3 (i 0) (i 1) e) * Kv (ix3 (i 0) e (i 2)) :=
  (dat1 (F := Ideal) V c).arrAt_eq_of_cover 2 (G Q Kv) (fun t _ => flushed_eq V c Q Kv hq hk t) covered

end

end Cert.KernelIdeal.Region1Value

end
-- ==== Proof.HostPrefix.lean ====
/-
  What the second and later stages find in the buffers the host wrote before the first kernel.

  Before the first kernel the host transposes each of the three weight matrices and narrows its float format; with
  every float an extended real the narrowing is the identity, so entry (c, e) of each buffer the kernel is handed is
  entry (e, c) of the weight matrix it came from.  The input array is written by no host operation and is found as
  launched.
-/
import proofs.«147860_j24275155157741_2_alg».proof.Proof.Gen.KernelIdeal.Regions
import proofs.«147860_j24275155157741_2_alg».proof.Proof.PayloadAt
import Idealize.ShloMosaic.Lib.StableHlo.Run

noncomputable section

namespace Cert.KernelIdeal.HostPrefix

open Idealize.ShloMosaic Idealize.ShloMosaic.TcCoe Idealize.SL.Sem Idealize.ShloMosaic.ValueIdx Idealize.ShloMosaic.StableHlo
open Cert.KernelIdeal Cert.KernelIdeal.Gen
open scoped BigOperators

variable (m : (ℓ : Loc nD τ sig) → Buf (Elt Ideal) ℓ)

/-- The buffer the first kernel reads the query weights from: that weight matrix transposed, its format narrowed. -/
theorem v1_eq (c : Dev nD) :
    (Cert.KernelIdeal.Gen.V1 (F := Ideal) m c (Proc.devRef .tc main_v1) : FVec Ideal S768x64 .bf16)
      = truncf (F := Ideal) .bf16 (transpose S768x64 [1, 0] (m ((c : Thread nD τ).loc main_arg1) : FVec Ideal S64x768 .f32) Facts₀.transposes_S64x768_S768x64_1_0) Facts₀.bitsLt_bf16_f32 := by
  show StableHlo.after hostOps0 (fun b => m (c, b)) (Proc.devRef .tc main_v1) = _
  after_results

/-- Entry (c, e) of that buffer is entry (e, c) of the query weight matrix. -/
theorem host_w1 (c : Dev nD) (cc : Fin 768) (e : Fin 64) :
    Cert.KernelIdeal.Gen.V1 m c (Proc.devRef .tc main_v1) (ix2 cc e) = m ((c : Thread nD τ).loc main_arg1) (ix2 e cc) :=
  (congrFun (v1_eq m c) (ix2 cc e)).trans (PayloadAt.wT_at _ cc e)

/-- The buffer the first kernel reads the key weights from: that weight matrix transposed, its format narrowed. -/
theorem v3_eq (c : Dev nD) :
    (Cert.KernelIdeal.Gen.V1 (F := Ideal) m c (Proc.devRef .tc main_v3) : FVec Ideal S768x64 .bf16)
      = truncf (F := Ideal) .bf16 (transpose S768x64 [1, 0] (m ((c : Thread nD τ).loc main_arg2) : FVec Ideal S64x768 .f32) Facts₀.transposes_S64x768_S768x64_1_0) Facts₀.bitsLt_bf16_f32 := by
  show StableHlo.after hostOps0 (fun b => m (c, b)) (Proc.devRef .tc main_v3) = _
  after_results

/-- Entry (c, e) of that buffer is entry (e, c) of the key weight matrix. -/
theorem host_w3 (c : Dev nD) (cc : Fin 768) (e : Fin 64) :
    Cert.KernelIdeal.Gen.V1 m c (Proc.devRef .tc main_v3) (ix2 cc e) = m ((c : Thread nD τ).loc main_arg2) (ix2 e cc) :=
  (congrFun (v3_eq m c) (ix2 cc e)).trans (PayloadAt.wT_at _ cc e)

/-- The buffer the first kernel reads the value weights from: that weight matrix transposed, its format narrowed. -/
theorem v5_eq (c : Dev nD) :
    (Cert.KernelIdeal.Gen.V1 (F := Ideal) m c (Proc.devRef .tc main_v5) : FVec Ideal S768x64 .bf16)
      = truncf (F := Ideal) .bf16 (transpose S768x64 [1, 0] (m ((c : Thread nD τ).loc main_arg3) : FVec Ideal S64x768 .f32) Facts₀.transposes_S64x768_S768x64_1_0) Facts₀.bitsLt_bf16_f32 := by
  show StableHlo.after hostOps0 (fun b => m (c, b)) (Proc.devRef .tc main_v5) = _
  after_results

/-- Entry (c, e) of that buffer is entry (e, c) of the value weight matrix. -/
theorem host_w5 (c : Dev nD) (cc : Fin 768) (e : Fin 64) :
    Cert.KernelIdeal.Gen.V1 m c (Proc.devRef .tc main_v5) (ix2 cc e) = m ((c : Thread nD τ).loc main_arg3) (ix2 e cc) :=
  (congrFun (v5_eq m c) (ix2 cc e)).trans (PayloadAt.wT_at _ cc e)

/-- The input array is found as launched: no host operation writes it. -/
theorem host_x (c : Dev nD) :
    Cert.KernelIdeal.Gen.V1 m c (Proc.devRef .tc main_arg0) = m ((c : Thread nD τ).loc main_arg0) :=
  (V1_of m c main_arg0 (by decide)).trans rfl

end Cert.KernelIdeal.HostPrefix

end
-- ==== Proof.KernelValue.lean ====
/-
  What the idealized kernel computes. The run leaves in the result array what region 1's write-backs leave; region 1
  multiplies each tile of query rows by its batch's 64 × 64 matrix; the query rows and the matrices are what region 0's
  write-backs left: the projection x · Wqᵀ, and per batch (Kᵀ V) / 8 accumulated over the four tiles; and the transposed
  weight matrices region 0 reads are what the six host operations made of the arguments. Put together, the result array
  is the keys-values-first arrangement of the four argument arrays, index by index.
-/
import proofs.«147860_j24275155157741_2_alg».proof.Proof.FrameKernelIdeal.Run
import proofs.«147860_j24275155157741_2_alg».proof.Proof.Region0Q
import proofs.«147860_j24275155157741_2_alg».proof.Proof.Region0Value
import proofs.«147860_j24275155157741_2_alg».proof.Proof.Region1Value
import proofs.«147860_j24275155157741_2_alg».proof.Proof.HostPrefix

noncomputable section

namespace Cert.KernelIdeal.KernelValue

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Frame

/-- The result array after the run, as a function of the launch memory's four argument arrays. -/
theorem kernel_value (m : (ℓ : Loc nD τ sig) → Buf (Elt Ideal) ℓ) (c : Dev nD) :
    (dat1 (F := Ideal) (VE1 m) c).arrAt 2 cfg1.N
      = LinAttn.outKer (m ((c : Thread nD τ).loc main_arg0)) (m ((c : Thread nD τ).loc main_arg1))
          (m ((c : Thread nD τ).loc main_arg2)) (m ((c : Thread nD τ).loc main_arg3)) := by
  have hQ : VE1 m c main_v6_0
      = fun i => LinAttn.proj (m ((c : Thread nD τ).loc main_arg0)) (m ((c : Thread nD τ).loc main_arg1)) (i 0) (i 1) (i 2) :=
    (W2_arr m c 4).trans
      (Cert.KernelIdeal.Region0Q.q_array (VE0 m) c _ _ (Cert.KernelIdeal.HostPrefix.host_x m c) (Cert.KernelIdeal.HostPrefix.host_w1 m c))
  have hK : VE1 m c main_v6_1
      = fun i => LinAttn.ktv (m ((c : Thread nD τ).loc main_arg0)) (m ((c : Thread nD τ).loc main_arg2))
          (m ((c : Thread nD τ).loc main_arg3)) (i 0) (i 1) (i 2) :=
    (W2_arr m c 5).trans
      (Cert.KernelIdeal.Region0Value.ktv_array (VE0 m) c _ _ _ (Cert.KernelIdeal.HostPrefix.host_x m c)
        (Cert.KernelIdeal.HostPrefix.host_w3 m c) (Cert.KernelIdeal.HostPrefix.host_w5 m c))
  rw [Cert.KernelIdeal.Region1Value.out_array (VE1 m) c _ _ hQ hK]
  rfl

end Cert.KernelIdeal.KernelValue

end
-- ==== Proof.RefSide.lean ====
/-
  The reference's side: its run and its operations read at an index are imported here; the statement that the
  reference's result is the scores-first arrangement is proved in this module.

  The reference forms the three projections q, k, v of the input (each entry a sum over the 768 features), the scores
  s[b, l, j] = Σ_e q[b, l, e] · k[b, j, e], scales every score by the constant 1/8, and contracts the scaled scores
  with v over the 4096 rows j.  Read at coordinates (b, l, d), entry by entry, that is the scores-first arrangement.
  The [4, 4096, 4096] array of scores is only ever read at one symbolic index.
-/
import proofs.«147860_j24275155157741_2_alg».proof.Proof.Gen.ReferenceIdeal.Run
import proofs.«147860_j24275155157741_2_alg».proof.Proof.Gen.ReferenceIdeal.Read
import proofs.«147860_j24275155157741_2_alg».proof.Proof.Spec

noncomputable section

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx
open scoped BigOperators

/-- The query projection at coordinates. -/
theorem v0_at (a0 : FVec Ideal S4x4096x768 .f32) (a1 : FVec Ideal S64x768 .f32)
    (b : Fin 4) (l : Fin 4096) (e : Fin 64) :
    val_main_v0 (F := Ideal) a0 a1 (ix3 b l e) = LinAttn.proj a0 a1 b l e := by
  rw [val_main_v0_apply]
  unfold LinAttn.proj
  refine Finset.sum_congr rfl fun c _ => ?_
  have el : lidx_main_v0 (ix3 b l e) c = ix3 b l c :=
    funext fun a => Fin.ext (by match a with | ⟨0, _⟩ => rfl | ⟨1, _⟩ => rfl | ⟨2, _⟩ => rfl)
  have er : ridx_main_v0 (ix3 b l e) c = ix2 e c :=
    funext fun a => Fin.ext (by match a with | ⟨0, _⟩ => rfl | ⟨1, _⟩ => rfl)
  rw [el, er]

/-- The key projection at coordinates. -/
theorem v1_at (a0 : FVec Ideal S4x4096x768 .f32) (a2 : FVec Ideal S64x768 .f32)
    (b : Fin 4) (l : Fin 4096) (e : Fin 64) :
    val_main_v1 (F := Ideal) a0 a2 (ix3 b l e) = LinAttn.proj a0 a2 b l e := by
  rw [val_main_v1_apply]
  unfold LinAttn.proj
  refine Finset.sum_congr rfl fun c _ => ?_
  have el : lidx_main_v1 (ix3 b l e) c = ix3 b l c :=
    funext fun a => Fin.ext (by match a with | ⟨0, _⟩ => rfl | ⟨1, _⟩ => rfl | ⟨2, _⟩ => rfl)
  have er : ridx_main_v1 (ix3 b l e) c = ix2 e c :=
    funext fun a => Fin.ext (by match a with | ⟨0, _⟩ => rfl | ⟨1, _⟩ => rfl)
  rw [el, er]

/-- The value projection at coordinates. -/
theorem v2_at (a0 : FVec Ideal S4x4096x768 .f32) (a3 : FVec Ideal S64x768 .f32)
    (b : Fin 4) (l : Fin 4096) (e : Fin 64) :
    val_main_v2 (F := Ideal) a0 a3 (ix3 b l e) = LinAttn.proj a0 a3 b l e := by
  rw [val_main_v2_apply]
  unfold LinAttn.proj
  refine Finset.sum_congr rfl fun c _ => ?_
  have el : lidx_main_v2 (ix3 b l e) c = ix3 b l c :=
    funext fun a => Fin.ext (by match a with | ⟨0, _⟩ => rfl | ⟨1, _⟩ => rfl | ⟨2, _⟩ => rfl)
  have er : ridx_main_v2 (ix3 b l e) c = ix2 e c :=
    funext fun a => Fin.ext (by match a with | ⟨0, _⟩ => rfl | ⟨1, _⟩ => rfl)
  rw [el, er]

/-- The scaled score of query row `l` against key row `j` in batch `b`. -/
theorem v5_at (a0 : FVec Ideal S4x4096x768 .f32) (a1 a2 : FVec Ideal S64x768 .f32)
    (b : Fin 4) (l j : Fin 4096) :
    val_main_v5 (F := Ideal) a0 a1 a2 (ix3 b l j)
      = (∑ e : Fin 64, LinAttn.proj a0 a1 b l e * LinAttn.proj a0 a2 b j e) * LinAttn.c8 := by
  rw [val_main_v5_apply, val_main_v3_apply, val_main_v4_apply, val_main_cst_apply, Ideal.mulf_def, Ideal.ofBits_def]
  refine congrArg (· * LinAttn.c8) ?_
  refine Finset.sum_congr rfl fun e _ => ?_
  have el : lidx_main_v3 (ix3 b l j) e = ix3 b l e :=
    funext fun a => Fin.ext (by match a with | ⟨0, _⟩ => rfl | ⟨1, _⟩ => rfl | ⟨2, _⟩ => rfl)
  have er : ridx_main_v3 (ix3 b l j) e = ix3 b j e :=
    funext fun a => Fin.ext (by match a with | ⟨0, _⟩ => rfl | ⟨1, _⟩ => rfl | ⟨2, _⟩ => rfl)
  rw [el, er, v0_at, v1_at]

/-- The reference run's result term is the scores-first arrangement of its four arguments. -/
theorem result_eq (a0 : FVec Ideal S4x4096x768 .f32)
    (a1 a2 a3 : FVec Ideal S64x768 .f32) :
    Host.dotGeneral dot_S4x4096x4096_S4x4096x64_S4x4096x64_2_1_1_2_0_0 none (mulf (Host.dotGeneral dot_S4x4096x64_S4x4096x64_S4x4096x4096_2_2_1_1_0_0 none (Host.dotGeneral dot_S4x4096x768_S64x768_S4x4096x64_2_1_01_0_n_n none a0 a1) (Host.dotGeneral dot_S4x4096x768_S64x768_S4x4096x64_2_1_01_0_n_n none a0 a2)) (broadcastInDim S4x4096x4096 ![] bcast_S_S4x4096x4096 (constant (F := Ideal) S_ .f32 0x3E000000#32))) (Host.dotGeneral dot_S4x4096x768_S64x768_S4x4096x64_2_1_01_0_n_n none a0 a3)
      = LinAttn.outRef a0 a1 a2 a3 := by
  refine (val_main_v6_eq (F := Ideal) a0 a1 a2 a3).trans ?_
  funext i
  obtain ⟨b, l, d, rfl⟩ : ∃ (b : Fin 4) (l : Fin 4096) (d : Fin 64), i = ix3 b l d := ⟨i 0, i 1, i 2, eq_ix3 i⟩
  show val_main_v6 (F := Ideal) a0 a1 a2 a3 (ix3 b l d) = LinAttn.outRefAt a0 a1 a2 a3 b l d
  rw [val_main_v6_apply]
  unfold LinAttn.outRefAt
  refine Finset.sum_congr rfl fun j _ => ?_
  have el : lidx_main_v6 (ix3 b l d) j = ix3 b l j :=
    funext fun a => Fin.ext (by match a with | ⟨0, _⟩ => rfl | ⟨1, _⟩ => rfl | ⟨2, _⟩ => rfl)
  have er : ridx_main_v6 (ix3 b l d) j = ix3 b j d :=
    funext fun a => Fin.ext (by match a with | ⟨0, _⟩ => rfl | ⟨1, _⟩ => rfl | ⟨2, _⟩ => rfl)
  rw [el, er, v5_at, v2_at]

end Cert.ReferenceIdeal.RefValue

end
-- ==== Proof.LibRealSums.lean ====
/-
  Finite sums of real numbers, read on the extended reals.

  Coercion from the reals to the extended reals commutes with a finite sum (`coe_sum_real`: by induction on the index
  set, the coercion being additive), and a finite sum of products of extended reals each of which is a real number is the
  coercion of the real sum of the real products (`sum_mul_of_real`).  With these a computation on extended reals whose
  inputs are all finite can be carried out in the reals, where a factor moves across a sum and a nonzero divisor cancels.
-/
import Mathlib.Data.EReal.Operations
import Mathlib.Algebra.BigOperators.Fin

open scoped BigOperators

namespace RealSums

/-- A finite sum of real numbers, read on the extended reals, is the sum of the readings. -/
theorem coe_sum_real {ι : Type*} (s : Finset ι) (f : ι → ℝ) :
    ((∑ i ∈ s, f i : ℝ) : EReal) = ∑ i ∈ s, (f i : EReal) := by
  classical
  refine Finset.induction_on s (by simp) ?_
  intro a t ha ih
  rw [Finset.sum_insert ha, Finset.sum_insert ha, EReal.coe_add, ih]

/-- A finite sum of products of entries that are real numbers is the real sum of the real products. -/
theorem sum_mul_of_real {ι : Type*} [Fintype ι] (A B : ι → EReal) (a b : ι → ℝ)
    (hA : ∀ i, A i = (a i : EReal)) (hB : ∀ i, B i = (b i : EReal)) :
    ∑ i, A i * B i = ((∑ i, a i * b i : ℝ) : EReal) := by
  rw [coe_sum_real]
  exact Finset.sum_congr rfl (fun i _ => by rw [hA, hB, EReal.coe_mul])

end RealSums
-- ==== Proof.LibTiles.lean ====
/-
  A sum over `T · B` consecutive indices, cut into `T` tiles of `B`, and a running total over tiles.

  `sum_tiles`: index `j < T · B` is `J · B + b` for exactly one tile `J < T` and one offset `b < B`, so the sum over all
  `j` is the sum over tiles of the sums over offsets.  `fold_tiles`: the running total that starts at `0 + a 0` and
  adds `a 1`, `a 2`, … in turn is, after `n` further steps, the sum of `a 0 … a n`.
-/
import Mathlib.Algebra.BigOperators.Fin
import Mathlib.Tactic.Ring

open scoped BigOperators

namespace Tiles

/-- The sum over tiles of the sums inside each tile is the sum over all indices. -/
theorem sum_tiles {M : Type*} [AddCommMonoid M] (T B : ℕ) (f : ℕ → M) :
    ∑ J : Fin T, ∑ b : Fin B, f (J.val * B + b.val) = ∑ j : Fin (T * B), f j.val := by
  rw [← (finProdFinEquiv (m := T) (n := B)).sum_comp (fun j => f j.val), Fintype.sum_prod_type]
  refine Finset.sum_congr rfl fun J _ => Finset.sum_congr rfl fun b _ => ?_
  refine congrArg f ?_
  show J.val * B + b.val = b.val + B * J.val
  ring

/-- The running total over tiles, started from `0 + a 0`, is the sum of the tiles' contributions. -/
theorem fold_tiles {M : Type*} [AddCommMonoid M] (a : ℕ → M) (n : ℕ) :
    (Nat.rec (motive := fun _ => M) (0 + a 0) (fun k x => x + a (k + 1)) n) = ∑ J ∈ Finset.range (n + 1), a J := by
  induction n with
  | zero => simp
  | succ k ih =>
    show (Nat.rec (motive := fun _ => M) (0 + a 0) (fun k x => x + a (k + 1)) k) + a (k + 1) = _
    rw [ih, Finset.sum_range_succ _ (k + 1)]

end Tiles
-- ==== Proof.Regroup.lean ====
/-
  The two arrangements of softmax-free attention agree on arrays of real numbers.

  Fix a batch b, a query row l and an output column d, and write Q e, K j e, V j for the three projections' entries
  (e < 64 features, j < 4096 rows).  Keys-values first gives  Σ_e Q e · ((0 + t₀ e + t₁ e + t₂ e + t₃ e) · 1/8)  with
  t_t e = Σ_{r < 1024} K (1024 t + r) e · V (1024 t + r)  the contribution of tile t;  scores first gives
  Σ_j ((Σ_e Q e · K j e) · 1/8) · V j.  When every entry is a real number each side is the reading, on the extended
  reals, of a real expression (the reading of reals commutes with sums and products).  Over the reals the running total
  of the four tiles is the sum over all 4096 rows, a factor moves across a finite sum, the two finite sums are
  exchanged, and both sides are the triple sum Σ_j Σ_e Q e · K j e · V j / 8.
-/
import proofs.«147860_j24275155157741_2_alg».proof.Proof.Spec
import proofs.«147860_j24275155157741_2_alg».proof.Proof.LibRealSums
import proofs.«147860_j24275155157741_2_alg».proof.Proof.LibTiles
import Mathlib.Tactic.Ring
import Mathlib.Tactic.NormNum
import Mathlib.Algebra.BigOperators.Ring.Finset

noncomputable section

namespace LinAttn

open Idealize.ShloMosaic Idealize.ShloMosaic.ValueIdx
open scoped BigOperators

/-- The scale's word denotes the real number 1/8. -/
theorem c8_real : c8 = ((1 / 8 : ℝ) : EReal) := by
  simp [c8, Ideal.ofBits, Ideal.ieee]
  norm_cast
  norm_num

/-- Over the reals: the four tiles of 1024 rows, added in turn to 0, make the sum over all 4096 rows. -/
theorem tiles_real (g : Fin 4096 → ℝ) :
    ((((0 + ∑ r : Fin 1024, g (row 0 r)) + ∑ r : Fin 1024, g (row 1 r)) + ∑ r : Fin 1024, g (row 2 r))
        + ∑ r : Fin 1024, g (row 3 r)) = ∑ j : Fin 4096, g j := by
  have h := Tiles.sum_tiles (M := ℝ) 4 1024 (fun n => if hn : n < 4096 then g ⟨n, hn⟩ else 0)
  have hR : (∑ j : Fin (4 * 1024), (fun n => if hn : n < 4096 then g ⟨n, hn⟩ else 0) j.val) = ∑ j : Fin 4096, g j := by
    show (∑ j : Fin 4096, (fun n => if hn : n < 4096 then g ⟨n, hn⟩ else 0) j.val) = ∑ j : Fin 4096, g j
    exact Finset.sum_congr rfl fun j _ => by simp [j.isLt]
  have hL : ∀ t : Fin 4, (∑ r : Fin 1024, (fun n => if hn : n < 4096 then g ⟨n, hn⟩ else 0) (t.val * 1024 + r.val))
      = ∑ r : Fin 1024, g (row t r) := fun t =>
    Finset.sum_congr rfl fun r _ => by
      have hlt : t.val * 1024 + r.val < 4096 := by omega
      simp only [dif_pos hlt]
      rfl
  rw [← hR, ← h, Fin.sum_univ_four, hL 0, hL 1, hL 2, hL 3, zero_add]

/-- Over the reals: keys-values first equals scores first. -/
theorem regroup_real (Q : Fin 64 → ℝ) (K : Fin 4096 → Fin 64 → ℝ) (V : Fin 4096 → ℝ) :
    ∑ e : Fin 64, Q e * (((((0 + ∑ r : Fin 1024, K (row 0 r) e * V (row 0 r))
          + ∑ r : Fin 1024, K (row 1 r) e * V (row 1 r)) + ∑ r : Fin 1024, K (row 2 r) e * V (row 2 r))
          + ∑ r : Fin 1024, K (row 3 r) e * V (row 3 r)) * (1 / 8))
      = ∑ j : Fin 4096, ((∑ e : Fin 64, Q e * K j e) * (1 / 8)) * V j := by
  have ht : ∀ e : Fin 64, ((((0 + ∑ r : Fin 1024, K (row 0 r) e * V (row 0 r))
          + ∑ r : Fin 1024, K (row 1 r) e * V (row 1 r)) + ∑ r : Fin 1024, K (row 2 r) e * V (row 2 r))
          + ∑ r : Fin 1024, K (row 3 r) e * V (row 3 r)) = ∑ j : Fin 4096, K j e * V j :=
    fun e => tiles_real (fun j => K j e * V j)
  simp only [ht, Finset.sum_mul, Finset.mul_sum]
  rw [Finset.sum_comm]
  exact Finset.sum_congr rfl fun j _ => Finset.sum_congr rfl fun e _ => by ring

/-- On the extended reals, for projections all of whose entries are real numbers. -/
theorem regroup (Q : Fin 64 → EReal) (K : Fin 4096 → Fin 64 → EReal) (V : Fin 4096 → EReal)
    (hQ : ∀ e, ∃ r : ℝ, Q e = (r : EReal)) (hK : ∀ j e, ∃ r : ℝ, K j e = (r : EReal))
    (hV : ∀ j, ∃ r : ℝ, V j = (r : EReal)) :
    ∑ e : Fin 64, Q e * (((((0 + ∑ r : Fin 1024, K (row 0 r) e * V (row 0 r))
          + ∑ r : Fin 1024, K (row 1 r) e * V (row 1 r)) + ∑ r : Fin 1024, K (row 2 r) e * V (row 2 r))
          + ∑ r : Fin 1024, K (row 3 r) e * V (row 3 r)) * c8)
      = ∑ j : Fin 4096, ((∑ e : Fin 64, Q e * K j e) * c8) * V j := by
  choose q hq using hQ
  choose k hk using hK
  choose v hv using hV
  have htile : ∀ (t : Fin 4) (e : Fin 64), (∑ r : Fin 1024, K (row t r) e * V (row t r))
      = ((∑ r : Fin 1024, k (row t r) e * v (row t r) : ℝ) : EReal) := fun t e =>
    RealSums.sum_mul_of_real _ _ _ _ (fun r => hk (row t r) e) (fun r => hv (row t r))
  have hktv : ∀ e : Fin 64, (((((0 + ∑ r : Fin 1024, K (row 0 r) e * V (row 0 r))
          + ∑ r : Fin 1024, K (row 1 r) e * V (row 1 r)) + ∑ r : Fin 1024, K (row 2 r) e * V (row 2 r))
          + ∑ r : Fin 1024, K (row 3 r) e * V (row 3 r)) * c8)
      = (((((((0 + ∑ r : Fin 1024, k (row 0 r) e * v (row 0 r))
          + ∑ r : Fin 1024, k (row 1 r) e * v (row 1 r)) + ∑ r : Fin 1024, k (row 2 r) e * v (row 2 r))
          + ∑ r : Fin 1024, k (row 3 r) e * v (row 3 r)) * (1 / 8) : ℝ)) : EReal) := fun e => by
    rw [htile 0 e, htile 1 e, htile 2 e, htile 3 e, c8_real, ← EReal.coe_zero, ← EReal.coe_add, ← EReal.coe_add,
      ← EReal.coe_add, ← EReal.coe_add, ← EReal.coe_mul]
  have hscore : ∀ j : Fin 4096, ((∑ e : Fin 64, Q e * K j e) * c8)
      = ((((∑ e : Fin 64, q e * k j e) * (1 / 8) : ℝ)) : EReal) := fun j => by
    rw [RealSums.sum_mul_of_real _ _ _ _ hq (hk j), c8_real, ← EReal.coe_mul]
  rw [RealSums.sum_mul_of_real _ _ _ _ hq hktv, RealSums.sum_mul_of_real _ _ _ _ hscore hv]
  exact congrArg _ (regroup_real q k v)

/-- A projection of arrays of real numbers is a real number. -/
theorem proj_real (x : SX.Idx → EReal) (w : SW.Idx → EReal)
    (hx : ∀ i, ∃ r : ℝ, x i = (r : EReal)) (hw : ∀ i, ∃ r : ℝ, w i = (r : EReal))
    (b : Fin 4) (l : Fin 4096) (e : Fin 64) : ∃ r : ℝ, proj x w b l e = (r : EReal) := by
  choose xr hxr using hx
  choose wr hwr using hw
  exact ⟨_, RealSums.sum_mul_of_real _ _ _ _ (fun c => hxr (ix3 b l c)) (fun c => hwr (ix2 e c))⟩

/-- THE LAW: on arrays of real numbers the keys-values-first arrangement is the scores-first one. -/
theorem outKer_eq_outRef (x : LinAttn.SX.Idx → EReal) (wq wk wv : LinAttn.SW.Idx → EReal)
    (hx : ∀ i, ∃ r : ℝ, x i = (r : EReal)) (hq : ∀ i, ∃ r : ℝ, wq i = (r : EReal))
    (hk : ∀ i, ∃ r : ℝ, wk i = (r : EReal)) (hv : ∀ i, ∃ r : ℝ, wv i = (r : EReal)) :
    LinAttn.outKer x wq wk wv = LinAttn.outRef x wq wk wv := by
  funext i
  show outKerAt x wq wk wv (i 0) (i 1) (i 2) = outRefAt x wq wk wv (i 0) (i 1) (i 2)
  unfold outKerAt outRefAt ktv tile
  exact regroup (fun e => proj x wq (i 0) (i 1) e) (fun j e => proj x wk (i 0) j e) (fun j => proj x wv (i 0) j (i 2))
    (fun e => proj_real x wq hx hq _ _ e) (fun j e => proj_real x wk hx hk _ j e) (fun j => proj_real x wv hx hv _ j _)

end LinAttn

end
-- ==== Proof.LibFiniteReal.lean ====
/-
  An array of extended reals every entry of which has absolute value below +∞ is an array of real numbers.

  A "finite inputs" precondition is printed, per float array, as: the absolute value entry by entry, compared (ordered
  less-than) against the broadcast word of +∞, and the comparison bits joined by `and` over all axes starting from 1.
  `real_of_abs_lt_inf` is the fact at one entry: an extended real `x` with `max x (-x) < ⊤` is neither `⊤` nor `⊥`, hence
  a real number.  `all_real` is the fact for one array of ANY shape: if that conjunction is 1, every entry is a real
  number (the entry is read at a symbolic index; nothing is evaluated over the index set).  Imports only the library.
-/
import Idealize.ShloMosaic.Lib.ValueIdx
import Idealize.ShloMosaic.Lib.ReduceAll
import Idealize.ShloMosaic.PureOps.Ideal.Laws

noncomputable section

namespace FiniteReal

open Idealize.ShloMosaic

/-- The rank-0 shape has exactly one index (a function out of the empty set of axes). -/
instance subsingleton_scalar_idx : Subsingleton (⟨0, ![]⟩ : Shape).Idx := ⟨fun _ _ => funext fun d => d.elim0⟩

/-- The word `0x7F800000` denotes `+∞` at f32. -/
theorem ofBits_inf : Ideal.ofBits .f32 0x7F800000#32 = (⊤ : EReal) := by simp [Ideal.ofBits, Ideal.ieee]

/-- A one-bit word built from a Boolean is 1 exactly when the Boolean is true. -/
theorem ofBool_eq_one (b : Bool) : BitVec.ofBool b = 1#1 ↔ b = true := by cases b <;> decide

/-- THE ELEMENT FACT: an extended real `x` with `|x| < +∞` (the comparison the predicate makes at one entry) is a
    real number: `x = ⊥` gives `|x| = max ⊥ ⊤ = ⊤`, `x = ⊤` gives `|x| = ⊤`, neither below `⊤`. -/
theorem real_of_abs_lt_inf (x : EReal)
    (hx : FloatOps.cmpf (F := Ideal) (φ := .f32) .olt (FloatOps.hostAbsf (F := Ideal) (φ := .f32) x)
        (FloatOps.ofBits (F := Ideal) .f32 0x7F800000#32) = 1#1) :
    ∃ r : ℝ, x = (r : EReal) := by
  change Ideal.cmp .olt (max x (-x)) (Ideal.ofBits .f32 0x7F800000#32) = 1#1 at hx
  rw [ofBits_inf] at hx
  unfold Ideal.cmp at hx
  rw [ofBool_eq_one] at hx
  have hlt : max x (-x) < ⊤ := of_decide_eq_true hx
  rw [max_lt_iff] at hlt
  induction x using EReal.rec with
  | bot => exact absurd hlt.2 (by simp)
  | coe r => exact ⟨r, rfl⟩
  | top => exact absurd hlt.1 (by simp)

/-- ONE ARRAY: if the conjunction over all entries of `|a j| < +∞` (a reduction by `and` over all axes, from 1, of
    the entrywise comparison against the broadcast `+∞`) is 1, every entry of `a` is a real number. Generic in the
    array's shape: the entry is read at a symbolic index. -/
theorem all_real {s : Shape} {axes : List (Fin s.rank)}
    (hb : (⟨0, ![]⟩ : Shape).BroadcastsInDim s (![] : Fin 0 → Fin s.rank))
    (hr : s.ReducesTo axes (⟨0, ![]⟩ : Shape)) (hu : 0 < (⟨0, ![]⟩ : Shape).numel) (a : FVec Ideal s .f32)
    (i : (⟨0, ![]⟩ : Shape).Idx)
    (e : Host.reduce IntOp.andi
        (cmpf .olt (Host.absf a)
          (broadcastInDim s ![] hb (constant (F := Ideal) (⟨0, ![]⟩ : Shape) .f32 0x7F800000#32)))
        (constantI (⟨0, ![]⟩ : Shape) 1 1#1) hr hu i = 1#1) :
    ∀ j, ∃ r : ℝ, a j = (r : EReal) := fun j =>
  real_of_abs_lt_inf (a j) (Host.reduce_andi_all _ _ hr hu i e j)

end FiniteReal

end
-- ==== Proof.FiniteInputs.lean ====
/-
  The "finite inputs" precondition makes every entry of the four argument arrays a real number.

  The precondition is printed as one bit: for each of the four arrays, the conjunction over all entries of
  |entry| < +∞, and the four conjunctions joined by `and`.  That bit being 1 gives each of the four conjunctions
  (a conjunction of two bits is 1 exactly when both are), and a conjunction over an array being 1 gives every entry of
  that array an absolute value below +∞, hence neither +∞ nor −∞: a real number.
-/
import proofs.«147860_j24275155157741_2_alg».proof.Defs
import proofs.«147860_j24275155157741_2_alg».proof.Proof.LibFiniteReal

noncomputable section

namespace Cert

open Idealize.ShloMosaic Idealize.SL.Sem

/-- Under the precondition every entry of the input and of the three weight matrices is a real number. -/
theorem real_of_pre [hPre_finite_inputs : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
      (∀ i, ∃ r : ℝ, m ((c.tc : Thread Cert.KernelIdeal.nD Cert.KernelIdeal.τ).loc Cert.KernelIdeal.main_arg0) i = (r : EReal))
    ∧ (∀ i, ∃ r : ℝ, m ((c.tc : Thread Cert.KernelIdeal.nD Cert.KernelIdeal.τ).loc Cert.KernelIdeal.main_arg1) i = (r : EReal))
    ∧ (∀ i, ∃ r : ℝ, m ((c.tc : Thread Cert.KernelIdeal.nD Cert.KernelIdeal.τ).loc Cert.KernelIdeal.main_arg2) i = (r : EReal))
    ∧ (∀ i, ∃ r : ℝ, m ((c.tc : Thread Cert.KernelIdeal.nD Cert.KernelIdeal.τ).loc Cert.KernelIdeal.main_arg3) i = (r : EReal)) := by
  have h0 := congrFun (h c) ValueIdx.ix0
  dsimp only [Cert.Pre_finite_inputs.fn, Cert.Pre_finite_inputs.fn_part1] at h0
  obtain ⟨h012, e3⟩ := IntOp.andi_eq_one.1 h0
  obtain ⟨h01, e2⟩ := IntOp.andi_eq_one.1 h012
  obtain ⟨e0, e1⟩ := IntOp.andi_eq_one.1 h01
  exact ⟨FiniteReal.all_real _ _ _ _ _ e0, FiniteReal.all_real _ _ _ _ _ e1, FiniteReal.all_real _ _ _ _ _ e2,
    FiniteReal.all_real _ _ _ _ _ e3⟩

end Cert

end
-- ==== Proof.lean ====
/-
  A kernel for softmax-free attention against its plain reference, over the extended reals.

  The kernel forms, per batch, the 64 × 64 matrix (Kᵀ V) / 8 once — accumulated over four tiles of 1024 rows in a scratch
  it carries from tile to tile — and multiplies the query rows by it; the reference forms the 4096 × 4096 score matrix
  (Q Kᵀ) / 8 and multiplies it by V. Both are the triple sum Σ_j Σ_e q·k·v / 8, regrouped; the regrouping moves factors
  across sums, which is sound because every entry is a real number: the precondition says every input is finite.

  The three frames: both kernel programs run to the end and leave the arguments as launched by the run of their two
  regions (the same proof at the word level and at the ideal instance); the reference by its run with the result
  dropped. Nothing was rewritten between the word-level kernel and its idealization, so that conjunct is trivial. The
  two idealized programs end with equal results: the kernel's result array is the keys-values-first arrangement of the
  arguments, the reference's the scores-first one, and the two arrangements agree on real entries.
-/
import proofs.«147860_j24275155157741_2_alg».proof.Defs
import proofs.«147860_j24275155157741_2_alg».proof.Proof.Gen.Kernel
import proofs.«147860_j24275155157741_2_alg».proof.Proof.Gen.KernelIdeal
import proofs.«147860_j24275155157741_2_alg».proof.Proof.Gen.ReferenceIdeal
import proofs.«147860_j24275155157741_2_alg».proof.Proof.Gen.Pre_finite_inputs
import proofs.«147860_j24275155157741_2_alg».proof.Proof.FrameKernel.Run
import proofs.«147860_j24275155157741_2_alg».proof.Proof.FrameKernelIdeal.Run
import proofs.«147860_j24275155157741_2_alg».proof.Proof.KernelValue
import proofs.«147860_j24275155157741_2_alg».proof.Proof.RefSide
import proofs.«147860_j24275155157741_2_alg».proof.Proof.Regroup
import proofs.«147860_j24275155157741_2_alg».proof.Proof.FiniteInputs

noncomputable section

namespace Cert.Proof

open Idealize.ShloMosaic Idealize.ShloMosaic.TcCoe Idealize.SL.Sem

section Claims
variable [hKernel : Cert.Kernel.Facts] [hKernelIdeal : Cert.KernelIdeal.Facts] [hReferenceIdeal : Cert.ReferenceIdeal.Facts]
  [hPre_finite_inputs : Cert.Pre_finite_inputs.Facts]

theorem frame_k : Cert.frame_Kernel := fun m ρ _ => Cert.Kernel.Frame.frame m ρ
theorem frame_ki : Cert.frame_KernelIdeal := fun m ρ _ => Cert.KernelIdeal.Frame.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both idealized programs end with the keys-values-first arrangement of the arguments in their result arrays: the
    kernel by its run and what its regions leave, the reference by its run, its operations read at an index, and the
    regrouping of the triple sum on real entries. -/
theorem algebraic : Cert.algebraic_KernelIdeal_ReferenceIdeal := by
  intro m ρ m' ρ' hpre hagree
  refine ⟨fun c => LinAttn.outKer (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun r h c => ⟨(h c).1.trans (Cert.KernelIdeal.KernelValue.kernel_value m c), (h c).2⟩)
      (Cert.KernelIdeal.Frame.run_result (F := Ideal) m ρ)
  · refine (θ_run Cert.ReferenceIdeal.defs _ _).mono (fun _ h c => ⟨(h c).1.trans ?_, (h c).2⟩)
      (Cert.ReferenceIdeal.Value.run (F := Ideal) m' ρ')
    obtain ⟨hx, hq, hk, hv⟩ := Cert.real_of_pre m hpre c
    rw [(hagree c).1, (hagree c).2.1, (hagree c).2.2.1, (hagree c).2.2.2]
    exact (Cert.ReferenceIdeal.RefValue.result_eq _ _ _ _).trans (LinAttn.outKer_eq_outRef _ _ _ _ hx hq hk hv).symm

end Claims

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
